-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S1x32 : Shape := ⟨2, ![1, 32]⟩
abbrev S1x1 : Shape := ⟨2, ![1, 1]⟩
abbrev S10000x1 : Shape := ⟨2, ![10000, 1]⟩
abbrev S200x10000 : Shape := ⟨2, ![200, 10000]⟩
abbrev S10000x64 : Shape := ⟨2, ![10000, 64]⟩
abbrev S200x128 : Shape := ⟨2, ![200, 128]⟩
abbrev S200x64 : Shape := ⟨2, ![200, 64]⟩
abbrev S200x32 : Shape := ⟨2, ![200, 32]⟩
abbrev S200x1 : Shape := ⟨2, ![200, 1]⟩

abbrev nBuf : Space → Nat
  | .hbm => 13
  | .vmem => 15
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S10000x128, .bf16⟩
  | .hbm, ⟨9, _⟩ => ⟨S1x64, .f32⟩
  | .hbm, ⟨10, _⟩ => ⟨S1x32, .f32⟩
  | .hbm, ⟨11, _⟩ => ⟨S1x1, .f32⟩
  | .hbm, ⟨12, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .bf16⟩
  | .local _ .vmem, ⟨5, _⟩ => ⟨S10000x128, .f32⟩
  | .local _ .vmem, ⟨6, _⟩ => ⟨S1x64, .f32⟩
  | .local _ .vmem, ⟨7, _⟩ => ⟨S128x64, .f32⟩
  | .local _ .vmem, ⟨8, _⟩ => ⟨S1x32, .f32⟩
  | .local _ .vmem, ⟨9, _⟩ => ⟨S64x32, .f32⟩
  | .local _ .vmem, ⟨10, _⟩ => ⟨S32x1, .f32⟩
  | .local _ .vmem, ⟨11, _⟩ => ⟨S1x1, .f32⟩
  | .local _ .vmem, ⟨12, _⟩ => ⟨S10000x1, .f32⟩
  | .local _ .vmem, ⟨13, _⟩ => ⟨S10000x64, .f32⟩
  | .local _ .vmem, ⟨14, _⟩ => ⟨S10000x64, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) (c0_i32_5 : BitVec 32) : Fin 2 → Nat :=
  let arg0 : BitVec 32 := BitVec.ofNat 32 (i 0).val
  let c400_i32 : BitVec 32 := 400#32
  let v11 : BitVec 32 := Scalar.muli arg0 c400_i32
  let v12 : BitVec 32 := Scalar.addi v11 c0_i32_5
  let v13 : Index := Scalar.indexCast v12
  let c0_6 : Index := 0#32
  ![v13.toNat, 0]
def k0_off2 (i : grid0.Coords) (c0_i32_15 : BitVec 32) : Fin 2 → Nat :=
  let arg0 : BitVec 32 := BitVec.ofNat 32 (i 0).val
  let c400_i32_14 : BitVec 32 := 400#32
  let v28 : BitVec 32 := Scalar.muli arg0 c400_i32_14
  let v29 : BitVec 32 := Scalar.addi v28 c0_i32_15
  let v30 : Index := Scalar.indexCast v29
  let c0_16 : Index := 0#32
  ![v30.toNat, 0]
def k0_cond2 (i : grid0.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def k0_off3 (i : grid0.Coords) (c0_i32_6 : BitVec 32) : Fin 2 → Nat :=
  let arg0 : BitVec 32 := BitVec.ofNat 32 (i 0).val
  let c25_i32_2 : BitVec 32 := 25#32
  let v6 : BitVec 32 := Scalar.subi arg0 c25_i32_2
  let c400_i32 : BitVec 32 := 400#32
  let v11 : BitVec 32 := Scalar.muli v6 c400_i32
  let v12 : BitVec 32 := Scalar.addi v11 c0_i32_6
  let v13 : Index := Scalar.indexCast v12
  let c0_7 : Index := 0#32
  ![v13.toNat, 0]
def k0_off4 (i : grid0.Coords) (c0_i32_21 : BitVec 32) : Fin 2 → Nat :=
  let arg0 : BitVec 32 := BitVec.ofNat 32 (i 0).val
  let c25_i32_2 : BitVec 32 := 25#32
  let v6 : BitVec 32 := Scalar.subi arg0 c25_i32_2
  let c400_i32_20 : BitVec 32 := 400#32
  let v36 : BitVec 32 := Scalar.muli v6 c400_i32_20
  let v37 : BitVec 32 := Scalar.addi v36 c0_i32_21
  let v38 : Index := Scalar.indexCast v37
  let c0_22 : Index := 0#32
  ![v38.toNat, 0]
def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c1_i32_3 : BitVec 32 := 1#32
  let v11 : BitVec 32 := Scalar.addi v10 c1_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10000x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  bitsLt_bf16_f32 : FTy.bits .bf16 < FTy.bits .f32
  shapeCasts_S64_S1x64 : S64.ShapeCasts S1x64
  shapeCasts_S32_S1x32 : S32.ShapeCasts S1x32
  shapeCasts_S1_S1x1 : S1.ShapeCasts S1x1
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  h_S200x128 : 0 < S200x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  h_S200x1 : 0 < S200x1.numel
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S64x32_S200x32_1_0_0_1_n_n_wf : DotDims.WF S200x64 S64x32 S200x32 [1] [0] [0] [1] [] []
  dot_S200x32_S32x1_S200x1_1_0_0_1_n_n_wf : DotDims.WF S200x32 S32x1 S200x1 [1] [0] [0] [1] [] []
  hrank0 : 0 < grid0.rank
  k0_off1_inb : ∀ i : grid0.Coords, ∀ (k0_h1 : k0_cond1 i = 1#1), ∀ (r : Fin 2), ∀ a, (k0_off1 i (BitVec.ofNat 32 (200 * r.val))) a + S200x128.size a ≤ S10000x128.size a
  k0_off2_inb : ∀ i : grid0.Coords, ∀ (k0_h1 : k0_cond1 i = 1#1), ∀ (r : Fin 2), ∀ a, (k0_off2 i (BitVec.ofNat 32 (200 * r.val))) a + S200x64.size a ≤ S10000x64.size a
  k0_off2_packedbf16 : ∀ i : grid0.Coords, ∀ (k0_h1 : k0_cond1 i = 1#1), ∀ (r : Fin 2), (Rect.unit (s := S10000x64) (k0_off2 i (BitVec.ofNat 32 (200 * r.val))) S200x64.size (k0_off2_inb i k0_h1 r)).PackedRows (EltTy.packing .bf16)
  k0_off3_inb : ∀ i : grid0.Coords, ∀ (k0_h2 : k0_cond2 i = 1#1), ∀ (r : Fin 2), ∀ a, (k0_off3 i (BitVec.ofNat 32 (200 * r.val))) a + S200x64.size a ≤ S10000x64.size a
  k0_off4_inb : ∀ i : grid0.Coords, ∀ (k0_h2 : k0_cond2 i = 1#1), ∀ (r : Fin 2), ∀ a, (k0_off4 i (BitVec.ofNat 32 (200 * r.val))) a + S200x1.size a ≤ S10000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10000x1.size a ≤ S10000x1.size a
  hwx0_10 : ∀ i : grid0.Coords, EltTy.bits .f32 = 32 ∨ (Rect.block (s := S10000x1) S10000x1.size (cc0_transform_10 i) (hinb0_10 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S200x32_S32x1_S200x1_1_0_0_1_n_n : DotDims S200x32 S32x1 S200x1 where
  lhsContracting := [1]
  rhsContracting := [0]
  lhsNonContracting := [0]
  rhsNonContracting := [1]
  lhsBatch := []
  rhsBatch := []
  wf := dot_S200x32_S32x1_S200x1_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S10000x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S10000x1 : Shape := ⟨2, ![10000, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S_, .f32⟩
  | .hbm, ⟨30, _⟩ => ⟨S10000x32, .f32⟩
  | .hbm, ⟨31, _⟩ => ⟨S10000x32, .f32⟩
  | .hbm, ⟨32, _⟩ => ⟨S10000x1, .f32⟩
  | .hbm, ⟨33, _⟩ => ⟨S1x1, .f32⟩
  | .hbm, ⟨34, _⟩ => ⟨S10000x1, .f32⟩
  | .hbm, ⟨35, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

class Facts : Prop extends Facts₀ where

variable [Facts]
-- ==== Proof.StageRuns.lean ====
import proofs.«181627_g9191230013956_cont_9to1_m_1205_16_alg».proof.Proof.Gen.KernelIdeal.Launch
import proofs.«181627_g9191230013956_cont_9to1_m_1205_16_alg».proof.Proof.Gen.KernelIdeal.Skeleton
import proofs.«181627_g9191230013956_cont_9to1_m_1205_16_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The kernel body run once per stage

The body has two stages, selected by the grid point.  In the FIRST stage (points below 25) it reads its two blocks of
200 adjacency rows, the whole feature array in the contraction format, its own rows of the feature array, the first
weight matrix and bias row, and stores two blocks of 200 hidden rows into each of the two carried buffers (one per
format), at the rows the point owns; it touches nothing else.  In the SECOND stage it reads the two adjacency blocks,
the whole carried hidden array in the contraction format, its own rows of the other carried buffer, the remaining
weights and biases, and stores two blocks of 200 result rows into the result's buffer.

Each run is stated on arbitrary whole buffers: the inputs at given contents and handed back unchanged, a buffer that is
stored into at ANY prior contents `f` and handed back at `f` overwritten by the two stored blocks, newest first. -/

theorem zero2 : (![0, 0] : Fin 2 → ℕ) = fun _ => 0 := by
  funext a; fin_cases a <;> rfl

/-- A load of all of a whole buffer reads the buffer's contents. -/
theorem readAll {d : Fin 2 → ℕ} {e : EltTy} (arg : Memref sig .tc .vmem (⟨2, d⟩ : Shape) e) (h : arg.IsWhole)
    (x : (⟨2, d⟩ : Shape).Idx → Elt F e) (inb : ∀ a, (![0, 0] : Fin 2 → ℕ) a + (⟨2, d⟩ : Shape).size a ≤ (⟨2, d⟩ : Shape).size a) :
    View.readAt (Elt F) arg.view (Rect.unit (s := (⟨2, d⟩ : Shape)) ![0, 0] (⟨2, d⟩ : Shape).size inb).toLoadRect (h.unread x) = x := by
  rw [View.readAt_eq_ld, h.read_unread]; exact View.ld_unit_zero zero2 inb x

/-- A load of some rows of a whole buffer reads those rows of its contents. -/
theorem readRows {S : Shape} {e : EltTy} (arg : Memref sig .tc .vmem S e) (h : arg.IsWhole) (x : S.Idx → Elt F e) (r : Rect S) :
    View.readAt (Elt F) arg.view r.toLoadRect (h.unread x) = View.ld x r := by
  rw [View.readAt_eq_ld, h.read_unread]

set_option maxHeartbeats 1000000 in
/-- The first stage. -/
theorem runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10000x1 .f32) (harg11 : arg11.IsWhole) (arg12 : Memref sig .tc .vmem S10000x64 .f32) (harg12 : arg12.IsWhole) (arg13 : Memref sig .tc .vmem S10000x64 .bf16) (harg13 : arg13.IsWhole)
    (hc1 : k0_cond1 i = 1#1) (hc2 : ¬ k0_cond2 i = 1#1)
    (x1 x2 : Vec F S200x10000 .f32) (x3 : Vec F S10000x128 .bf16) (x4 : Vec F S10000x128 .f32) (x5 : Vec F S1x64 .f32) (x6 : Vec F S128x64 .f32)
    (f12 : Buf (Elt F) (arg12.view.loc (c : Thread nD τ))) (f13 : Buf (Elt F) (arg13.view.loc (c : Thread nD τ))) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (arg12.view.loc (c : Thread nD τ) ↦[arg12.view.set]{fullShare} f12) ∗ (arg13.view.loc (c : Thread nD τ) ↦[arg13.view.set]{fullShare} f13)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (arg12.view.loc (c : Thread nD τ) ↦[arg12.view.set]{fullShare} arg12.view.writes (Elt F) f12
                [⟨Rect.unit (k0_off2 i 200#32) S200x64.size (k0_off2_inb i hc1 1),
                    k0_pay2 x2 x3 (View.ld x4 (Rect.unit (k0_off1 i 200#32) S200x128.size (k0_off1_inb i hc1 1))) x6 x5⟩,
                  ⟨Rect.unit (k0_off2 i 0#32) S200x64.size (k0_off2_inb i hc1 0),
                    k0_pay6 x1 x3 (View.ld x4 (Rect.unit (k0_off1 i 0#32) S200x128.size (k0_off1_inb i hc1 0))) x6 x5⟩])
            ∗ (arg13.view.loc (c : Thread nD τ) ↦[arg13.view.set]{fullShare} arg13.view.writes (Elt F) f13
                [⟨Rect.unit (k0_off2 i 200#32) S200x64.size (k0_off2_inb i hc1 1),
                    k0_pay3 x2 x3 (View.ld x4 (Rect.unit (k0_off1 i 200#32) S200x128.size (k0_off1_inb i hc1 1))) x6 x5⟩,
                  ⟨Rect.unit (k0_off2 i 0#32) S200x64.size (k0_off2_inb i hc1 0),
                    k0_pay7 x1 x3 (View.ld x4 (Rect.unit (k0_off1 i 0#32) S200x128.size (k0_off1_inb i hc1 0))) x6 x5⟩])) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, H12, H13, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  rw [readAll arg1 harg1, readAll arg2 harg2, readAll arg3 harg3, readAll arg5 harg5, readAll arg6 harg6,
    readRows arg4 harg4 x4 (Rect.unit (k0_off1 i 0#32) S200x128.size (k0_off1_inb i hc1 0)),
    readRows arg4 harg4 x4 (Rect.unit (k0_off1 i 200#32) S200x128.size (k0_off1_inb i hc1 1))]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H12]
  · iexact H12
  · iexact H13

set_option maxHeartbeats 1000000 in
/-- The second stage. -/
theorem runSecond (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10000x1 .f32) (harg11 : arg11.IsWhole) (arg12 : Memref sig .tc .vmem S10000x64 .f32) (harg12 : arg12.IsWhole) (arg13 : Memref sig .tc .vmem S10000x64 .bf16) (harg13 : arg13.IsWhole)
    (hc1 : ¬ k0_cond1 i = 1#1) (hc2 : k0_cond2 i = 1#1)
    (x1 x2 : Vec F S200x10000 .f32) (x7 : Vec F S1x32 .f32) (x8 : Vec F S64x32 .f32) (x9 : Vec F S32x1 .f32) (x10 : Vec F S1x1 .f32)
    (h0 : Vec F S10000x64 .f32) (h1 : Vec F S10000x64 .bf16)
    (f11 : Buf (Elt F) (arg11.view.loc (c : Thread nD τ))) (E : Set ℕ) (K : PUnit → sProp 𝕄) :
    iprop(owns (c : Thread nD τ) arg1 fullShare x1 ∗ owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare h0 ∗ owns (c : Thread nD τ) arg13 fullShare h1
        ∗ (arg11.view.loc (c : Thread nD τ) ↦[arg11.view.set]{fullShare} f11)
        ∗ (iprop(owns (c : Thread nD τ) arg1 fullShare x1 ∗ owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare h0 ∗ owns (c : Thread nD τ) arg13 fullShare h1
            ∗ (arg11.view.loc (c : Thread nD τ) ↦[arg11.view.set]{fullShare} arg11.view.writes (Elt F) f11
                [⟨Rect.unit (k0_off4 i 200#32) S200x1.size (k0_off4_inb i hc2 1),
                    k0_pay4 x2 h1 (View.ld h0 (Rect.unit (k0_off3 i 200#32) S200x64.size (k0_off3_inb i hc2 1))) x8 x7 x9 x10⟩,
                  ⟨Rect.unit (k0_off4 i 0#32) S200x1.size (k0_off4_inb i hc2 0),
                    k0_pay8 x1 h1 (View.ld h0 (Rect.unit (k0_off3 i 0#32) S200x64.size (k0_off3_inb i hc2 0))) x8 x7 x9 x10⟩])) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f7, %hf7, H7⟩, ⟨%f8, %hf8, H8⟩, ⟨%f9, %hf9, H9⟩, ⟨%f10, %hf10, H10⟩, ⟨%f12, %hf12, H12⟩, ⟨%f13, %hf13, H13⟩, H11, Hk⟩
  obtain rfl := harg1.eq_unread hf1; obtain rfl := harg2.eq_unread hf2; obtain rfl := harg7.eq_unread hf7
  obtain rfl := harg8.eq_unread hf8; obtain rfl := harg9.eq_unread hf9; obtain rfl := harg10.eq_unread hf10
  obtain rfl := harg12.eq_unread hf12; obtain rfl := harg13.eq_unread hf13
  sl_exec (disch := first | exact hc1 | exact hc2)
  sl_step
  rw [readAll arg1 harg1, readAll arg2 harg2, readAll arg7 harg7, readAll arg8 harg8, readAll arg9 harg9, readAll arg10 harg10,
    readAll arg13 harg13,
    readRows arg12 harg12 h0 (Rect.unit (k0_off3 i 0#32) S200x64.size (k0_off3_inb i hc2 0)),
    readRows arg12 harg12 h0 (Rect.unit (k0_off3 i 200#32) S200x64.size (k0_off3_inb i hc2 1))]
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  iexact H11

end Cert.KernelIdeal.Body

end
-- ==== Proof.MainKI.lean ====
/-
  The program's entry up to its one pipelined region, and what the region finds in the unscoped buffers.

  The program is four host operations — a change of float format of the second argument and three reshapes of the one-axis
  arguments into one-row matrices — followed by the region and nothing else. `V m c` is what core `c`'s buffers hold after
  the four operations, from the launch memory `m`; `hmain` says the program is those operations then the region
  (the shape the region's run takes as its hypothesis); `V_arg0` … `V_arg7` say that no host operation writes an
  argument array, and `V_v0` … `V_v3` give each operation's result as the operation applied to its argument as launched.
-/
import proofs.«181627_g9191230013956_cont_9to1_m_1205_16_alg».proof.Proof.Gen.KernelIdeal.Launch
import Idealize.ShloMosaic.Lib.Pipeline.Frame
import Idealize.ShloMosaic.Lib.StableHlo.Run

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.StableHlo
open Cert.KernelIdeal.Gen

variable {F : FTy → Type} [FloatOps F]

variable (m : (ℓ : Loc nD τ sig) → Buf (Elt F) ℓ)

/-! ## The program up to the region -/

/-- Core `c`'s TensorCore buffers when the region is entered: the launch contents after the four host operations. -/
abbrev V (c : Dev nD) (b : Ref sig .tc) : Buf (Elt F) ((c : Thread nD τ).loc b) := StableHlo.after hostOps0 (fun b => m (c, b)) b

/-- No host operation names a buffer it does not find allocated. -/
theorem hostOps0_fresh : (hostOps0 : List (HloOp τ sig (Elt F))).Forall fun op => op.fresh = ∅ := by
  simp only [List.Forall]; repeat' constructor

/-- The program is the four host operations then the region: from the launch memory the region is entered with the
    unscoped buffers at `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The argument arrays: no host operation writes them -/

theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results
theorem V_arg2 (c : Dev nD) : V m c main_arg2 = m ((c : Thread nD τ).loc main_arg2) := by
  dsimp only [V, hostOps0]; after_results
theorem V_arg3 (c : Dev nD) : V m c main_arg3 = m ((c : Thread nD τ).loc main_arg3) := by
  dsimp only [V, hostOps0]; after_results
theorem V_arg4 (c : Dev nD) : V m c main_arg4 = m ((c : Thread nD τ).loc main_arg4) := by
  dsimp only [V, hostOps0]; after_results
theorem V_arg5 (c : Dev nD) : V m c main_arg5 = m ((c : Thread nD τ).loc main_arg5) := by
  dsimp only [V, hostOps0]; after_results
theorem V_arg6 (c : Dev nD) : V m c main_arg6 = m ((c : Thread nD τ).loc main_arg6) := by
  dsimp only [V, hostOps0]; after_results
theorem V_arg7 (c : Dev nD) : V m c main_arg7 = m ((c : Thread nD τ).loc main_arg7) := by
  dsimp only [V, hostOps0]; after_results

/-! ## The host operations' results -/

/-- The first result is the second argument, as launched, in the narrower float format. -/
theorem V_v0 (c : Dev nD) :
    (V m c main_v0 : S10000x128.Idx → Elt F .bf16)
      = truncf .bf16 (m ((c : Thread nD τ).loc main_arg1) : S10000x128.Idx → Elt F .f32) bitsLt_bf16_f32 := by
  dsimp only [V, hostOps0]; after_results

/-- The second result is the fourth argument, as launched, read as a one-row matrix. -/
theorem V_v1 (c : Dev nD) :
    (V m c main_v1 : S1x64.Idx → Elt F .f32)
      = shapeCast S1x64 (m ((c : Thread nD τ).loc main_arg3) : S64.Idx → Elt F .f32) shapeCasts_S64_S1x64 := by
  dsimp only [V, hostOps0]; after_results; rfl

/-- The third result is the sixth argument, as launched, read as a one-row matrix. -/
theorem V_v2 (c : Dev nD) :
    (V m c main_v2 : S1x32.Idx → Elt F .f32)
      = shapeCast S1x32 (m ((c : Thread nD τ).loc main_arg5) : S32.Idx → Elt F .f32) shapeCasts_S32_S1x32 := by
  dsimp only [V, hostOps0]; after_results; rfl

/-- The fourth result is the eighth argument, as launched, read as a one-by-one matrix. -/
theorem V_v3 (c : Dev nD) :
    (V m c main_v3 : S1x1.Idx → Elt F .f32)
      = shapeCast S1x1 (m ((c : Thread nD τ).loc main_arg7) : S1.Idx → Elt F .f32) shapeCasts_S1_S1x1 := by
  dsimp only [V, hostOps0]; after_results; rfl

end Cert.KernelIdeal.Launch

end
-- ==== Proof.Layers.lean ====
/-
  The kernel's two graph layers and its head as WHOLE-ARRAY functions of the launch arrays, for any float instance.

  The kernel works on blocks of 200 rows.  For a row block `j` (rows `200 j … 200 j + 199`) the first stage computes
  the hidden rows  relu((A_j · X − 3 · X_j) · W1 + b1)  from the block `A_j` of the adjacency rows, the whole feature
  array and its own rows `X_j`; the second stage computes  relu((A_j · H − 2 · H_j) · W2 + b2) · W3 + b3  from `A_j`,
  the whole hidden array `H` and its own rows `H_j`.  Each is the generated payload of the corresponding store; here
  the blocks are put side by side: entry `(r, q)` of the whole array is entry `(r mod 200, q)` of block `r / 200`.
-/
import proofs.«181627_g9191230013956_cont_9to1_m_1205_16_alg».proof.Proof.Gen.KernelIdeal.Skeleton
import Idealize.ShloMosaic.Lib.ValueIdx

noncomputable section

namespace Cert.Layers

open Idealize.ShloMosaic Idealize.ShloMosaic.ValueIdx Cert.KernelIdeal Cert.KernelIdeal.Gen

variable {F : FTy → Type} [FloatOps F]

/-- The block of 200 rows a row lies in. -/
def blk (r : Fin 10000) : Fin 50 := ⟨r.val / 200, by omega⟩
/-- A row's position inside its block. -/
def pos (r : Fin 10000) : Fin 200 := ⟨r.val % 200, Nat.mod_lt _ (by omega)⟩
/-- Row `p` of block `j`. -/
def row (j : Fin 50) (p : Fin 200) : Fin 10000 := ⟨200 * j.val + p.val, by omega⟩

theorem row_blk_pos (r : Fin 10000) : row (blk r) (pos r) = r :=
  Fin.ext (by simp only [row, blk, pos]; omega)
theorem blk_row (j : Fin 50) (p : Fin 200) : blk (row j p) = j :=
  Fin.ext (by simp only [row, blk]; omega)
theorem pos_row (j : Fin 50) (p : Fin 200) : pos (row j p) = p :=
  Fin.ext (by simp only [row, pos]; omega)

/-- Rows `200 j … 200 j + 199` of an array of 10000 rows. -/
def rowBlock {c : Nat} {e : EltTy} (Z : Vec F ⟨2, ![10000, c]⟩ e) (j : Fin 50) : Vec F ⟨2, ![200, c]⟩ e :=
  fun y => Z (ix2 (row j (y 0)) (y 1))

/-- The hidden layer, all 10000 rows, in f32: row block `j` is the first stage's f32 store of `A_j`, `X`, `X_j`. -/
def hidden (A : Vec F S10000x10000 .f32) (Xbf : Vec F S10000x128 .bf16) (X : Vec F S10000x128 .f32)
    (W1 : Vec F S128x64 .f32) (b1 : Vec F S1x64 .f32) : Vec F S10000x64 .f32 :=
  fun i => k0_pay6 (rowBlock A (blk (i 0))) Xbf (rowBlock X (blk (i 0))) W1 b1 (ix2 (pos (i 0)) (i 1))

/-- The hidden layer as the second stage contracts it (the bf16 store of the same rows). -/
def hiddenBf (A : Vec F S10000x10000 .f32) (Xbf : Vec F S10000x128 .bf16) (X : Vec F S10000x128 .f32)
    (W1 : Vec F S128x64 .f32) (b1 : Vec F S1x64 .f32) : Vec F S10000x64 .bf16 :=
  fun i => k0_pay7 (rowBlock A (blk (i 0))) Xbf (rowBlock X (blk (i 0))) W1 b1 (ix2 (pos (i 0)) (i 1))

/-- The result column from a hidden layer given in both formats: row block `j` is the second stage's store. -/
def head (A : Vec F S10000x10000 .f32) (Hbf : Vec F S10000x64 .bf16) (H : Vec F S10000x64 .f32)
    (W2 : Vec F S64x32 .f32) (b2 : Vec F S1x32 .f32) (W3 : Vec F S32x1 .f32) (b3 : Vec F S1x1 .f32) : Vec F S10000x1 .f32 :=
  fun i => k0_pay8 (rowBlock A (blk (i 0))) Hbf (rowBlock H (blk (i 0))) W2 b2 W3 b3 (ix2 (pos (i 0)) (i 1))

/-- The kernel's result: the head over its own hidden layer. -/
def result (A : Vec F S10000x10000 .f32) (Xbf : Vec F S10000x128 .bf16) (X : Vec F S10000x128 .f32)
    (W1 : Vec F S128x64 .f32) (b1 : Vec F S1x64 .f32)
    (W2 : Vec F S64x32 .f32) (b2 : Vec F S1x32 .f32) (W3 : Vec F S32x1 .f32) (b3 : Vec F S1x1 .f32) : Vec F S10000x1 .f32 :=
  head A (hiddenBf A Xbf X W1 b1) (hidden A Xbf X W1 b1) W2 b2 W3 b3

end Cert.Layers

end
-- ==== Proof.ProofData.lean ====
/-
  The proof data of the one pipelined region, for any float instance.

  What the kernel carries from grid point to grid point: its two scratch buffers (the hidden layer in two formats,
  filled 400 rows per point by the first 25 points) and the result window's one staging buffer (filled 400 rows per
  point by the last 25 points, written back once, after the last point).  The three are described by how far they
  have been FILLED with rows of the whole-array functions of Layers.lean: nothing is said of the rows not yet filled.

  * The invariant before point `t`: the two scratch buffers hold SOME contents whose rows below `400 · min t 25` are
    the hidden layer's.
  * What a point may leave in the result's staging buffer, given what it found there: if the found contents had the
    result's rows below `400 · (t − 25)`, the contents left have them below `400 · (t + 1 − 25)` (before point 25
    this says nothing: the buffer is not touched).
  * Every input window's buffer is left as found.
  * Windows 0 and 1 both read the adjacency array: each holds one half of its full share.
-/
import proofs.«181627_g9191230013956_cont_9to1_m_1205_16_alg».proof.Proof.MainKI
import proofs.«181627_g9191230013956_cont_9to1_m_1205_16_alg».proof.Proof.Layers
import Idealize.ShloMosaic.Lib.Pipeline.Frame

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The hidden layer determined by the arrays as the region finds them, in f32, -/
def hid (c : Dev nD) : Vec F S10000x64 .f32 :=
  Cert.Layers.hidden (Launch.V m c main_arg0) (Launch.V m c main_v0) (Launch.V m c main_arg1) (Launch.V m c main_arg2) (Launch.V m c main_v1)
/-- in the contraction format, -/
def hidBf (c : Dev nD) : Vec F S10000x64 .bf16 :=
  Cert.Layers.hiddenBf (Launch.V m c main_arg0) (Launch.V m c main_v0) (Launch.V m c main_arg1) (Launch.V m c main_arg2) (Launch.V m c main_v1)
/-- and the result column. -/
def res (c : Dev nD) : Vec F S10000x1 .f32 :=
  Cert.Layers.head (Launch.V m c main_arg0) (hidBf m c) (hid m c) (Launch.V m c main_arg4) (Launch.V m c main_v2) (Launch.V m c main_arg6) (Launch.V m c main_v3)

theorem res_eq (c : Dev nD) : res m c = Cert.Layers.result (Launch.V m c main_arg0) (Launch.V m c main_v0) (Launch.V m c main_arg1)
    (Launch.V m c main_arg2) (Launch.V m c main_v1) (Launch.V m c main_arg4) (Launch.V m c main_v2) (Launch.V m c main_arg6) (Launch.V m c main_v3) := rfl

/-- The rows of `Z` below `n` are those of `G`. -/
def RowsDone {k : Nat} {e : EltTy} (n : Nat) (Z G : (⟨2, ![10000, k]⟩ : Shape).Idx → Elt F e) : Prop :=
  ∀ y, (y 0).val < n → Z y = G y

/-- How many hidden rows the points before `t` have filled. -/
def filledHid (t : Nat) : Nat := 400 * min t 25
/-- How many result rows the points before `t` have filled. -/
def filledRes (t : Nat) : Nat := 400 * (t - 25)

/-- The invariant before point `t`. -/
def carried (c : Dev nD) (t : Fin (cfg0.N + 1)) : sProp 𝕄 :=
  iprop(∃ (f0 : Buf (Elt F) ((c : Thread nD τ).loc cc0_scratch0)) (f1 : Buf (Elt F) ((c : Thread nD τ).loc cc0_scratch1)),
    ⌜RowsDone (filledHid t.val) (f0 : S10000x64.Idx → Elt F .f32) (hid m c) ∧ RowsDone (filledHid t.val) (f1 : S10000x64.Idx → Elt F .bf16) (hidBf m c)⌝
    ∗ (((c : Thread nD τ).loc cc0_scratch0) ↦{fullShare} f0) ∗ (((c : Thread nD τ).loc cc0_scratch1) ↦{fullShare} f1))

/-- What point `t` may leave in the result's staging buffer (`X`) given what it found there (`Y`). -/
def grows (c : Dev nD) (t : Fin cfg0.N) (Y X : S10000x1.Idx → Elt F .f32) : Prop :=
  RowsDone (filledRes t.val) Y (res m c) → RowsDone (filledRes (t.val + 1)) X (res m c)

/-- The proof data. -/
def rdat (c : Dev nD) : RDat τ (Elt F) Unit ℕ (UR sig nD τ) ℕ cfg0 c where
  A w := Launch.V m c (Pipeline.arrRef spec0 w)
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y | 8 => fun _ Y X => X = Y | 9 => fun _ Y X => X = Y | 10 => fun t Y X => grows m c t Y X | ⟨_ + 11, h⟩ => absurd h (Nat.not_lt.2 (Nat.le_add_left _ _))
  Φ := carried m c
  q := fun | 0 => fullShare.left | 1 => fullShare.right | 2 => fullShare | 3 => fullShare | 4 => fullShare | 5 => fullShare | 6 => fullShare | 7 => fullShare | 8 => fullShare | 9 => fullShare | 10 => fullShare | ⟨_ + 11, h⟩ => absurd h (Nat.not_lt.2 (Nat.le_add_left _ _))
  owed _ := 0

theorem rdat_A (c : Dev nD) (w : Fin cfg0.W) : (rdat m c).A w = Launch.V m c (Pipeline.arrRef spec0 w) := rfl
theorem rdat_owed (c : Dev nD) (t) : (rdat m c).owed t = 0 := rfl
theorem rdat_Φ (c : Dev nD) (t) : (rdat m c).Φ t = carried m c t := rfl
theorem rdat_after_in (c : Dev nD) (w : Fin cfg0.W) (hw : w ≠ 10) (t : Fin cfg0.N) (Y X) : (rdat m c).after w t Y X ↔ X = Y := by
  fin_cases w <;> first | exact Iff.rfl | exact absurd rfl hw
theorem rdat_after_out (c : Dev nD) (t : Fin cfg0.N) (Y X) : (rdat m c).after 10 t Y X = grows m c t Y X := rfl

/-- The proof data of the program's one region, per pipeline. -/
def rdats : (p : Fin 1) → (c : Dev nD) → RDat τ (Elt F) Unit ℕ (UR sig nD τ) ℕ (cfgs p) c := fun _ c => rdat m c

end Cert.KernelIdeal.Body

end
-- ==== Proof.RowFill.lean ====
/-
  Filling an array of 10000 rows 400 rows at a time.

  A load of the 200 rows from row `200 j` of an array reads its row block `j`.  If the rows of a buffer below `o` are
  those of `G`, and two blocks of 200 rows are then stored at rows `o` and `o + 200`, each holding `G`'s rows there,
  the rows below `o + 400` are those of `G` (the newest store is read first; a row outside both reads what was there).
  Then the body's branch conditions and row offsets in closed form, decided over the 50 grid points: the first stage runs
  at the points below 25 and owns rows `400 t … 400 t + 399`; the second at the points from 25 on and owns rows
  `400 (t − 25) …`.
-/
import proofs.«181627_g9191230013956_cont_9to1_m_1205_16_alg».proof.Proof.ProofData
import proofs.«181627_g9191230013956_cont_9to1_m_1205_16_alg».proof.Proof.Gen.KernelIdeal.Points
import Idealize.ShloMosaic.Lib.WritesUnit
import Idealize.ShloMosaic.Lib.Pipeline.FrameBody

noncomputable section

namespace Cert.KernelIdeal.Body

open Cert.KernelIdeal Cert.KernelIdeal.Gen Cert.Layers
open Idealize.ShloMosaic Idealize.ShloMosaic.ValueIdx

variable {F : FTy → Type} [FloatOps F]

/-- A load of the 200 rows from row `200 j` reads row block `j`. -/
theorem ld_rowBlock {k : Nat} {e : EltTy} (X : (⟨2, ![10000, k]⟩ : Shape).Idx → Elt F e) (off : Fin 2 → ℕ) (j : Fin 50)
    (inb : ∀ a, off a + (![200, k] : Fin 2 → ℕ) a ≤ (⟨2, ![10000, k]⟩ : Shape).size a) (hoff : off = ![200 * j.val, 0]) :
    View.ld X (Rect.unit (s := (⟨2, ![10000, k]⟩ : Shape)) off ![200, k] inb) = rowBlock (F := F) X j := by
  subst hoff
  funext z
  show X _ = X _
  congr 1
  funext a
  apply Fin.ext
  rw [LoadRect.idx_apply]
  match a with
  | ⟨0, _⟩ => show 200 * j.val + 1 * (z 0).val = 200 * j.val + (z 0).val; omega
  | ⟨1, _⟩ => show 0 + 1 * (z 1).val = (z 1).val; omega

/-- Two stored blocks of 200 rows extend the filled rows by 400. -/
theorem rowsDone_two {sig : RefSig} {κ : Kind} {sp : Space} {k : Nat} {e : EltTy}
    (v : View sig κ sp (⟨2, ![10000, k]⟩ : Shape) e) (f : v.ty.Contents (Elt F)) (G : (⟨2, ![10000, k]⟩ : Shape).Idx → Elt F e)
    (o : ℕ) (off1 off2 size : Fin 2 → ℕ) (hs0 : size (0 : Fin 2) = 200) (hs1 : size (1 : Fin 2) = (![10000, k] : Fin 2 → ℕ) (1 : Fin 2))
    (inb1 : ∀ a : Fin 2, off1 a + size a ≤ (![10000, k] : Fin 2 → ℕ) a) (inb2 : ∀ a : Fin 2, off2 a + size a ≤ (![10000, k] : Fin 2 → ℕ) a)
    (w1 : (Rect.unit (s := (⟨2, ![10000, k]⟩ : Shape)) off1 size inb1).shape.Idx → Elt F e)
    (w2 : (Rect.unit (s := (⟨2, ![10000, k]⟩ : Shape)) off2 size inb2).shape.Idx → Elt F e)
    (h1 : off1 = ![o + 200, 0]) (h2 : off2 = ![o, 0])
    (hf : RowsDone (F := F) o (v.read (Elt F) f) G)
    (hw1 : ∀ x y, (y (0 : Fin 2)).val = o + 200 + (x (0 : Fin 2)).val → (y (1 : Fin 2)).val = (x (1 : Fin 2)).val → w1 x = G y)
    (hw2 : ∀ x y, (y (0 : Fin 2)).val = o + (x (0 : Fin 2)).val → (y (1 : Fin 2)).val = (x (1 : Fin 2)).val → w2 x = G y) :
    RowsDone (F := F) (o + 400) (v.read (Elt F) (v.writes (Elt F) f
      [(⟨Rect.unit (s := (⟨2, ![10000, k]⟩ : Shape)) off1 size inb1, w1⟩ : View.Piece (Elt F) (⟨2, ![10000, k]⟩ : Shape) e),
        ⟨Rect.unit (s := (⟨2, ![10000, k]⟩ : Shape)) off2 size inb2, w2⟩])) G := by
  intro y hy
  rw [View.read_writes_cons_rows v f inb1 w1 _ y h1 hs0 hs1]
  split
  · next h =>
    refine hw1 _ y ?_ ?_
    · rw [Rect.unitLocal_val]; show (y 0).val = o + 200 + ((y 0).val - (o + 200)); omega
    · rw [Rect.unitLocal_val]; show (y 1).val = (y 1).val - 0; omega
  · next h =>
    rw [View.read_writes_cons_rows v f inb2 w2 _ y h2 hs0 hs1]
    split
    · next h' =>
      refine hw2 _ y ?_ ?_
      · rw [Rect.unitLocal_val]; show (y 0).val = o + ((y 0).val - o); omega
      · rw [Rect.unitLocal_val]; show (y 1).val = (y 1).val - 0; omega
    · next h' =>
      rw [View.writes_nil]
      exact hf y (by omega)

/-! ## The body's conditions and offsets over the grid -/

/-- The first stage runs at the points below 25, -/
theorem first_iff : ∀ t : Fin cfg0.N, k0_cond1 (grid0.coords t) = 1#1 ↔ t.val < 25 :=
  (by decide +kernel : ∀ t : Fin grid0.N, k0_cond1 (grid0.coords t) = 1#1 ↔ t.val < 25)
/-- the second at the points from 25 on. -/
theorem second_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- The first stage's rows at point `t`: `400 t` and `400 t + 200`, for its loads of the features and its stores. -/
theorem off1_lo : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
theorem off1_hi : ∀ t : Fin cfg0.N, t.val < 25 → k0_off1 (grid0.coords t) 200#32 = ![400 * t.val + 200, 0] :=
  (by decide +kernel : ∀ t : Fin grid0.N, t.val < 25 → k0_off1 (grid0.coords t) 200#32 = ![400 * t.val + 200, 0])
theorem off2_lo : ∀ t : Fin cfg0.N, t.val < 25 → k0_off2 (grid0.coords t) 0#32 = ![400 * t.val, 0] :=
  (by decide +kernel : ∀ t : Fin grid0.N, t.val < 25 → k0_off2 (grid0.coords t) 0#32 = ![400 * t.val, 0])
theorem off2_hi : ∀ t : Fin cfg0.N, t.val < 25 → k0_off2 (grid0.coords t) 200#32 = ![400 * t.val + 200, 0] :=
  (by decide +kernel : ∀ t : Fin grid0.N, t.val < 25 → k0_off2 (grid0.coords t) 200#32 = ![400 * t.val + 200, 0])
/-- The second stage's rows at point `t`: `400 (t − 25)` and `400 (t − 25) + 200`. -/
theorem off3_lo : ∀ t : Fin cfg0.N, 25 ≤ t.val → k0_off3 (grid0.coords t) 0#32 = ![400 * (t.val - 25), 0] :=
  (by decide +kernel : ∀ t : Fin grid0.N, 25 ≤ t.val → k0_off3 (grid0.coords t) 0#32 = ![400 * (t.val - 25), 0])
theorem off3_hi : ∀ t : Fin cfg0.N, 25 ≤ t.val → k0_off3 (grid0.coords t) 200#32 = ![400 * (t.val - 25) + 200, 0] :=
  (by decide +kernel : ∀ t : Fin grid0.N, 25 ≤ t.val → k0_off3 (grid0.coords t) 200#32 = ![400 * (t.val - 25) + 200, 0])
theorem off4_lo : ∀ t : Fin cfg0.N, 25 ≤ t.val → k0_off4 (grid0.coords t) 0#32 = ![400 * (t.val - 25), 0] :=
  (by decide +kernel : ∀ t : Fin grid0.N, 25 ≤ t.val → k0_off4 (grid0.coords t) 0#32 = ![400 * (t.val - 25), 0])
theorem off4_hi : ∀ t : Fin cfg0.N, 25 ≤ t.val → k0_off4 (grid0.coords t) 200#32 = ![400 * (t.val - 25) + 200, 0] :=
  (by decide +kernel : ∀ t : Fin grid0.N, 25 ≤ t.val → k0_off4 (grid0.coords t) 200#32 = ![400 * (t.val - 25) + 200, 0])

end Cert.KernelIdeal.Body

end
-- ==== Proof.InputWindows.lean ====
/-
  What each input window's current staging buffer holds whenever the kernel's body runs.

  Every input window's relation leaves its buffer as found, so at every point the buffer holds what a fetch there
  puts in it, fetched there or not: the array's block at the window's block index.  Windows 0 and 1 read the
  adjacency array 200 rows at a time, at block indices `2 · (t mod 25)` and `2 · (t mod 25) + 1`; windows 2 to 9
  each take their whole array as one block, at every point.
-/
import proofs.«181627_g9191230013956_cont_9to1_m_1205_16_alg».proof.Proof.ProofData
import proofs.«181627_g9191230013956_cont_9to1_m_1205_16_alg».proof.Proof.Gen.KernelIdeal.Points
import Idealize.ShloMosaic.Lib.Pipeline.FrameBody

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (RDat Cfg Window cellOf)

variable {F : FTy → Type} [FloatOps F]

variable (m : (ℓ : Loc nD τ sig) → Buf (Elt F) ℓ)

/-! ## The adjacency windows -/

/-- The adjacency windows' block indices over the grid: window 0 is at row block `2 · (t mod 25)`, window 1 at the
    next one, both at column block 0. -/
theorem adj_index : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

/-- Window 0's buffer holds row block `2 · (t mod 25)` of the adjacency array whenever the body runs at point `t`. -/
theorem finds_adj0 (c : Dev nD) (t : Fin cfg0.N) (Y : (cfg0.win 0).block.Idx → Elt F (cfg0.win 0).elt) (h : (rdat m c).Finds 0 t Y) :
    Y = Cert.Layers.rowBlock (Launch.V m c main_arg0 : Vec F S10000x10000 .f32) ⟨2 * (t.val % 25), by omega⟩ := by
  obtain ⟨d, rfl⟩ := RDat.finds_in_eq_fetched (rdat m c) 0 rfl (fun _ _ _ => rfl)
    (fun t Y X h => (rdat_after_in m c 0 (by decide) t Y X).mp h) t Y h
  obtain ⟨e0, e1, -, -⟩ := adj_index t
  funext y
  show Launch.V m c main_arg0 (((cfg0.win 0).blk t).view.emb y)
    = Launch.V m c main_arg0 (ix2 (Cert.Layers.row ⟨2 * (t.val % 25), by omega⟩ (y 0)) (y 1))
  congr 1
  funext a; apply Fin.ext
  match a with
  | ⟨0, _⟩ => show win0_0.index t (0 : Fin 2) * 200 + 1 * (y 0).val = 200 * (2 * (t.val % 25)) + (y 0).val; omega
  | ⟨1, _⟩ => show win0_0.index t (1 : Fin 2) * 10000 + 1 * (y 1).val = (y 1).val; omega

/-- Window 1's buffer holds row block `2 · (t mod 25) + 1` of the adjacency array whenever the body runs at point `t`. -/
theorem finds_adj1 (c : Dev nD) (t : Fin cfg0.N) (Y : (cfg0.win 1).block.Idx → Elt F (cfg0.win 1).elt) (h : (rdat m c).Finds 1 t Y) :
    Y = Cert.Layers.rowBlock (Launch.V m c main_arg0 : Vec F S10000x10000 .f32) ⟨2 * (t.val % 25) + 1, by omega⟩ := by
  obtain ⟨d, rfl⟩ := RDat.finds_in_eq_fetched (rdat m c) 1 rfl (fun _ _ _ => rfl)
    (fun t Y X h => (rdat_after_in m c 1 (by decide) t Y X).mp h) t Y h
  obtain ⟨-, -, e0, e1⟩ := adj_index t
  funext y
  show Launch.V m c main_arg0 (((cfg0.win 1).blk t).view.emb y)
    = Launch.V m c main_arg0 (ix2 (Cert.Layers.row ⟨2 * (t.val % 25) + 1, by omega⟩ (y 0)) (y 1))
  congr 1
  funext a; apply Fin.ext
  match a with
  | ⟨0, _⟩ => show win0_1.index t (0 : Fin 2) * 200 + 1 * (y 0).val = 200 * (2 * (t.val % 25) + 1) + (y 0).val; omega
  | ⟨1, _⟩ => show win0_1.index t (1 : Fin 2) * 10000 + 1 * (y 1).val = (y 1).val; omega

/-! ## The windows that take their whole array as one block -/

/-- Window 2's buffer holds the feature array in the contraction format, whole, whenever the body runs. -/
theorem finds_whole2 (c : Dev nD) (t : Fin cfg0.N) (Y : (cfg0.win 2).block.Idx → Elt F (cfg0.win 2).elt) (h : (rdat m c).Finds 2 t Y) :
    Y = (Launch.V m c main_v0 : Vec F S10000x128 .bf16) := by
  obtain ⟨d, rfl⟩ := RDat.finds_in_eq_fetched (rdat m c) 2 rfl (fun _ _ _ => rfl)
    (fun t Y X h => (rdat_after_in m c 2 (by decide) t Y X).mp h) t Y h
  funext y
  show Launch.V m c main_v0 (((cfg0.win 2).blk t).view.emb y) = Launch.V m c main_v0 y
  congr 1
  funext a; apply Fin.ext
  match a with
  | ⟨0, _⟩ => show 0 * 10000 + 1 * (y 0).val = (y 0).val; omega
  | ⟨1, _⟩ => show 0 * 128 + 1 * (y 1).val = (y 1).val; omega

/-- Window 3's buffer holds the feature array, whole, whenever the body runs. -/
theorem finds_whole3 (c : Dev nD) (t : Fin cfg0.N) (Y : (cfg0.win 3).block.Idx → Elt F (cfg0.win 3).elt) (h : (rdat m c).Finds 3 t Y) :
    Y = (Launch.V m c main_arg1 : Vec F S10000x128 .f32) := by
  obtain ⟨d, rfl⟩ := RDat.finds_in_eq_fetched (rdat m c) 3 rfl (fun _ _ _ => rfl)
    (fun t Y X h => (rdat_after_in m c 3 (by decide) t Y X).mp h) t Y h
  funext y
  show Launch.V m c main_arg1 (((cfg0.win 3).blk t).view.emb y) = Launch.V m c main_arg1 y
  congr 1
  funext a; apply Fin.ext
  match a with
  | ⟨0, _⟩ => show 0 * 10000 + 1 * (y 0).val = (y 0).val; omega
  | ⟨1, _⟩ => show 0 * 128 + 1 * (y 1).val = (y 1).val; omega

/-- Window 4's buffer holds the first bias row, whole, whenever the body runs. -/
theorem finds_whole4 (c : Dev nD) (t : Fin cfg0.N) (Y : (cfg0.win 4).block.Idx → Elt F (cfg0.win 4).elt) (h : (rdat m c).Finds 4 t Y) :
    Y = (Launch.V m c main_v1 : Vec F S1x64 .f32) := by
  obtain ⟨d, rfl⟩ := RDat.finds_in_eq_fetched (rdat m c) 4 rfl (fun _ _ _ => rfl)
    (fun t Y X h => (rdat_after_in m c 4 (by decide) t Y X).mp h) t Y h
  funext y
  show Launch.V m c main_v1 (((cfg0.win 4).blk t).view.emb y) = Launch.V m c main_v1 y
  congr 1
  funext a; apply Fin.ext
  match a with
  | ⟨0, _⟩ => show 0 * 1 + 1 * (y 0).val = (y 0).val; omega
  | ⟨1, _⟩ => show 0 * 64 + 1 * (y 1).val = (y 1).val; omega

/-- Window 5's buffer holds the first weight matrix, whole, whenever the body runs. -/
theorem finds_whole5 (c : Dev nD) (t : Fin cfg0.N) (Y : (cfg0.win 5).block.Idx → Elt F (cfg0.win 5).elt) (h : (rdat m c).Finds 5 t Y) :
    Y = (Launch.V m c main_arg2 : Vec F S128x64 .f32) := by
  obtain ⟨d, rfl⟩ := RDat.finds_in_eq_fetched (rdat m c) 5 rfl (fun _ _ _ => rfl)
    (fun t Y X h => (rdat_after_in m c 5 (by decide) t Y X).mp h) t Y h
  funext y
  show Launch.V m c main_arg2 (((cfg0.win 5).blk t).view.emb y) = Launch.V m c main_arg2 y
  congr 1
  funext a; apply Fin.ext
  match a with
  | ⟨0, _⟩ => show 0 * 128 + 1 * (y 0).val = (y 0).val; omega
  | ⟨1, _⟩ => show 0 * 64 + 1 * (y 1).val = (y 1).val; omega

/-- Window 6's buffer holds the second bias row, whole, whenever the body runs. -/
theorem finds_whole6 (c : Dev nD) (t : Fin cfg0.N) (Y : (cfg0.win 6).block.Idx → Elt F (cfg0.win 6).elt) (h : (rdat m c).Finds 6 t Y) :
    Y = (Launch.V m c main_v2 : Vec F S1x32 .f32) := by
  obtain ⟨d, rfl⟩ := RDat.finds_in_eq_fetched (rdat m c) 6 rfl (fun _ _ _ => rfl)
    (fun t Y X h => (rdat_after_in m c 6 (by decide) t Y X).mp h) t Y h
  funext y
  show Launch.V m c main_v2 (((cfg0.win 6).blk t).view.emb y) = Launch.V m c main_v2 y
  congr 1
  funext a; apply Fin.ext
  match a with
  | ⟨0, _⟩ => show 0 * 1 + 1 * (y 0).val = (y 0).val; omega
  | ⟨1, _⟩ => show 0 * 32 + 1 * (y 1).val = (y 1).val; omega

/-- Window 7's buffer holds the second weight matrix, whole, whenever the body runs. -/
theorem finds_whole7 (c : Dev nD) (t : Fin cfg0.N) (Y : (cfg0.win 7).block.Idx → Elt F (cfg0.win 7).elt) (h : (rdat m c).Finds 7 t Y) :
    Y = (Launch.V m c main_arg4 : Vec F S64x32 .f32) := by
  obtain ⟨d, rfl⟩ := RDat.finds_in_eq_fetched (rdat m c) 7 rfl (fun _ _ _ => rfl)
    (fun t Y X h => (rdat_after_in m c 7 (by decide) t Y X).mp h) t Y h
  funext y
  show Launch.V m c main_arg4 (((cfg0.win 7).blk t).view.emb y) = Launch.V m c main_arg4 y
  congr 1
  funext a; apply Fin.ext
  match a with
  | ⟨0, _⟩ => show 0 * 64 + 1 * (y 0).val = (y 0).val; omega
  | ⟨1, _⟩ => show 0 * 32 + 1 * (y 1).val = (y 1).val; omega

/-- Window 8's buffer holds the third weight matrix, whole, whenever the body runs. -/
theorem finds_whole8 (c : Dev nD) (t : Fin cfg0.N) (Y : (cfg0.win 8).block.Idx → Elt F (cfg0.win 8).elt) (h : (rdat m c).Finds 8 t Y) :
    Y = (Launch.V m c main_arg6 : Vec F S32x1 .f32) := by
  obtain ⟨d, rfl⟩ := RDat.finds_in_eq_fetched (rdat m c) 8 rfl (fun _ _ _ => rfl)
    (fun t Y X h => (rdat_after_in m c 8 (by decide) t Y X).mp h) t Y h
  funext y
  show Launch.V m c main_arg6 (((cfg0.win 8).blk t).view.emb y) = Launch.V m c main_arg6 y
  congr 1
  funext a; apply Fin.ext
  match a with
  | ⟨0, _⟩ => show 0 * 32 + 1 * (y 0).val = (y 0).val; omega
  | ⟨1, _⟩ => show 0 * 1 + 1 * (y 1).val = (y 1).val; omega

/-- Window 9's buffer holds the third bias, whole, whenever the body runs. -/
theorem finds_whole9 (c : Dev nD) (t : Fin cfg0.N) (Y : (cfg0.win 9).block.Idx → Elt F (cfg0.win 9).elt) (h : (rdat m c).Finds 9 t Y) :
    Y = (Launch.V m c main_v3 : Vec F S1x1 .f32) := by
  obtain ⟨d, rfl⟩ := RDat.finds_in_eq_fetched (rdat m c) 9 rfl (fun _ _ _ => rfl)
    (fun t Y X h => (rdat_after_in m c 9 (by decide) t Y X).mp h) t Y h
  funext y
  show Launch.V m c main_v3 (((cfg0.win 9).blk t).view.emb y) = Launch.V m c main_v3 y
  congr 1
  funext a; apply Fin.ext
  match a with
  | ⟨0, _⟩ => show 0 * 1 + 1 * (y 0).val = (y 0).val; omega
  | ⟨1, _⟩ => show 0 * 1 + 1 * (y 1).val = (y 1).val; omega

end Cert.KernelIdeal.Body

end
-- ==== Proof.ResultWindow.lean ====
/-
  What the pipelined region leaves in its windows' arrays, read off the proof data.

  The result window is an output over the whole result array: it is never fetched, its one block is the whole array
  at every point, and it is written back once, after the last point.  So what the body finds in its staging buffer at
  a point is what the body left there at the point before, and by induction on the point the rows below
  `400 · (t − 25)` are the result's rows; after the last point all 10000 rows are, and the one write-back replaces
  every element of the array.  An input window's array is never written: it holds its entry contents.
-/
import proofs.«181627_g9191230013956_cont_9to1_m_1205_16_alg».proof.Proof.ProofData
import proofs.«181627_g9191230013956_cont_9to1_m_1205_16_alg».proof.Proof.Gen.KernelIdeal.Points
import Idealize.ShloMosaic.Lib.Pipeline.Value

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (RDat Cfg Window)

variable {F : FTy → Type} [FloatOps F]

variable (m : (ℓ : Loc nD τ sig) → Buf (Elt F) ℓ)

/-- The result window is an output: no point fetches it. -/
theorem fetch_result (t : Fin cfg0.N) : (cfg0.win 10).fetch t = false :=
  Window.fetch_out (cfg0.win 10) rfl t

/-- No point before the last writes the result window back. -/
theorem flush_result_of_lt (t : Fin cfg0.N) (h : t.val < 49) : (cfg0.win 10).flush t = false := by
  cases hf : (cfg0.win 10).flush t with
  | false => rfl
  | true => have := (flush0_10 t).mp hf; omega

/-- What the body finds in the result's staging buffer at point `t` has the result's rows below `400 · (t − 25)`. -/
theorem finds_result_aux (c : Dev nD) : ∀ (n : ℕ) (t : Fin cfg0.N), t.val = n → ∀ (Y : S10000x1.Idx → Elt F .f32),
    (rdat m c).Finds 10 t Y → RowsDone (filledRes t.val) Y (res m c)
  | 0, t, ht, Y, _ => fun y hy => absurd hy (by rw [ht]; exact Nat.not_lt_zero _)
  | n + 1, t, ht, Y, h => by
    have hlt : t.val < 50 := Gen.N_0 ▸ t.isLt
    rcases ((rdat m c).finds_of_pos (fetch_result t) (by omega) Y).mp h with hfl | ⟨Y', hY', hstep⟩
    · rw [flush_result_of_lt _ (by show t.val - 1 < 49; omega)] at hfl
      exact absurd hfl Bool.false_ne_true
    · have ih := finds_result_aux c n ⟨t.val - 1, Nat.lt_of_le_of_lt (Nat.sub_le _ _) t.isLt⟩ (by show t.val - 1 = n; omega) Y' hY'
      have hs := (rdat_after_out m c _ Y' Y ▸ hstep) ih
      rwa [show t.val - 1 + 1 = t.val by omega] at hs

theorem finds_result (c : Dev nD) (t : Fin cfg0.N) (Y : S10000x1.Idx → Elt F .f32) (h : (rdat m c).Finds 10 t Y) :
    RowsDone (filledRes t.val) Y (res m c) :=
  finds_result_aux m c t.val t rfl Y h

/-- An input window's array holds its entry contents after the run. -/
theorem input_array (c : Dev nD) (w : Fin cfg0.W) (hw : w ≠ 10) (G) (h : (rdat m c).ArrAt w cfg0.N G) :
    G = Launch.V m c (Pipeline.arrRef spec0 w) := by
  have hin : (cfg0.win w).isOut = false := by
    fin_cases w <;> first | rfl | exact absurd rfl hw
  rw [(rdat m c).ArrAt_in w hin] at h
  exact h

/-- The last point. -/
abbrev lastPoint : Fin cfg0.N := ⟨49, by rw [show cfg0.N = 50 from Gen.N_0]; omega⟩

/-- What the body leaves in the result's staging buffer at the last point is the result. -/
theorem leaves_last (c : Dev nD) (X : S10000x1.Idx → Elt F .f32) (h : (rdat m c).Leaves 10 lastPoint X) : X = res m c := by
  obtain ⟨Y, hY, hstep⟩ := h
  have hs : RowsDone (filledRes 50) X (res m c) := (rdat_after_out m c _ Y X ▸ hstep) (finds_result m c lastPoint Y hY)
  funext y
  exact hs y (y 0).isLt

/-- The block of the result window at the last point is the whole result array: an element of the block sits in the
    array at its own coordinates. -/
theorem result_block_emb (y : ((cfg0.win 10).xblock (cfg0.grid.coords lastPoint)).Idx) :
    ((cfg0.win 10).blk lastPoint).view.emb y = (cfg0.win 10).xinj (cfg0.grid.coords lastPoint) y := by
  have hidx : ∀ a, (cfg0.win 10).index lastPoint a = 0 := fun a => by
    fin_cases a <;> rfl
  exact funext fun a => Fin.ext ((cfg0.win 10).rect_emb_val_of_index_zero lastPoint a (hidx a) y)

/-- After the run the result window's array holds the result. -/
theorem result_array (c : Dev nD) (G : Buf (Elt F) ((cfg0.win 10).arr.view.loc (c.tc : Thread nD τ)))
    (h : (rdat m c).ArrAt 10 cfg0.N G) : (G : S10000x1.Idx → Elt F .f32) = res m c := by
  have h50 : (rdat m c).ArrAt 10 cfg0.N = (rdat m c).ArrAt 10 (lastPoint.val + 1) :=
    congrArg _ (show cfg0.N = 50 from Gen.N_0)
  rw [h50, (rdat m c).ArrAt_succ, if_pos ((flush0_10 _).mpr rfl)] at h
  obtain ⟨G₀, X, -, hX, rfl⟩ := h
  obtain rfl := leaves_last m c X hX
  funext i
  obtain ⟨y, rfl⟩ : ∃ y : ((cfg0.win 10).xblock (cfg0.grid.coords lastPoint)).Idx,
      ((cfg0.win 10).blk lastPoint).view.emb y = i := ⟨i, result_block_emb i⟩
  rw [View.write_emb_of_mem _ _ (Finset.mem_univ y)]
  exact (cast_eq _ _).trans (congrArg (res m c) (result_block_emb y).symm)

end Cert.KernelIdeal.Body

end
-- ==== Proof.Obligation.lean ====
/-
  The body obligation: at every grid point, from the invariant and the windows' staging buffers at what they may hold,
  the kernel body runs to the invariant at the next point and leaves each buffer in its relation to what it found.

  A point below 25 runs the first stage: the scratch buffers' filled rows grow by the point's 400 rows (two stored blocks
  of 200, each the hidden layer's rows there because the point's adjacency blocks and feature rows are those rows'), and
  the result's buffer is not touched.  A point from 25 on finds the scratch buffers full — they ARE the hidden layer —
  runs the second stage, and the result buffer's filled rows grow by the point's 400 rows.
-/
import proofs.«181627_g9191230013956_cont_9to1_m_1205_16_alg».proof.Proof.StageRuns
import proofs.«181627_g9191230013956_cont_9to1_m_1205_16_alg».proof.Proof.RowFill
import proofs.«181627_g9191230013956_cont_9to1_m_1205_16_alg».proof.Proof.InputWindows
import proofs.«181627_g9191230013956_cont_9to1_m_1205_16_alg».proof.Proof.ResultWindow

set_option maxRecDepth 16384

noncomputable section

namespace Cert.KernelIdeal.Body

open Cert.KernelIdeal Cert.KernelIdeal.Gen Cert.Layers
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## A stored block's rows are the whole-array function's rows -/

/-- Row `p` of block `j` of the first stage's f32 store is row `200 j + p` of the hidden layer. -/
theorem hidden_at (A : Vec F S10000x10000 .f32) (Xbf : Vec F S10000x128 .bf16) (X : Vec F S10000x128 .f32)
    (W1 : Vec F S128x64 .f32) (b1 : Vec F S1x64 .f32) (j : Fin 50) (x : S200x64.Idx) (y : S10000x64.Idx)
    (hy0 : (y 0).val = 200 * j.val + (x 0).val) (hy1 : (y 1).val = (x 1).val) :
    k0_pay6 (rowBlock A j) Xbf (rowBlock X j) W1 b1 x = Cert.Layers.hidden A Xbf X W1 b1 y := by
  unfold Cert.Layers.hidden
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay6 (rowBlock A j) Xbf (rowBlock X j) W1 b1) hx

/-- The same for the store in the contraction format. -/
theorem hiddenBf_at (A : Vec F S10000x10000 .f32) (Xbf : Vec F S10000x128 .bf16) (X : Vec F S10000x128 .f32)
    (W1 : Vec F S128x64 .f32) (b1 : Vec F S1x64 .f32) (j : Fin 50) (x : S200x64.Idx) (y : S10000x64.Idx)
    (hy0 : (y 0).val = 200 * j.val + (x 0).val) (hy1 : (y 1).val = (x 1).val) :
    k0_pay7 (rowBlock A j) Xbf (rowBlock X j) W1 b1 x = Cert.Layers.hiddenBf A Xbf X W1 b1 y := by
  unfold Cert.Layers.hiddenBf
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay7 (rowBlock A j) Xbf (rowBlock X j) W1 b1) hx

/-- Row `p` of block `j` of the second stage's store is row `200 j + p` of the result column. -/
theorem head_at (A : Vec F S10000x10000 .f32) (Hbf : Vec F S10000x64 .bf16) (H : Vec F S10000x64 .f32)
    (W2 : Vec F S64x32 .f32) (b2 : Vec F S1x32 .f32) (W3 : Vec F S32x1 .f32) (b3 : Vec F S1x1 .f32) (j : Fin 50)
    (x : S200x1.Idx) (y : S10000x1.Idx)
    (hy0 : (y 0).val = 200 * j.val + (x 0).val) (hy1 : (y 1).val = (x 1).val) :
    k0_pay8 (rowBlock A j) Hbf (rowBlock H j) W2 b2 W3 b3 x = Cert.Layers.head A Hbf H W2 b2 W3 b3 y := by
  unfold Cert.Layers.head
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay8 (rowBlock A j) Hbf (rowBlock H j) W2 b2 W3 b3) hx

/-- The two half-blocks of a point run the same arithmetic. -/
theorem pay2_eq : @k0_pay2 F _ = k0_pay6 := rfl
theorem pay3_eq : @k0_pay3 F _ = k0_pay7 := rfl
theorem pay4_eq : @k0_pay4 F _ = k0_pay8 := rfl

/-- A whole scoped buffer through its own memref. -/
theorem whole_pt (c : Dev nD) (b : Ref sig .tc) (q : PosShare TreeShare) (f : Buf (Elt F) ((c : Thread nD τ).loc b)) :
    (((Memref.whole b : Memref sig .tc b.space b.ty.shape b.ty.elt).view.loc (c : Thread nD τ)) ↦[(Memref.whole b).view.set]{q} f : sProp 𝕄)
      = (((c : Thread nD τ).loc b) ↦{q} f) := by
  simp only [Memref.view_whole, View.set_whole]

variable (m : (ℓ : Loc nD τ sig) → Buf (Elt F) ℓ)

/-- The two scratch buffers through their own memrefs, and read through them. -/
theorem scratch0_pt (c : Dev nD) (f : Buf (Elt F) ((c : Thread nD τ).loc cc0_scratch0)) :
    (((Memref.whole cc0_scratch0 : Memref sig .tc .vmem S10000x64 .f32).view.loc (c : Thread nD τ))
        ↦[(Memref.whole cc0_scratch0 : Memref sig .tc .vmem S10000x64 .f32).view.set]{fullShare} f : sProp 𝕄)
      = (((c : Thread nD τ).loc cc0_scratch0) ↦{fullShare} f) := whole_pt c cc0_scratch0 fullShare f
theorem scratch1_pt (c : Dev nD) (f : Buf (Elt F) ((c : Thread nD τ).loc cc0_scratch1)) :
    (((Memref.whole cc0_scratch1 : Memref sig .tc .vmem S10000x64 .bf16).view.loc (c : Thread nD τ))
        ↦[(Memref.whole cc0_scratch1 : Memref sig .tc .vmem S10000x64 .bf16).view.set]{fullShare} f : sProp 𝕄)
      = (((c : Thread nD τ).loc cc0_scratch1) ↦{fullShare} f) := whole_pt c cc0_scratch1 fullShare f
theorem read_scratch0 (c : Dev nD) (f : Buf (Elt F) ((c : Thread nD τ).loc cc0_scratch0)) :
    (Memref.whole cc0_scratch0 : Memref sig .tc .vmem S10000x64 .f32).view.read (Elt F) f = f := by
  simp only [Memref.view_whole, View.read_whole]
theorem read_scratch1 (c : Dev nD) (f : Buf (Elt F) ((c : Thread nD τ).loc cc0_scratch1)) :
    (Memref.whole cc0_scratch1 : Memref sig .tc .vmem S10000x64 .bf16).view.read (Elt F) f = f := by
  simp only [Memref.view_whole, View.read_whole]

/-- Holding a scratch buffer whole is holding it through its own memref, and back. -/
theorem scratch0_in (c : Dev nD) (f : Buf (Elt F) ((c : Thread nD τ).loc cc0_scratch0)) :
    ((((c : Thread nD τ).loc cc0_scratch0) ↦{fullShare} f) : sProp 𝕄)
      ⊢ (((Memref.whole cc0_scratch0 : Memref sig .tc .vmem S10000x64 .f32).view.loc (c : Thread nD τ))
          ↦[(Memref.whole cc0_scratch0 : Memref sig .tc .vmem S10000x64 .f32).view.set]{fullShare} f) := by
  rw [scratch0_pt c f]
theorem scratch0_out (c : Dev nD) (f : Buf (Elt F) ((c : Thread nD τ).loc cc0_scratch0)) :
    ((((Memref.whole cc0_scratch0 : Memref sig .tc .vmem S10000x64 .f32).view.loc (c : Thread nD τ))
          ↦[(Memref.whole cc0_scratch0 : Memref sig .tc .vmem S10000x64 .f32).view.set]{fullShare} f) : sProp 𝕄)
      ⊢ (((c : Thread nD τ).loc cc0_scratch0) ↦{fullShare} f) := by
  rw [scratch0_pt c f]
theorem scratch1_in (c : Dev nD) (f : Buf (Elt F) ((c : Thread nD τ).loc cc0_scratch1)) :
    ((((c : Thread nD τ).loc cc0_scratch1) ↦{fullShare} f) : sProp 𝕄)
      ⊢ (((Memref.whole cc0_scratch1 : Memref sig .tc .vmem S10000x64 .bf16).view.loc (c : Thread nD τ))
          ↦[(Memref.whole cc0_scratch1 : Memref sig .tc .vmem S10000x64 .bf16).view.set]{fullShare} f) := by
  rw [scratch1_pt c f]
theorem scratch1_out (c : Dev nD) (f : Buf (Elt F) ((c : Thread nD τ).loc cc0_scratch1)) :
    ((((Memref.whole cc0_scratch1 : Memref sig .tc .vmem S10000x64 .bf16).view.loc (c : Thread nD τ))
          ↦[(Memref.whole cc0_scratch1 : Memref sig .tc .vmem S10000x64 .bf16).view.set]{fullShare} f) : sProp 𝕄)
      ⊢ (((c : Thread nD τ).loc cc0_scratch1) ↦{fullShare} f) := by
  rw [scratch1_pt c f]

set_option maxHeartbeats 1000000 in
/-- A point of the first stage. -/
theorem stepFirst (c : Dev nD) (t : Fin cfg0.N) (ht : t.val < 25)
    (Y : (w : Fin cfg0.W) → (cfg0.win w).block.Idx → Elt F (cfg0.win w).elt)
    (h0 : Y 0 = rowBlock (Launch.V m c main_arg0 : Vec F S10000x10000 .f32) ⟨2 * (t.val % 25), by omega⟩)
    (h1 : Y 1 = rowBlock (Launch.V m c main_arg0 : Vec F S10000x10000 .f32) ⟨2 * (t.val % 25) + 1, by omega⟩)
    (h2 : Y 2 = (Launch.V m c main_v0 : Vec F S10000x128 .bf16)) (h3 : Y 3 = (Launch.V m c main_arg1 : Vec F S10000x128 .f32))
    (h4 : Y 4 = (Launch.V m c main_v1 : Vec F S1x64 .f32)) (h5 : Y 5 = (Launch.V m c main_arg2 : Vec F S128x64 .f32)) :
    iprop((rdat m c).Φ t.castSucc ∗ (rdat m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7)
        ∗ owns (c : Thread nD τ) ((cfg0.win 8).stage (cfg0.slots t 8)) fullShare (Y 8)
        ∗ owns (c : Thread nD τ) ((cfg0.win 9).stage (cfg0.slots t 9)) fullShare (Y 9)
        ∗ owns (c : Thread nD τ) ((cfg0.win 10).stage (cfg0.slots t 10)) fullShare (Y 10))
      ⊢ wp frame (wpE (defs₀ (F := F)) Variants.none c none) Set.univ (bodyAt0 t) fun _ =>
          iprop((rdat m c).Φ t.succ ∗ (rdat m c).owesAt () t.succ
          ∗ (∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)
          ∗ (∃ X, ⌜(rdat m c).after 5 t (Y 5) X⌝ ∗ owns (c : Thread nD τ) ((cfg0.win 5).stage (cfg0.slots t 5)) fullShare X)
          ∗ (∃ X, ⌜(rdat m c).after 6 t (Y 6) X⌝ ∗ owns (c : Thread nD τ) ((cfg0.win 6).stage (cfg0.slots t 6)) fullShare X)
          ∗ (∃ X, ⌜(rdat m c).after 7 t (Y 7) X⌝ ∗ owns (c : Thread nD τ) ((cfg0.win 7).stage (cfg0.slots t 7)) fullShare X)
          ∗ (∃ X, ⌜(rdat m c).after 8 t (Y 8) X⌝ ∗ owns (c : Thread nD τ) ((cfg0.win 8).stage (cfg0.slots t 8)) fullShare X)
          ∗ (∃ X, ⌜(rdat m c).after 9 t (Y 9) X⌝ ∗ owns (c : Thread nD τ) ((cfg0.win 9).stage (cfg0.slots t 9)) fullShare X)
          ∗ (∃ X, ⌜(rdat m c).after 10 t (Y 10) X⌝ ∗ owns (c : Thread nD τ) ((cfg0.win 10).stage (cfg0.slots t 10)) fullShare X)) := by
  have hc1 : k0_cond1 (grid0.coords t) = 1#1 := (first_iff t).mpr ht
  have hc2 : ¬ k0_cond2 (grid0.coords t) = 1#1 := fun h => by have := (second_iff t).mp h; omega
  rw [rdat_Φ, rdat_Φ]; unfold carried
  iintro ⟨⟨%f0, %f1, %hdone, Hs0, Hs1⟩, Ho, H0, H1, H2, H3, H4, H5, H6, H7, H8, H9, H10⟩
  ihave Hs0 := (scratch0_in c f0) $$ Hs0
  ihave Hs1 := (scratch1_in c f1) $$ Hs1
  iapply (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) hc1 hc2 (Y 0) (Y 1) (Y 2) (Y 3) (Y 4) (Y 5) f0 f1 Set.univ _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  iintro ⟨H0, H1, H2, H3, H4, H5, Hs0, Hs1⟩
  have e25 : t.val % 25 = t.val := Nat.mod_eq_of_lt ht
  have jlo_lt : 2 * t.val < 50 := by omega
  have jhi_lt : 2 * t.val + 1 < 50 := by omega
  let jlo : Fin 50 := ⟨2 * t.val, jlo_lt⟩
  let jhi : Fin 50 := ⟨2 * t.val + 1, jhi_lt⟩
  have h0 : Y 0 = rowBlock (Launch.V m c main_arg0 : Vec F S10000x10000 .f32) jlo := by
    rw [h0]; congr 1; exact Fin.ext (by show 2 * (t.val % 25) = 2 * t.val; rw [e25])
  have h1 : Y 1 = rowBlock (Launch.V m c main_arg0 : Vec F S10000x10000 .f32) jhi := by
    rw [h1]; congr 1; exact Fin.ext (by show 2 * (t.val % 25) + 1 = 2 * t.val + 1; rw [e25])
  have elo : k0_off1 (grid0.coords t) 0#32 = ![200 * jlo.val, 0] := by
    rw [off1_lo t ht]; show ![400 * t.val, 0] = ![200 * (2 * t.val), 0]; rw [show 400 * t.val = 200 * (2 * t.val) by omega]
  have ehi : k0_off1 (grid0.coords t) 200#32 = ![200 * jhi.val, 0] := by
    rw [off1_hi t ht]; show ![400 * t.val + 200, 0] = ![200 * (2 * t.val + 1), 0]; rw [show 400 * t.val + 200 = 200 * (2 * t.val + 1) by omega]
  have e : filledHid (t.succ : Fin (cfg0.N + 1)).val = 400 * t.val + 400 := by
    simp only [filledHid, Fin.val_succ]; omega
  have hd : RowsDone (F := F) (400 * t.val) (f0 : S10000x64.Idx → Elt F .f32) (hid m c)
      ∧ RowsDone (F := F) (400 * t.val) (f1 : S10000x64.Idx → Elt F .bf16) (hidBf m c) := by
    have := hdone; simp only [filledHid, Fin.coe_castSucc] at this; rwa [Nat.min_eq_left (by omega)] at this
  -- the invariant before the next point: 400 more rows of each scratch buffer are the hidden layer's
  isplitl [Hs0 Hs1]
  · iexists _, _
    isplitr [Hs0 Hs1]
    swap
    · isplitl [Hs0]
      · iapply (scratch0_out c _); iexact Hs0
      · iapply (scratch1_out c _); iexact Hs1
    ipureintro
    refine ⟨?_, ?_⟩
    · rw [e]
      have hf : RowsDone (F := F) (400 * t.val) ((Memref.whole cc0_scratch0 : Memref sig .tc .vmem S10000x64 .f32).view.read (Elt F) f0) (hid m c) := by
        rw [read_scratch0 c]; exact hd.1
      have := rowsDone_two (F := F) (Memref.whole cc0_scratch0 : Memref sig .tc .vmem S10000x64 .f32).view f0 (hid m c) (400 * t.val) _ _ S200x64.size rfl rfl
        (k0_off2_inb (grid0.coords t) hc1 1) (k0_off2_inb (grid0.coords t) hc1 0)
        (k0_pay2 (Y 1) (Y 2) (View.ld (Y 3) (Rect.unit (k0_off1 (grid0.coords t) 200#32) S200x128.size (k0_off1_inb (grid0.coords t) hc1 1))) (Y 5) (Y 4))
        (k0_pay6 (Y 0) (Y 2) (View.ld (Y 3) (Rect.unit (k0_off1 (grid0.coords t) 0#32) S200x128.size (k0_off1_inb (grid0.coords t) hc1 0))) (Y 5) (Y 4))
        (off2_hi t ht) (off2_lo t ht) hf
        (fun x y hy0 hy1 => by
          rw [pay2_eq, h1, h2, h3, h4, h5, ld_rowBlock (F := F) (Launch.V m c main_arg1 : Vec F S10000x128 .f32) _ jhi _ ehi]
          exact hidden_at _ _ _ _ _ jhi x y (by show (y 0).val = 200 * (2 * t.val + 1) + (x 0).val; omega) hy1)
        (fun x y hy0 hy1 => by
          rw [h0, h2, h3, h4, h5, ld_rowBlock (F := F) (Launch.V m c main_arg1 : Vec F S10000x128 .f32) _ jlo _ elo]
          exact hidden_at _ _ _ _ _ jlo x y (by show (y 0).val = 200 * (2 * t.val) + (x 0).val; omega) hy1)
      rw [read_scratch0 c] at this; exact this
    · rw [e]
      have hf : RowsDone (F := F) (400 * t.val) ((Memref.whole cc0_scratch1 : Memref sig .tc .vmem S10000x64 .bf16).view.read (Elt F) f1) (hidBf m c) := by
        rw [read_scratch1 c]; exact hd.2
      have := rowsDone_two (F := F) (Memref.whole cc0_scratch1 : Memref sig .tc .vmem S10000x64 .bf16).view f1 (hidBf m c) (400 * t.val) _ _ S200x64.size rfl rfl
        (k0_off2_inb (grid0.coords t) hc1 1) (k0_off2_inb (grid0.coords t) hc1 0)
        (k0_pay3 (Y 1) (Y 2) (View.ld (Y 3) (Rect.unit (k0_off1 (grid0.coords t) 200#32) S200x128.size (k0_off1_inb (grid0.coords t) hc1 1))) (Y 5) (Y 4))
        (k0_pay7 (Y 0) (Y 2) (View.ld (Y 3) (Rect.unit (k0_off1 (grid0.coords t) 0#32) S200x128.size (k0_off1_inb (grid0.coords t) hc1 0))) (Y 5) (Y 4))
        (off2_hi t ht) (off2_lo t ht) hf
        (fun x y hy0 hy1 => by
          rw [pay3_eq, h1, h2, h3, h4, h5, ld_rowBlock (F := F) (Launch.V m c main_arg1 : Vec F S10000x128 .f32) _ jhi _ ehi]
          exact hiddenBf_at _ _ _ _ _ jhi x y (by show (y 0).val = 200 * (2 * t.val + 1) + (x 0).val; omega) hy1)
        (fun x y hy0 hy1 => by
          rw [h0, h2, h3, h4, h5, ld_rowBlock (F := F) (Launch.V m c main_arg1 : Vec F S10000x128 .f32) _ jlo _ elo]
          exact hiddenBf_at _ _ _ _ _ jlo x y (by show (y 0).val = 200 * (2 * t.val) + (x 0).val; omega) hy1)
      rw [read_scratch1 c] at this; exact this
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  isplitl [H9]
  · iexists (Y 9); isplitr; · ipureintro; exact rfl
    iexact H9
  iexists (Y 10); isplitr
  · ipureintro
    show grows m c t (Y 10) (Y 10)
    intro _ y hy; exfalso; simp only [filledRes] at hy; omega
  iexact H10

/-- A staging buffer owned at contents `X` is held at some buffer contents that read `X`, and back. -/
theorem owns_open {S : Shape} {e : EltTy} (c : Dev nD) (a : Memref sig .tc .vmem S e) (X : S.Idx → Elt F e) :
    (owns (c : Thread nD τ) a fullShare X : sProp 𝕄)
      ⊢ iprop(∃ f, ⌜a.view.read (Elt F) f = X⌝ ∗ (a.view.loc (c : Thread nD τ) ↦[a.view.set]{fullShare} f)) := by
  unfold owns; exact .rfl
theorem owns_close {S : Shape} {e : EltTy} (c : Dev nD) (a : Memref sig .tc .vmem S e) (f : Buf (Elt F) (a.view.loc (c : Thread nD τ))) :
    ((a.view.loc (c : Thread nD τ) ↦[a.view.set]{fullShare} f) : sProp 𝕄)
      ⊢ owns (c : Thread nD τ) a fullShare (a.view.read (Elt F) f) := by
  unfold owns; iintro H; iexists f; isplitr; · ipureintro; rfl
  iexact H
/-- A scratch buffer held whole is owned through its memref at its contents, and back. -/
theorem scratch0_owns (c : Dev nD) (f : Buf (Elt F) ((c : Thread nD τ).loc cc0_scratch0)) :
    (owns (c : Thread nD τ) (Memref.whole cc0_scratch0 : Memref sig .tc .vmem S10000x64 .f32) fullShare (f : S10000x64.Idx → Elt F .f32) : sProp 𝕄)
      = (((c : Thread nD τ).loc cc0_scratch0) ↦{fullShare} f) := owns_whole (c : Thread nD τ) cc0_scratch0 fullShare f
theorem scratch1_owns (c : Dev nD) (f : Buf (Elt F) ((c : Thread nD τ).loc cc0_scratch1)) :
    (owns (c : Thread nD τ) (Memref.whole cc0_scratch1 : Memref sig .tc .vmem S10000x64 .bf16) fullShare (f : S10000x64.Idx → Elt F .bf16) : sProp 𝕄)
      = (((c : Thread nD τ).loc cc0_scratch1) ↦{fullShare} f) := owns_whole (c : Thread nD τ) cc0_scratch1 fullShare f
theorem scratch0_owns_in (c : Dev nD) (f : Buf (Elt F) ((c : Thread nD τ).loc cc0_scratch0)) :
    ((((c : Thread nD τ).loc cc0_scratch0) ↦{fullShare} f) : sProp 𝕄)
      ⊢ owns (c : Thread nD τ) (Memref.whole cc0_scratch0 : Memref sig .tc .vmem S10000x64 .f32) fullShare (f : S10000x64.Idx → Elt F .f32) := by
  rw [scratch0_owns c f]
theorem scratch0_owns_out (c : Dev nD) (f : Buf (Elt F) ((c : Thread nD τ).loc cc0_scratch0)) :
    (owns (c : Thread nD τ) (Memref.whole cc0_scratch0 : Memref sig .tc .vmem S10000x64 .f32) fullShare (f : S10000x64.Idx → Elt F .f32) : sProp 𝕄)
      ⊢ (((c : Thread nD τ).loc cc0_scratch0) ↦{fullShare} f) := by
  rw [scratch0_owns c f]
theorem scratch1_owns_in (c : Dev nD) (f : Buf (Elt F) ((c : Thread nD τ).loc cc0_scratch1)) :
    ((((c : Thread nD τ).loc cc0_scratch1) ↦{fullShare} f) : sProp 𝕄)
      ⊢ owns (c : Thread nD τ) (Memref.whole cc0_scratch1 : Memref sig .tc .vmem S10000x64 .bf16) fullShare (f : S10000x64.Idx → Elt F .bf16) := by
  rw [scratch1_owns c f]
theorem scratch1_owns_out (c : Dev nD) (f : Buf (Elt F) ((c : Thread nD τ).loc cc0_scratch1)) :
    (owns (c : Thread nD τ) (Memref.whole cc0_scratch1 : Memref sig .tc .vmem S10000x64 .bf16) fullShare (f : S10000x64.Idx → Elt F .bf16) : sProp 𝕄)
      ⊢ (((c : Thread nD τ).loc cc0_scratch1) ↦{fullShare} f) := by
  rw [scratch1_owns c f]

set_option maxHeartbeats 1000000 in
/-- A point of the second stage. -/
theorem stepSecond (c : Dev nD) (t : Fin cfg0.N) (ht : 25 ≤ t.val)
    (Y : (w : Fin cfg0.W) → (cfg0.win w).block.Idx → Elt F (cfg0.win w).elt)
    (h0 : Y 0 = rowBlock (Launch.V m c main_arg0 : Vec F S10000x10000 .f32) ⟨2 * (t.val % 25), by omega⟩)
    (h1 : Y 1 = rowBlock (Launch.V m c main_arg0 : Vec F S10000x10000 .f32) ⟨2 * (t.val % 25) + 1, by omega⟩)
    (h6 : Y 6 = (Launch.V m c main_v2 : Vec F S1x32 .f32)) (h7 : Y 7 = (Launch.V m c main_arg4 : Vec F S64x32 .f32))
    (h8 : Y 8 = (Launch.V m c main_arg6 : Vec F S32x1 .f32)) (h9 : Y 9 = (Launch.V m c main_v3 : Vec F S1x1 .f32))
    (h10 : RowsDone (F := F) (filledRes t.val) (Y 10 : S10000x1.Idx → Elt F .f32) (res m c)) :
    iprop((rdat m c).Φ t.castSucc ∗ (rdat m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7)
        ∗ owns (c : Thread nD τ) ((cfg0.win 8).stage (cfg0.slots t 8)) fullShare (Y 8)
        ∗ owns (c : Thread nD τ) ((cfg0.win 9).stage (cfg0.slots t 9)) fullShare (Y 9)
        ∗ owns (c : Thread nD τ) ((cfg0.win 10).stage (cfg0.slots t 10)) fullShare (Y 10))
      ⊢ wp frame (wpE (defs₀ (F := F)) Variants.none c none) Set.univ (bodyAt0 t) fun _ =>
          iprop((rdat m c).Φ t.succ ∗ (rdat m c).owesAt () t.succ
          ∗ (∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)
          ∗ (∃ X, ⌜(rdat m c).after 5 t (Y 5) X⌝ ∗ owns (c : Thread nD τ) ((cfg0.win 5).stage (cfg0.slots t 5)) fullShare X)
          ∗ (∃ X, ⌜(rdat m c).after 6 t (Y 6) X⌝ ∗ owns (c : Thread nD τ) ((cfg0.win 6).stage (cfg0.slots t 6)) fullShare X)
          ∗ (∃ X, ⌜(rdat m c).after 7 t (Y 7) X⌝ ∗ owns (c : Thread nD τ) ((cfg0.win 7).stage (cfg0.slots t 7)) fullShare X)
          ∗ (∃ X, ⌜(rdat m c).after 8 t (Y 8) X⌝ ∗ owns (c : Thread nD τ) ((cfg0.win 8).stage (cfg0.slots t 8)) fullShare X)
          ∗ (∃ X, ⌜(rdat m c).after 9 t (Y 9) X⌝ ∗ owns (c : Thread nD τ) ((cfg0.win 9).stage (cfg0.slots t 9)) fullShare X)
          ∗ (∃ X, ⌜(rdat m c).after 10 t (Y 10) X⌝ ∗ owns (c : Thread nD τ) ((cfg0.win 10).stage (cfg0.slots t 10)) fullShare X)) := by
  have hc1 : ¬ k0_cond1 (grid0.coords t) = 1#1 := fun h => by have := (first_iff t).mp h; omega
  have hc2 : k0_cond2 (grid0.coords t) = 1#1 := (second_iff t).mpr ht
  have htN : t.val < 50 := lt_of_lt_of_eq t.isLt N_0
  rw [rdat_Φ, rdat_Φ]; unfold carried
  iintro ⟨⟨%f0, %f1, %hdone, Hs0, Hs1⟩, Ho, H0, H1, H2, H3, H4, H5, H6, H7, H8, H9, H10⟩
  -- the scratch buffers are full: they are the hidden layer
  have hfull : (f0 : S10000x64.Idx → Elt F .f32) = hid m c ∧ (f1 : S10000x64.Idx → Elt F .bf16) = hidBf m c := by
    have := hdone; simp only [filledHid, Fin.coe_castSucc] at this; rw [Nat.min_eq_right (by omega)] at this
    exact ⟨funext fun y => this.1 y (idx2_lt0 y), funext fun y => this.2 y (idx2_lt0 y)⟩
  ihave Hm0 := (scratch0_owns_in c f0) $$ Hs0
  ihave Hm1 := (scratch1_owns_in c f1) $$ Hs1
  ihave Hr := (owns_open c _ _) $$ H10
  icases Hr with ⟨%f11, %hf11, Hr⟩
  iapply (runSecond c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) hc1 hc2 (Y 0) (Y 1) (Y 6) (Y 7) (Y 8) (Y 9) (f0 : S10000x64.Idx → Elt F .f32) (f1 : S10000x64.Idx → Elt F .bf16) f11 Set.univ _)
  isplitl [H0]; · iexact H0
  isplitl [H1]; · iexact H1
  isplitl [H6]; · iexact H6
  isplitl [H7]; · iexact H7
  isplitl [H8]; · iexact H8
  isplitl [H9]; · iexact H9
  isplitl [Hm0]; · iexact Hm0
  isplitl [Hm1]; · iexact Hm1
  isplitl [Hr]; · iexact Hr
  iintro ⟨H0, H1, H6, H7, H8, H9, Hs0, Hs1, H10⟩
  have e25 : t.val % 25 = t.val - 25 := by omega
  have jlo_lt : 2 * (t.val - 25) < 50 := by omega
  have jhi_lt : 2 * (t.val - 25) + 1 < 50 := by omega
  let jlo : Fin 50 := ⟨2 * (t.val - 25), jlo_lt⟩
  let jhi : Fin 50 := ⟨2 * (t.val - 25) + 1, jhi_lt⟩
  have h0 : Y 0 = rowBlock (Launch.V m c main_arg0 : Vec F S10000x10000 .f32) jlo := by
    rw [h0]; congr 1; exact Fin.ext (by show 2 * (t.val % 25) = 2 * (t.val - 25); rw [e25])
  have h1 : Y 1 = rowBlock (Launch.V m c main_arg0 : Vec F S10000x10000 .f32) jhi := by
    rw [h1]; congr 1; exact Fin.ext (by show 2 * (t.val % 25) + 1 = 2 * (t.val - 25) + 1; rw [e25])
  have elo : k0_off3 (grid0.coords t) 0#32 = ![200 * jlo.val, 0] := by
    rw [off3_lo t ht]; show ![400 * (t.val - 25), 0] = ![200 * (2 * (t.val - 25)), 0]; rw [show 400 * (t.val - 25) = 200 * (2 * (t.val - 25)) by omega]
  have ehi : k0_off3 (grid0.coords t) 200#32 = ![200 * jhi.val, 0] := by
    rw [off3_hi t ht]; show ![400 * (t.val - 25) + 200, 0] = ![200 * (2 * (t.val - 25) + 1), 0]; rw [show 400 * (t.val - 25) + 200 = 200 * (2 * (t.val - 25) + 1) by omega]
  have e : filledRes (t.val + 1) = 400 * (t.val - 25) + 400 := by simp only [filledRes]; omega
  have e' : filledRes t.val = 400 * (t.val - 25) := rfl
  -- the invariant: the scratch buffers as they were, still full
  isplitl [Hs0 Hs1]
  · iexists f0, f1
    isplitr
    · ipureintro
      have := hdone; simp only [filledHid, Fin.coe_castSucc, Fin.val_succ] at this ⊢
      rw [Nat.min_eq_right (by omega)] at this; rw [Nat.min_eq_right (by omega)]; exact this
    isplitl [Hs0]
    · iapply (scratch0_owns_out c f0); iexact Hs0
    · iapply (scratch1_owns_out c f1); iexact Hs1
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  isplitl [H9]
  · iexists (Y 9); isplitr; · ipureintro; exact rfl
    iexact H9
  -- the result's buffer: 400 more rows are the result's
  iexists _; isplitr [H10]
  swap
  · iapply (owns_close c _ _); iexact H10
  ipureintro
  show grows m c t (Y 10) _
  intro _
  rw [e]
  have hf : RowsDone (F := F) (400 * (t.val - 25)) ((win0_10.stage (cfg0.slots t 10)).view.read (Elt F) f11) (res m c) := by
    rw [hf11]; exact h10
  exact rowsDone_two (F := F) (win0_10.stage (cfg0.slots t 10)).view f11 (res m c) (400 * (t.val - 25)) _ _ S200x1.size rfl rfl
    (k0_off4_inb (grid0.coords t) hc2 1) (k0_off4_inb (grid0.coords t) hc2 0)
    (k0_pay4 (Y 1) (f1 : S10000x64.Idx → Elt F .bf16) (View.ld (f0 : S10000x64.Idx → Elt F .f32) (Rect.unit (k0_off3 (grid0.coords t) 200#32) S200x64.size (k0_off3_inb (grid0.coords t) hc2 1))) (Y 7) (Y 6) (Y 8) (Y 9))
    (k0_pay8 (Y 0) (f1 : S10000x64.Idx → Elt F .bf16) (View.ld (f0 : S10000x64.Idx → Elt F .f32) (Rect.unit (k0_off3 (grid0.coords t) 0#32) S200x64.size (k0_off3_inb (grid0.coords t) hc2 0))) (Y 7) (Y 6) (Y 8) (Y 9))
    (off4_hi t ht) (off4_lo t ht) hf
    (fun x y hy0 hy1 => by
      rw [pay4_eq, h1, hfull.1, hfull.2, h6, h7, h8, h9, ld_rowBlock (F := F) (hid m c) _ jhi _ ehi]
      exact head_at _ _ _ _ _ _ _ jhi x y (by show (y 0).val = 200 * (2 * (t.val - 25) + 1) + (x 0).val; omega) hy1)
    (fun x y hy0 hy1 => by
      rw [h0, hfull.1, hfull.2, h6, h7, h8, h9, ld_rowBlock (F := F) (hid m c) _ jlo _ elo]
      exact head_at _ _ _ _ _ _ _ jlo x y (by show (y 0).val = 200 * (2 * (t.val - 25)) + (x 0).val; omega) hy1)

/-- The body obligation of the region. -/
theorem body_obligation (c : Dev nD) : (rdat m c).BodyObligation (defs₀ (F := F)) Variants.none () Set.univ := by
  intro t Y hY
  rw [bigSep_W0, bigSep_W0]
  by_cases ht : t.val < 25
  · exact stepFirst m c t ht Y (finds_adj0 m c t _ (hY 0)) (finds_adj1 m c t _ (hY 1)) (finds_whole2 m c t _ (hY 2))
      (finds_whole3 m c t _ (hY 3)) (finds_whole4 m c t _ (hY 4)) (finds_whole5 m c t _ (hY 5))
  · exact stepSecond m c t (by omega) Y (finds_adj0 m c t _ (hY 0)) (finds_adj1 m c t _ (hY 1)) (finds_whole6 m c t _ (hY 6))
      (finds_whole7 m c t _ (hY 7)) (finds_whole8 m c t _ (hY 8)) (finds_whole9 m c t _ (hY 9)) (finds_result m c t _ (hY 10))

end Cert.KernelIdeal.Body

end
-- ==== Proof.Shares.lean ====
/-
  The region's entry and exit conditions for the proof data of ProofData.lean.

  * `hsplit`: the distinct buffers behind the eleven windows' arrays, each whole at the full share at its contents at the
    region's entry, make the proof data's `arrays`.  Ten arrays stand behind one window each and go to it whole; the
    adjacency array stands behind windows 0 and 1, and its full share is the composite of its left half (window 0's
    share) and its right half (window 1's).
  * `hin`: the two scratch buffers at any contents give the invariant before the first point, which asks nothing of
    their rows (no row is below 0).
  * `hout`: the invariant after the last point gives the two scratch buffers back at the contents it names.
-/
import proofs.«181627_g9191230013956_cont_9to1_m_1205_16_alg».proof.Proof.ProofData
import proofs.«181627_g9191230013956_cont_9to1_m_1205_16_alg».proof.Proof.Gen.KernelIdeal.Launch

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The ten distinct buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)
          ∗ (((c : Thread nD τ).loc main_arg1) ↦{fullShare} V main_arg1) ∗ (((c : Thread nD τ).loc main_v1) ↦{fullShare} V main_v1)
          ∗ (((c : Thread nD τ).loc main_arg2) ↦{fullShare} V main_arg2) ∗ (((c : Thread nD τ).loc main_v2) ↦{fullShare} V main_v2)
          ∗ (((c : Thread nD τ).loc main_arg4) ↦{fullShare} V main_arg4) ∗ (((c : Thread nD τ).loc main_arg6) ↦{fullShare} V main_arg6)
          ∗ (((c : Thread nD τ).loc main_v3) ↦{fullShare} V main_v3) ∗ (((c : Thread nD τ).loc main_v4) ↦{fullShare} V main_v4)) := by
  unfold Pipeline.arrBufs
  exact bigSep_eq_bigSepL_of_eq [main_arg0, main_v0, main_arg1, main_v1, main_arg2, main_v2, main_arg4, main_arg6, main_v3, main_v4]
    (by decide) (by decide) _

/-- The proof data's arrays at contents `G`, window by window: each window's array is a whole buffer, held at the
    window's share. -/
theorem rdat_arrays_eq (c : Dev nD) (G : (w : Fin cfg0.W) → Buf (Elt F) ((cfg0.win w).arr.view.loc (c : Thread nD τ))) :
    (rdat m c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_arg1) ↦{fullShare} G 3)
          ∗ (((c : Thread nD τ).loc main_v1) ↦{fullShare} G 4) ∗ (((c : Thread nD τ).loc main_arg2) ↦{fullShare} G 5)
          ∗ (((c : Thread nD τ).loc main_v2) ↦{fullShare} G 6) ∗ (((c : Thread nD τ).loc main_arg4) ↦{fullShare} G 7)
          ∗ (((c : Thread nD τ).loc main_arg6) ↦{fullShare} G 8) ∗ (((c : Thread nD τ).loc main_v3) ↦{fullShare} G 9)
          ∗ (((c : Thread nD τ).loc main_v4) ↦{fullShare} G 10)) := by
  have e : (rdat m c).arrays G = bigSep Finset.univ fun w : Fin 11 =>
      ((((c : Thread nD τ).loc (Pipeline.arrRef spec0 w)) ↦{(rdat m c).share w} G w : sProp 𝕄)) := by
    unfold RDat.arrays
    exact bigSep_congr fun w _ => by rw [(arr_whole0 w).set_eq_univ]
  rw [e, bigSep_W0]
  rfl

/-- The arrays' shares dealt to the windows. -/
theorem hsplit (c : Dev nD) : (Pipeline.arrBufs (cfgs 0).spec c (Launch.V m c) : sProp 𝕄) ⊢ (rdats m 0 c).arrays (rdats m 0 c).A := by
  show (Pipeline.arrBufs spec0 c (Launch.V m c) : sProp 𝕄) ⊢ (rdat m c).arrays (rdat m c).A
  rw [arrBufs0_eq, rdat_arrays_eq]
  iintro ⟨H0, H2, H3, H4, H5, H6, H7, H8, H9, H10⟩
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The scratch buffers at any contents give the invariant before the first point. -/
theorem hin (c : Dev nD) :
    (Pipeline.scopedRest (Ix := Unit) (Name := ℕ) (U := UR sig nD τ) (Lvl := ℕ) (Val := Elt F) (cfgs 0).spec c : sProp 𝕄) ⊢ (rdats m 0 c).Φ 0 := by
  show (Pipeline.scopedRest (Ix := Unit) (Name := ℕ) (U := UR sig nD τ) (Lvl := ℕ) (Val := Elt F) spec0 c : sProp 𝕄) ⊢ carried m c 0
  rw [scopedRest0_eq]
  unfold carried
  iintro ⟨⟨%f0, H0⟩, ⟨%f1, H1⟩⟩
  iexists f0
  iexists f1
  isplitr
  · ipureintro
    exact ⟨fun y hy => absurd hy (Nat.not_lt_zero _), fun y hy => absurd hy (Nat.not_lt_zero _)⟩
  · isplitl [H0]
    · iexact H0
    · iexact H1

/-- The invariant after the last point gives the scratch buffers back. -/
theorem hout (c : Dev nD) :
    (rdats m 0 c).Φ (Fin.last (cfgs 0).N) ⊢ (Pipeline.scopedRest (Ix := Unit) (Name := ℕ) (U := UR sig nD τ) (Lvl := ℕ) (Val := Elt F) (cfgs 0).spec c : sProp 𝕄) := by
  show carried m c (Fin.last cfg0.N) ⊢ (Pipeline.scopedRest (Ix := Unit) (Name := ℕ) (U := UR sig nD τ) (Lvl := ℕ) (Val := Elt F) spec0 c : sProp 𝕄)
  rw [scopedRest0_eq]
  unfold carried
  iintro ⟨%f0, %f1, -, H0, H1⟩
  isplitl [H0]
  · iexists f0; iexact H0
  · iexists f1; iexact H1

end Cert.KernelIdeal.Body

end
-- ==== Proof.LibSharedRel.lean ====
/-
  The run of a program that is one pipelined kernel region whose windows may read ONE array through SEVERAL windows,
  for proof data that CONSTRAIN what the kernel leaves in its windows by a relation instead of naming it, and for a
  kernel that may CARRY something in its scratch buffers from grid point to grid point.

  The proof data's invariant `Φ t` may say what the kernel's scratch buffers hold before point `t`: all that is asked is
  that the core's scoped buffers that are no staging buffer, at any contents, give `Φ 0` (`hin`), and that `Φ` after the last
  point gives them back at some contents (`hout`). How the full share of a buffer behind several windows is dealt to them
  is the caller's (`hsplit`): the buffers behind the arrays, each whole at the full share at its contents at the region's
  entry, must make the proof data's `arrays` at its entry contents `A`.

  `run_shared_rel` concludes, from any memory with every semaphore counter at zero: every weakly fair execution of the
  program terminates without fault; at the end every window's array stands in the proof data's relation after all the
  write-backs (`RDat.ArrAt w N`), and every unscoped buffer that is no window's array holds what it held when the region
  was entered. General in the program, the value type, the grid and the windows.
-/
import Idealize.ShloMosaic.Lib.Pipeline.Frame

noncomputable section

namespace Cert.SharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The run of a one-region program whose windows may share arrays, over relational proof data, whose kernel may carry
    scratch contents between points: the hypotheses of a run with distinct staging cells (`hinj`), the layout but for
    the arrays' distinctness (`hw`), non-empty blocks, whole arrays and staging memrefs, the relational body obligation
    (`hbody`), nothing owed, the program up to the region (`hmain`, `V`), the arrays' shares dealt to the windows at the
    data's entry contents (`hsplit`); the invariant before the first point from the scoped rest (`hin`) and the scoped
    rest back from the invariant after the last (`hout`). Every window's array ends in the data's relation after all
    write-backs (`RDat.ArrAt w N`), every other unscoped buffer at its contents at the region's entry. -/
theorem run_shared_rel (cfgs : P → Cfg sig Λ₀)
    (rdats : (p : P) → (c : Dev nD) → RDat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdats p c).BodyObligation defs₀ 𝒱₀ () Set.univ)
    (howed : ∀ c t, (rdats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (rdats p c).arrays (rdats p c).A)
    (hin : ∀ c, (scopedRest (Ix := Unit) (Name := ℕ) (U := UR sig nD τ) (Lvl := ℕ) (Val := Val) (cfgs p).spec c : sProp 𝕄) ⊢ (rdats p c).Φ 0)
    (hout : ∀ c, (rdats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (fun r => ∀ (c : Dev nD),
        (∀ w : Fin (cfgs p).W, (rdats p c).ArrAt w (cfgs p).N (r.2.mem (((cfgs p).spec w).arr.view.loc (c.tc : Thread nD τ))))
        ∧ ∀ b ∈ restRefs sig (cfgs p).spec, r.2.mem ((c.tc : Thread nD τ).loc b) = V c b) := by
  classical
  exact RDat.θ_run_region_pf (fun q => (cfgs q).toPCfg (Val := Val)) (fun q => (cfgs q).toPCfg_adm) rdats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun _ => (BI.emp : sProp 𝕄)) (Y := fun _ => (BI.emp : sProp 𝕄))
    (Z := fun c => unscopedRest (Ix := Unit) (Name := ℕ) (U := UR sig nD τ) (Lvl := ℕ) (cfgs p).spec c (V c))
    (hX := fun c => by
      rw [unscopedRestP_none]
      iintro ⟨HU, -⟩; imodintro
      isplitr
      · iempintro
      · iexact HU)
    (hin := fun c => (show _ ⊢ (scopedRest (Ix := Unit) (Name := ℕ) (U := UR sig nD τ) (Lvl := ℕ) (Val := Val) (cfgs p).spec c : sProp 𝕄) from by
      iintro ⟨-, -, HR⟩
      iexact HR).trans (hin c))
    (hout := fun c => (hout c).trans (by
      rw [ownSems0_none]
      iintro HR
      isplitr; · iempintro
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

/-- info: 'Cert.SharedFrame.run_shared_rel' depends on axioms: [propext, Classical.choice, Quot.sound] -/
#guard_msgs in #print axioms run_shared_rel

end Cert.SharedFrame

end
-- ==== Proof.RunKI.lean ====
/-
  The run of the kernel program, for any float instance: every weakly fair execution terminates without a fault, the
  result array ends at the result column of Layers.lean (the head over the kernel's own hidden layer, as functions of
  the argument arrays after the host operations before the region), and every argument array ends as it began.

  The region is launched with its relational proof data: the body obligation, the adjacency array's share dealt to its
  two windows, the scratch buffers handed to the invariant and taken back.  What the launch concludes of each window's
  array is then read: the result window's one write-back, after the last point, replaces the whole result array by a
  staging buffer whose every row has been filled; an input window's array is never written; an argument no window stages
  is not touched.
-/
import proofs.«181627_g9191230013956_cont_9to1_m_1205_16_alg».proof.Proof.Obligation
import proofs.«181627_g9191230013956_cont_9to1_m_1205_16_alg».proof.Proof.Shares
import proofs.«181627_g9191230013956_cont_9to1_m_1205_16_alg».proof.Proof.LibSharedRel

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (RDat Cfg Window cellOf)

variable {F : FTy → Type} [FloatOps F]

variable (m : (ℓ : Loc nD τ sig) → Buf (Elt F) ℓ)

/-- The region's run: each window's array ends at contents the write-backs may leave; the other arguments as they were. -/
theorem run_region (g : Dev nD → PrngReg) :
    θ_run (defs (F := F)) (onTc (τ := τ) (main (F := F))) ⟨m, fun _ => 0, g⟩
      (fun r => ∀ c : Dev nD,
        (∀ w : Fin cfg0.W, (rdat m c).ArrAt w cfg0.N (r.2.mem ((spec0 w).arr.view.loc (c.tc : Thread nD τ))))
        ∧ ∀ b ∈ Pipeline.restRefs sig spec0, r.2.mem ((c.tc : Thread nD τ).loc b) = Launch.V m c b) :=
  Cert.SharedFrame.run_shared_rel cfgs (rdats m) 0 cellOf_inj winFacts₀0 block_pos0 arr_whole0 stage_whole0 defs₀ Variants.none m g
    (main (F := F)) (fun c => body_obligation m c) (fun _ _ => rfl) (Launch.V m) (Launch.hmain m Variants.none)
    (hsplit m) (hin m) (hout m)

/-- The run read at the program's own buffers: the result, and the eight arguments unchanged. -/
theorem run_main (g : Dev nD → PrngReg) :
    θ_run (defs (F := F)) (onTc (τ := τ) (main (F := F))) ⟨m, fun _ => 0, g⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨result_array m c _ ((h c).1 10),
      (input_array m c 0 (by decide) _ ((h c).1 0)).trans (Launch.V_arg0 m c),
      (input_array m c 3 (by decide) _ ((h c).1 3)).trans (Launch.V_arg1 m c),
      (input_array m c 5 (by decide) _ ((h c).1 5)).trans (Launch.V_arg2 m c),
      ((h c).2 main_arg3 (by decide)).trans (Launch.V_arg3 m c),
      (input_array m c 7 (by decide) _ ((h c).1 7)).trans (Launch.V_arg4 m c),
      ((h c).2 main_arg5 (by decide)).trans (Launch.V_arg5 m c),
      (input_array m c 8 (by decide) _ ((h c).1 8)).trans (Launch.V_arg6 m c),
      ((h c).2 main_arg7 (by decide)).trans (Launch.V_arg7 m c)⟩) (run_region m g)

end Cert.KernelIdeal.Body

end
-- ==== Proof.StageRunsK.lean ====
import proofs.«181627_g9191230013956_cont_9to1_m_1205_16_alg».proof.Proof.Gen.Kernel.Launch
import proofs.«181627_g9191230013956_cont_9to1_m_1205_16_alg».proof.Proof.Gen.Kernel.Skeleton
import proofs.«181627_g9191230013956_cont_9to1_m_1205_16_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The kernel body run once per stage

The body has two stages, selected by the grid point.  In the FIRST stage (points below 25) it reads its two blocks of
200 adjacency rows, the whole feature array in the contraction format, its own rows of the feature array, the first
weight matrix and bias row, and stores two blocks of 200 hidden rows into each of the two carried buffers (one per
format), at the rows the point owns; it touches nothing else.  In the SECOND stage it reads the two adjacency blocks,
the whole carried hidden array in the contraction format, its own rows of the other carried buffer, the remaining
weights and biases, and stores two blocks of 200 result rows into the result's buffer.

Each run is stated on arbitrary whole buffers: the inputs at given contents and handed back unchanged, a buffer that is
stored into at ANY prior contents `f` and handed back at `f` overwritten by the two stored blocks, newest first. -/

theorem zero2 : (![0, 0] : Fin 2 → ℕ) = fun _ => 0 := by
  funext a; fin_cases a <;> rfl

/-- A load of all of a whole buffer reads the buffer's contents. -/
theorem readAll {d : Fin 2 → ℕ} {e : EltTy} (arg : Memref sig .tc .vmem (⟨2, d⟩ : Shape) e) (h : arg.IsWhole)
    (x : (⟨2, d⟩ : Shape).Idx → Elt F e) (inb : ∀ a, (![0, 0] : Fin 2 → ℕ) a + (⟨2, d⟩ : Shape).size a ≤ (⟨2, d⟩ : Shape).size a) :
    View.readAt (Elt F) arg.view (Rect.unit (s := (⟨2, d⟩ : Shape)) ![0, 0] (⟨2, d⟩ : Shape).size inb).toLoadRect (h.unread x) = x := by
  rw [View.readAt_eq_ld, h.read_unread]; exact View.ld_unit_zero zero2 inb x

/-- A load of some rows of a whole buffer reads those rows of its contents. -/
theorem readRows {S : Shape} {e : EltTy} (arg : Memref sig .tc .vmem S e) (h : arg.IsWhole) (x : S.Idx → Elt F e) (r : Rect S) :
    View.readAt (Elt F) arg.view r.toLoadRect (h.unread x) = View.ld x r := by
  rw [View.readAt_eq_ld, h.read_unread]

set_option maxHeartbeats 1000000 in
/-- The first stage. -/
theorem runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10000x1 .f32) (harg11 : arg11.IsWhole) (arg12 : Memref sig .tc .vmem S10000x64 .f32) (harg12 : arg12.IsWhole) (arg13 : Memref sig .tc .vmem S10000x64 .bf16) (harg13 : arg13.IsWhole)
    (hc1 : k0_cond1 i = 1#1) (hc2 : ¬ k0_cond2 i = 1#1)
    (x1 x2 : Vec F S200x10000 .f32) (x3 : Vec F S10000x128 .bf16) (x4 : Vec F S10000x128 .f32) (x5 : Vec F S1x64 .f32) (x6 : Vec F S128x64 .f32)
    (f12 : Buf (Elt F) (arg12.view.loc (c : Thread nD τ))) (f13 : Buf (Elt F) (arg13.view.loc (c : Thread nD τ))) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (arg12.view.loc (c : Thread nD τ) ↦[arg12.view.set]{fullShare} f12) ∗ (arg13.view.loc (c : Thread nD τ) ↦[arg13.view.set]{fullShare} f13)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (arg12.view.loc (c : Thread nD τ) ↦[arg12.view.set]{fullShare} arg12.view.writes (Elt F) f12
                [⟨Rect.unit (k0_off2 i 200#32) S200x64.size (k0_off2_inb i hc1 1),
                    k0_pay2 x2 x3 (View.ld x4 (Rect.unit (k0_off1 i 200#32) S200x128.size (k0_off1_inb i hc1 1))) x6 x5⟩,
                  ⟨Rect.unit (k0_off2 i 0#32) S200x64.size (k0_off2_inb i hc1 0),
                    k0_pay6 x1 x3 (View.ld x4 (Rect.unit (k0_off1 i 0#32) S200x128.size (k0_off1_inb i hc1 0))) x6 x5⟩])
            ∗ (arg13.view.loc (c : Thread nD τ) ↦[arg13.view.set]{fullShare} arg13.view.writes (Elt F) f13
                [⟨Rect.unit (k0_off2 i 200#32) S200x64.size (k0_off2_inb i hc1 1),
                    k0_pay3 x2 x3 (View.ld x4 (Rect.unit (k0_off1 i 200#32) S200x128.size (k0_off1_inb i hc1 1))) x6 x5⟩,
                  ⟨Rect.unit (k0_off2 i 0#32) S200x64.size (k0_off2_inb i hc1 0),
                    k0_pay7 x1 x3 (View.ld x4 (Rect.unit (k0_off1 i 0#32) S200x128.size (k0_off1_inb i hc1 0))) x6 x5⟩])) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, H12, H13, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  rw [readAll arg1 harg1, readAll arg2 harg2, readAll arg3 harg3, readAll arg5 harg5, readAll arg6 harg6,
    readRows arg4 harg4 x4 (Rect.unit (k0_off1 i 0#32) S200x128.size (k0_off1_inb i hc1 0)),
    readRows arg4 harg4 x4 (Rect.unit (k0_off1 i 200#32) S200x128.size (k0_off1_inb i hc1 1))]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H12]
  · iexact H12
  · iexact H13

set_option maxHeartbeats 1000000 in
/-- The second stage. -/
theorem runSecond (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S10000x128 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10000x1 .f32) (harg11 : arg11.IsWhole) (arg12 : Memref sig .tc .vmem S10000x64 .f32) (harg12 : arg12.IsWhole) (arg13 : Memref sig .tc .vmem S10000x64 .bf16) (harg13 : arg13.IsWhole)
    (hc1 : ¬ k0_cond1 i = 1#1) (hc2 : k0_cond2 i = 1#1)
    (x1 x2 : Vec F S200x10000 .f32) (x7 : Vec F S1x32 .f32) (x8 : Vec F S64x32 .f32) (x9 : Vec F S32x1 .f32) (x10 : Vec F S1x1 .f32)
    (h0 : Vec F S10000x64 .f32) (h1 : Vec F S10000x64 .bf16)
    (f11 : Buf (Elt F) (arg11.view.loc (c : Thread nD τ))) (E : Set ℕ) (K : PUnit → sProp 𝕄) :
    iprop(owns (c : Thread nD τ) arg1 fullShare x1 ∗ owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare h0 ∗ owns (c : Thread nD τ) arg13 fullShare h1
        ∗ (arg11.view.loc (c : Thread nD τ) ↦[arg11.view.set]{fullShare} f11)
        ∗ (iprop(owns (c : Thread nD τ) arg1 fullShare x1 ∗ owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare h0 ∗ owns (c : Thread nD τ) arg13 fullShare h1
            ∗ (arg11.view.loc (c : Thread nD τ) ↦[arg11.view.set]{fullShare} arg11.view.writes (Elt F) f11
                [⟨Rect.unit (k0_off4 i 200#32) S200x1.size (k0_off4_inb i hc2 1),
                    k0_pay4 x2 h1 (View.ld h0 (Rect.unit (k0_off3 i 200#32) S200x64.size (k0_off3_inb i hc2 1))) x8 x7 x9 x10⟩,
                  ⟨Rect.unit (k0_off4 i 0#32) S200x1.size (k0_off4_inb i hc2 0),
                    k0_pay8 x1 h1 (View.ld h0 (Rect.unit (k0_off3 i 0#32) S200x64.size (k0_off3_inb i hc2 0))) x8 x7 x9 x10⟩])) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f7, %hf7, H7⟩, ⟨%f8, %hf8, H8⟩, ⟨%f9, %hf9, H9⟩, ⟨%f10, %hf10, H10⟩, ⟨%f12, %hf12, H12⟩, ⟨%f13, %hf13, H13⟩, H11, Hk⟩
  obtain rfl := harg1.eq_unread hf1; obtain rfl := harg2.eq_unread hf2; obtain rfl := harg7.eq_unread hf7
  obtain rfl := harg8.eq_unread hf8; obtain rfl := harg9.eq_unread hf9; obtain rfl := harg10.eq_unread hf10
  obtain rfl := harg12.eq_unread hf12; obtain rfl := harg13.eq_unread hf13
  sl_exec (disch := first | exact hc1 | exact hc2)
  sl_step
  rw [readAll arg1 harg1, readAll arg2 harg2, readAll arg7 harg7, readAll arg8 harg8, readAll arg9 harg9, readAll arg10 harg10,
    readAll arg13 harg13,
    readRows arg12 harg12 h0 (Rect.unit (k0_off3 i 0#32) S200x64.size (k0_off3_inb i hc2 0)),
    readRows arg12 harg12 h0 (Rect.unit (k0_off3 i 200#32) S200x64.size (k0_off3_inb i hc2 1))]
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H12]
  · iexists _; isplitr; · ipureintro; exact harg12.read_unread _
    iexact H12
  isplitl [H13]
  · iexists _; isplitr; · ipureintro; exact harg13.read_unread _
    iexact H13
  iexact H11

end Cert.Kernel.Body

end
-- ==== Proof.MainK.lean ====
/-
  The program's entry up to its one pipelined region, and what the region finds in the unscoped buffers.

  The program is four host operations — a change of float format of the second argument and three reshapes of the one-axis
  arguments into one-row matrices — followed by the region and nothing else. `V m c` is what core `c`'s buffers hold after
  the four operations, from the launch memory `m`; `hmain` says the program is those operations then the region
  (the shape the region's run takes as its hypothesis); `V_arg0` … `V_arg7` say that no host operation writes an
  argument array, and `V_v0` … `V_v3` give each operation's result as the operation applied to its argument as launched.
-/
import proofs.«181627_g9191230013956_cont_9to1_m_1205_16_alg».proof.Proof.Gen.Kernel.Launch
import Idealize.ShloMosaic.Lib.Pipeline.Frame
import Idealize.ShloMosaic.Lib.StableHlo.Run

noncomputable section

namespace Cert.Kernel.Launch

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.StableHlo
open Cert.Kernel.Gen

variable {F : FTy → Type} [FloatOps F]

variable (m : (ℓ : Loc nD τ sig) → Buf (Elt F) ℓ)

/-! ## The program up to the region -/

/-- Core `c`'s TensorCore buffers when the region is entered: the launch contents after the four host operations. -/
abbrev V (c : Dev nD) (b : Ref sig .tc) : Buf (Elt F) ((c : Thread nD τ).loc b) := StableHlo.after hostOps0 (fun b => m (c, b)) b

/-- No host operation names a buffer it does not find allocated. -/
theorem hostOps0_fresh : (hostOps0 : List (HloOp τ sig (Elt F))).Forall fun op => op.fresh = ∅ := by
  simp only [List.Forall]; repeat' constructor

/-- The program is the four host operations then the region: from the launch memory the region is entered with the
    unscoped buffers at `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The argument arrays: no host operation writes them -/

theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results
theorem V_arg2 (c : Dev nD) : V m c main_arg2 = m ((c : Thread nD τ).loc main_arg2) := by
  dsimp only [V, hostOps0]; after_results
theorem V_arg3 (c : Dev nD) : V m c main_arg3 = m ((c : Thread nD τ).loc main_arg3) := by
  dsimp only [V, hostOps0]; after_results
theorem V_arg4 (c : Dev nD) : V m c main_arg4 = m ((c : Thread nD τ).loc main_arg4) := by
  dsimp only [V, hostOps0]; after_results
theorem V_arg5 (c : Dev nD) : V m c main_arg5 = m ((c : Thread nD τ).loc main_arg5) := by
  dsimp only [V, hostOps0]; after_results
theorem V_arg6 (c : Dev nD) : V m c main_arg6 = m ((c : Thread nD τ).loc main_arg6) := by
  dsimp only [V, hostOps0]; after_results
theorem V_arg7 (c : Dev nD) : V m c main_arg7 = m ((c : Thread nD τ).loc main_arg7) := by
  dsimp only [V, hostOps0]; after_results

/-! ## The host operations' results -/

/-- The first result is the second argument, as launched, in the narrower float format. -/
theorem V_v0 (c : Dev nD) :
    (V m c main_v0 : S10000x128.Idx → Elt F .bf16)
      = truncf .bf16 (m ((c : Thread nD τ).loc main_arg1) : S10000x128.Idx → Elt F .f32) bitsLt_bf16_f32 := by
  dsimp only [V, hostOps0]; after_results

/-- The second result is the fourth argument, as launched, read as a one-row matrix. -/
theorem V_v1 (c : Dev nD) :
    (V m c main_v1 : S1x64.Idx → Elt F .f32)
      = shapeCast S1x64 (m ((c : Thread nD τ).loc main_arg3) : S64.Idx → Elt F .f32) shapeCasts_S64_S1x64 := by
  dsimp only [V, hostOps0]; after_results; rfl

/-- The third result is the sixth argument, as launched, read as a one-row matrix. -/
theorem V_v2 (c : Dev nD) :
    (V m c main_v2 : S1x32.Idx → Elt F .f32)
      = shapeCast S1x32 (m ((c : Thread nD τ).loc main_arg5) : S32.Idx → Elt F .f32) shapeCasts_S32_S1x32 := by
  dsimp only [V, hostOps0]; after_results; rfl

/-- The fourth result is the eighth argument, as launched, read as a one-by-one matrix. -/
theorem V_v3 (c : Dev nD) :
    (V m c main_v3 : S1x1.Idx → Elt F .f32)
      = shapeCast S1x1 (m ((c : Thread nD τ).loc main_arg7) : S1.Idx → Elt F .f32) shapeCasts_S1_S1x1 := by
  dsimp only [V, hostOps0]; after_results; rfl

end Cert.Kernel.Launch

end
-- ==== Proof.LayersK.lean ====
/-
  The kernel's two graph layers and its head as WHOLE-ARRAY functions of the launch arrays, for any float instance.

  The kernel works on blocks of 200 rows.  For a row block `j` (rows `200 j … 200 j + 199`) the first stage computes
  the hidden rows  relu((A_j · X − 3 · X_j) · W1 + b1)  from the block `A_j` of the adjacency rows, the whole feature
  array and its own rows `X_j`; the second stage computes  relu((A_j · H − 2 · H_j) · W2 + b2) · W3 + b3  from `A_j`,
  the whole hidden array `H` and its own rows `H_j`.  Each is the generated payload of the corresponding store; here
  the blocks are put side by side: entry `(r, q)` of the whole array is entry `(r mod 200, q)` of block `r / 200`.
-/
import proofs.«181627_g9191230013956_cont_9to1_m_1205_16_alg».proof.Proof.Gen.Kernel.Skeleton
import Idealize.ShloMosaic.Lib.ValueIdx

noncomputable section

namespace Cert.LayersK

open Idealize.ShloMosaic Idealize.ShloMosaic.ValueIdx Cert.Kernel Cert.Kernel.Gen

variable {F : FTy → Type} [FloatOps F]

/-- The block of 200 rows a row lies in. -/
def blk (r : Fin 10000) : Fin 50 := ⟨r.val / 200, by omega⟩
/-- A row's position inside its block. -/
def pos (r : Fin 10000) : Fin 200 := ⟨r.val % 200, Nat.mod_lt _ (by omega)⟩
/-- Row `p` of block `j`. -/
def row (j : Fin 50) (p : Fin 200) : Fin 10000 := ⟨200 * j.val + p.val, by omega⟩

theorem row_blk_pos (r : Fin 10000) : row (blk r) (pos r) = r :=
  Fin.ext (by simp only [row, blk, pos]; omega)
theorem blk_row (j : Fin 50) (p : Fin 200) : blk (row j p) = j :=
  Fin.ext (by simp only [row, blk]; omega)
theorem pos_row (j : Fin 50) (p : Fin 200) : pos (row j p) = p :=
  Fin.ext (by simp only [row, pos]; omega)

/-- Rows `200 j … 200 j + 199` of an array of 10000 rows. -/
def rowBlock {c : Nat} {e : EltTy} (Z : Vec F ⟨2, ![10000, c]⟩ e) (j : Fin 50) : Vec F ⟨2, ![200, c]⟩ e :=
  fun y => Z (ix2 (row j (y 0)) (y 1))

/-- The hidden layer, all 10000 rows, in f32: row block `j` is the first stage's f32 store of `A_j`, `X`, `X_j`. -/
def hidden (A : Vec F S10000x10000 .f32) (Xbf : Vec F S10000x128 .bf16) (X : Vec F S10000x128 .f32)
    (W1 : Vec F S128x64 .f32) (b1 : Vec F S1x64 .f32) : Vec F S10000x64 .f32 :=
  fun i => k0_pay6 (rowBlock A (blk (i 0))) Xbf (rowBlock X (blk (i 0))) W1 b1 (ix2 (pos (i 0)) (i 1))

/-- The hidden layer as the second stage contracts it (the bf16 store of the same rows). -/
def hiddenBf (A : Vec F S10000x10000 .f32) (Xbf : Vec F S10000x128 .bf16) (X : Vec F S10000x128 .f32)
    (W1 : Vec F S128x64 .f32) (b1 : Vec F S1x64 .f32) : Vec F S10000x64 .bf16 :=
  fun i => k0_pay7 (rowBlock A (blk (i 0))) Xbf (rowBlock X (blk (i 0))) W1 b1 (ix2 (pos (i 0)) (i 1))

/-- The result column from a hidden layer given in both formats: row block `j` is the second stage's store. -/
def head (A : Vec F S10000x10000 .f32) (Hbf : Vec F S10000x64 .bf16) (H : Vec F S10000x64 .f32)
    (W2 : Vec F S64x32 .f32) (b2 : Vec F S1x32 .f32) (W3 : Vec F S32x1 .f32) (b3 : Vec F S1x1 .f32) : Vec F S10000x1 .f32 :=
  fun i => k0_pay8 (rowBlock A (blk (i 0))) Hbf (rowBlock H (blk (i 0))) W2 b2 W3 b3 (ix2 (pos (i 0)) (i 1))

/-- The kernel's result: the head over its own hidden layer. -/
def result (A : Vec F S10000x10000 .f32) (Xbf : Vec F S10000x128 .bf16) (X : Vec F S10000x128 .f32)
    (W1 : Vec F S128x64 .f32) (b1 : Vec F S1x64 .f32)
    (W2 : Vec F S64x32 .f32) (b2 : Vec F S1x32 .f32) (W3 : Vec F S32x1 .f32) (b3 : Vec F S1x1 .f32) : Vec F S10000x1 .f32 :=
  head A (hiddenBf A Xbf X W1 b1) (hidden A Xbf X W1 b1) W2 b2 W3 b3

end Cert.LayersK

end
-- ==== Proof.ProofDataK.lean ====
/-
  The proof data of the one pipelined region, for any float instance.

  What the kernel carries from grid point to grid point: its two scratch buffers (the hidden layer in two formats,
  filled 400 rows per point by the first 25 points) and the result window's one staging buffer (filled 400 rows per
  point by the last 25 points, written back once, after the last point).  The three are described by how far they
  have been FILLED with rows of the whole-array functions of LayersK.lean: nothing is said of the rows not yet filled.

  * The invariant before point `t`: the two scratch buffers hold SOME contents whose rows below `400 · min t 25` are
    the hidden layer's.
  * What a point may leave in the result's staging buffer, given what it found there: if the found contents had the
    result's rows below `400 · (t − 25)`, the contents left have them below `400 · (t + 1 − 25)` (before point 25
    this says nothing: the buffer is not touched).
  * Every input window's buffer is left as found.
  * Windows 0 and 1 both read the adjacency array: each holds one half of its full share.
-/
import proofs.«181627_g9191230013956_cont_9to1_m_1205_16_alg».proof.Proof.MainK
import proofs.«181627_g9191230013956_cont_9to1_m_1205_16_alg».proof.Proof.LayersK
import Idealize.ShloMosaic.Lib.Pipeline.Frame

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The hidden layer determined by the arrays as the region finds them, in f32, -/
def hid (c : Dev nD) : Vec F S10000x64 .f32 :=
  Cert.LayersK.hidden (Launch.V m c main_arg0) (Launch.V m c main_v0) (Launch.V m c main_arg1) (Launch.V m c main_arg2) (Launch.V m c main_v1)
/-- in the contraction format, -/
def hidBf (c : Dev nD) : Vec F S10000x64 .bf16 :=
  Cert.LayersK.hiddenBf (Launch.V m c main_arg0) (Launch.V m c main_v0) (Launch.V m c main_arg1) (Launch.V m c main_arg2) (Launch.V m c main_v1)
/-- and the result column. -/
def res (c : Dev nD) : Vec F S10000x1 .f32 :=
  Cert.LayersK.head (Launch.V m c main_arg0) (hidBf m c) (hid m c) (Launch.V m c main_arg4) (Launch.V m c main_v2) (Launch.V m c main_arg6) (Launch.V m c main_v3)

theorem res_eq (c : Dev nD) : res m c = Cert.LayersK.result (Launch.V m c main_arg0) (Launch.V m c main_v0) (Launch.V m c main_arg1)
    (Launch.V m c main_arg2) (Launch.V m c main_v1) (Launch.V m c main_arg4) (Launch.V m c main_v2) (Launch.V m c main_arg6) (Launch.V m c main_v3) := rfl

/-- The rows of `Z` below `n` are those of `G`. -/
def RowsDone {k : Nat} {e : EltTy} (n : Nat) (Z G : (⟨2, ![10000, k]⟩ : Shape).Idx → Elt F e) : Prop :=
  ∀ y, (y 0).val < n → Z y = G y

/-- How many hidden rows the points before `t` have filled. -/
def filledHid (t : Nat) : Nat := 400 * min t 25
/-- How many result rows the points before `t` have filled. -/
def filledRes (t : Nat) : Nat := 400 * (t - 25)

/-- The invariant before point `t`. -/
def carried (c : Dev nD) (t : Fin (cfg0.N + 1)) : sProp 𝕄 :=
  iprop(∃ (f0 : Buf (Elt F) ((c : Thread nD τ).loc cc0_scratch0)) (f1 : Buf (Elt F) ((c : Thread nD τ).loc cc0_scratch1)),
    ⌜RowsDone (filledHid t.val) (f0 : S10000x64.Idx → Elt F .f32) (hid m c) ∧ RowsDone (filledHid t.val) (f1 : S10000x64.Idx → Elt F .bf16) (hidBf m c)⌝
    ∗ (((c : Thread nD τ).loc cc0_scratch0) ↦{fullShare} f0) ∗ (((c : Thread nD τ).loc cc0_scratch1) ↦{fullShare} f1))

/-- What point `t` may leave in the result's staging buffer (`X`) given what it found there (`Y`). -/
def grows (c : Dev nD) (t : Fin cfg0.N) (Y X : S10000x1.Idx → Elt F .f32) : Prop :=
  RowsDone (filledRes t.val) Y (res m c) → RowsDone (filledRes (t.val + 1)) X (res m c)

/-- The proof data. -/
def rdat (c : Dev nD) : RDat τ (Elt F) Unit ℕ (UR sig nD τ) ℕ cfg0 c where
  A w := Launch.V m c (Pipeline.arrRef spec0 w)
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y | 8 => fun _ Y X => X = Y | 9 => fun _ Y X => X = Y | 10 => fun t Y X => grows m c t Y X | ⟨_ + 11, h⟩ => absurd h (Nat.not_lt.2 (Nat.le_add_left _ _))
  Φ := carried m c
  q := fun | 0 => fullShare.left | 1 => fullShare.right | 2 => fullShare | 3 => fullShare | 4 => fullShare | 5 => fullShare | 6 => fullShare | 7 => fullShare | 8 => fullShare | 9 => fullShare | 10 => fullShare | ⟨_ + 11, h⟩ => absurd h (Nat.not_lt.2 (Nat.le_add_left _ _))
  owed _ := 0

theorem rdat_A (c : Dev nD) (w : Fin cfg0.W) : (rdat m c).A w = Launch.V m c (Pipeline.arrRef spec0 w) := rfl
theorem rdat_owed (c : Dev nD) (t) : (rdat m c).owed t = 0 := rfl
theorem rdat_Φ (c : Dev nD) (t) : (rdat m c).Φ t = carried m c t := rfl
theorem rdat_after_in (c : Dev nD) (w : Fin cfg0.W) (hw : w ≠ 10) (t : Fin cfg0.N) (Y X) : (rdat m c).after w t Y X ↔ X = Y := by
  fin_cases w <;> first | exact Iff.rfl | exact absurd rfl hw
theorem rdat_after_out (c : Dev nD) (t : Fin cfg0.N) (Y X) : (rdat m c).after 10 t Y X = grows m c t Y X := rfl

/-- The proof data of the program's one region, per pipeline. -/
def rdats : (p : Fin 1) → (c : Dev nD) → RDat τ (Elt F) Unit ℕ (UR sig nD τ) ℕ (cfgs p) c := fun _ c => rdat m c

end Cert.Kernel.Body

end
-- ==== Proof.RowFillK.lean ====
/-
  Filling an array of 10000 rows 400 rows at a time.

  A load of the 200 rows from row `200 j` of an array reads its row block `j`.  If the rows of a buffer below `o` are
  those of `G`, and two blocks of 200 rows are then stored at rows `o` and `o + 200`, each holding `G`'s rows there,
  the rows below `o + 400` are those of `G` (the newest store is read first; a row outside both reads what was there).
  Then the body's branch conditions and row offsets in closed form, decided over the 50 grid points: the first stage runs
  at the points below 25 and owns rows `400 t … 400 t + 399`; the second at the points from 25 on and owns rows
  `400 (t − 25) …`.
-/
import proofs.«181627_g9191230013956_cont_9to1_m_1205_16_alg».proof.Proof.ProofDataK
import proofs.«181627_g9191230013956_cont_9to1_m_1205_16_alg».proof.Proof.Gen.Kernel.Points
import Idealize.ShloMosaic.Lib.WritesUnit
import Idealize.ShloMosaic.Lib.Pipeline.FrameBody

noncomputable section

namespace Cert.Kernel.Body

open Cert.Kernel Cert.Kernel.Gen Cert.LayersK
open Idealize.ShloMosaic Idealize.ShloMosaic.ValueIdx

variable {F : FTy → Type} [FloatOps F]

/-- A load of the 200 rows from row `200 j` reads row block `j`. -/
theorem ld_rowBlock {k : Nat} {e : EltTy} (X : (⟨2, ![10000, k]⟩ : Shape).Idx → Elt F e) (off : Fin 2 → ℕ) (j : Fin 50)
    (inb : ∀ a, off a + (![200, k] : Fin 2 → ℕ) a ≤ (⟨2, ![10000, k]⟩ : Shape).size a) (hoff : off = ![200 * j.val, 0]) :
    View.ld X (Rect.unit (s := (⟨2, ![10000, k]⟩ : Shape)) off ![200, k] inb) = rowBlock (F := F) X j := by
  subst hoff
  funext z
  show X _ = X _
  congr 1
  funext a
  apply Fin.ext
  rw [LoadRect.idx_apply]
  match a with
  | ⟨0, _⟩ => show 200 * j.val + 1 * (z 0).val = 200 * j.val + (z 0).val; omega
  | ⟨1, _⟩ => show 0 + 1 * (z 1).val = (z 1).val; omega

/-- Two stored blocks of 200 rows extend the filled rows by 400. -/
theorem rowsDone_two {sig : RefSig} {κ : Kind} {sp : Space} {k : Nat} {e : EltTy}
    (v : View sig κ sp (⟨2, ![10000, k]⟩ : Shape) e) (f : v.ty.Contents (Elt F)) (G : (⟨2, ![10000, k]⟩ : Shape).Idx → Elt F e)
    (o : ℕ) (off1 off2 size : Fin 2 → ℕ) (hs0 : size (0 : Fin 2) = 200) (hs1 : size (1 : Fin 2) = (![10000, k] : Fin 2 → ℕ) (1 : Fin 2))
    (inb1 : ∀ a : Fin 2, off1 a + size a ≤ (![10000, k] : Fin 2 → ℕ) a) (inb2 : ∀ a : Fin 2, off2 a + size a ≤ (![10000, k] : Fin 2 → ℕ) a)
    (w1 : (Rect.unit (s := (⟨2, ![10000, k]⟩ : Shape)) off1 size inb1).shape.Idx → Elt F e)
    (w2 : (Rect.unit (s := (⟨2, ![10000, k]⟩ : Shape)) off2 size inb2).shape.Idx → Elt F e)
    (h1 : off1 = ![o + 200, 0]) (h2 : off2 = ![o, 0])
    (hf : RowsDone (F := F) o (v.read (Elt F) f) G)
    (hw1 : ∀ x y, (y (0 : Fin 2)).val = o + 200 + (x (0 : Fin 2)).val → (y (1 : Fin 2)).val = (x (1 : Fin 2)).val → w1 x = G y)
    (hw2 : ∀ x y, (y (0 : Fin 2)).val = o + (x (0 : Fin 2)).val → (y (1 : Fin 2)).val = (x (1 : Fin 2)).val → w2 x = G y) :
    RowsDone (F := F) (o + 400) (v.read (Elt F) (v.writes (Elt F) f
      [(⟨Rect.unit (s := (⟨2, ![10000, k]⟩ : Shape)) off1 size inb1, w1⟩ : View.Piece (Elt F) (⟨2, ![10000, k]⟩ : Shape) e),
        ⟨Rect.unit (s := (⟨2, ![10000, k]⟩ : Shape)) off2 size inb2, w2⟩])) G := by
  intro y hy
  rw [View.read_writes_cons_rows v f inb1 w1 _ y h1 hs0 hs1]
  split
  · next h =>
    refine hw1 _ y ?_ ?_
    · rw [Rect.unitLocal_val]; show (y 0).val = o + 200 + ((y 0).val - (o + 200)); omega
    · rw [Rect.unitLocal_val]; show (y 1).val = (y 1).val - 0; omega
  · next h =>
    rw [View.read_writes_cons_rows v f inb2 w2 _ y h2 hs0 hs1]
    split
    · next h' =>
      refine hw2 _ y ?_ ?_
      · rw [Rect.unitLocal_val]; show (y 0).val = o + ((y 0).val - o); omega
      · rw [Rect.unitLocal_val]; show (y 1).val = (y 1).val - 0; omega
    · next h' =>
      rw [View.writes_nil]
      exact hf y (by omega)

/-! ## The body's conditions and offsets over the grid -/

/-- The first stage runs at the points below 25, -/
theorem first_iff : ∀ t : Fin cfg0.N, k0_cond1 (grid0.coords t) = 1#1 ↔ t.val < 25 :=
  (by decide +kernel : ∀ t : Fin grid0.N, k0_cond1 (grid0.coords t) = 1#1 ↔ t.val < 25)
/-- the second at the points from 25 on. -/
theorem second_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- The first stage's rows at point `t`: `400 t` and `400 t + 200`, for its loads of the features and its stores. -/
theorem off1_lo : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
theorem off1_hi : ∀ t : Fin cfg0.N, t.val < 25 → k0_off1 (grid0.coords t) 200#32 = ![400 * t.val + 200, 0] :=
  (by decide +kernel : ∀ t : Fin grid0.N, t.val < 25 → k0_off1 (grid0.coords t) 200#32 = ![400 * t.val + 200, 0])
theorem off2_lo : ∀ t : Fin cfg0.N, t.val < 25 → k0_off2 (grid0.coords t) 0#32 = ![400 * t.val, 0] :=
  (by decide +kernel : ∀ t : Fin grid0.N, t.val < 25 → k0_off2 (grid0.coords t) 0#32 = ![400 * t.val, 0])
theorem off2_hi : ∀ t : Fin cfg0.N, t.val < 25 → k0_off2 (grid0.coords t) 200#32 = ![400 * t.val + 200, 0] :=
  (by decide +kernel : ∀ t : Fin grid0.N, t.val < 25 → k0_off2 (grid0.coords t) 200#32 = ![400 * t.val + 200, 0])
/-- The second stage's rows at point `t`: `400 (t − 25)` and `400 (t − 25) + 200`. -/
theorem off3_lo : ∀ t : Fin cfg0.N, 25 ≤ t.val → k0_off3 (grid0.coords t) 0#32 = ![400 * (t.val - 25), 0] :=
  (by decide +kernel : ∀ t : Fin grid0.N, 25 ≤ t.val → k0_off3 (grid0.coords t) 0#32 = ![400 * (t.val - 25), 0])
theorem off3_hi : ∀ t : Fin cfg0.N, 25 ≤ t.val → k0_off3 (grid0.coords t) 200#32 = ![400 * (t.val - 25) + 200, 0] :=
  (by decide +kernel : ∀ t : Fin grid0.N, 25 ≤ t.val → k0_off3 (grid0.coords t) 200#32 = ![400 * (t.val - 25) + 200, 0])
theorem off4_lo : ∀ t : Fin cfg0.N, 25 ≤ t.val → k0_off4 (grid0.coords t) 0#32 = ![400 * (t.val - 25), 0] :=
  (by decide +kernel : ∀ t : Fin grid0.N, 25 ≤ t.val → k0_off4 (grid0.coords t) 0#32 = ![400 * (t.val - 25), 0])
theorem off4_hi : ∀ t : Fin cfg0.N, 25 ≤ t.val → k0_off4 (grid0.coords t) 200#32 = ![400 * (t.val - 25) + 200, 0] :=
  (by decide +kernel : ∀ t : Fin grid0.N, 25 ≤ t.val → k0_off4 (grid0.coords t) 200#32 = ![400 * (t.val - 25) + 200, 0])

end Cert.Kernel.Body

end
-- ==== Proof.InputWindowsK.lean ====
/-
  What each input window's current staging buffer holds whenever the kernel's body runs.

  Every input window's relation leaves its buffer as found, so at every point the buffer holds what a fetch there
  puts in it, fetched there or not: the array's block at the window's block index.  Windows 0 and 1 read the
  adjacency array 200 rows at a time, at block indices `2 · (t mod 25)` and `2 · (t mod 25) + 1`; windows 2 to 9
  each take their whole array as one block, at every point.
-/
import proofs.«181627_g9191230013956_cont_9to1_m_1205_16_alg».proof.Proof.ProofDataK
import proofs.«181627_g9191230013956_cont_9to1_m_1205_16_alg».proof.Proof.Gen.Kernel.Points
import Idealize.ShloMosaic.Lib.Pipeline.FrameBody

noncomputable section

namespace Cert.Kernel.Body

open Cert.Kernel Cert.Kernel.Gen
open Idealize.ShloMosaic Idealize.ShloMosaic.TcCoe Idealize.ShloMosaic.ValueIdx
open Idealize.SL Idealize.SL.Sem
open Idealize.ShloMosaic.Pipeline (RDat Cfg Window cellOf)

variable {F : FTy → Type} [FloatOps F]

variable (m : (ℓ : Loc nD τ sig) → Buf (Elt F) ℓ)

/-! ## The adjacency windows -/

/-- The adjacency windows' block indices over the grid: window 0 is at row block `2 · (t mod 25)`, window 1 at the
    next one, both at column block 0. -/
theorem adj_index : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

/-- Window 0's buffer holds row block `2 · (t mod 25)` of the adjacency array whenever the body runs at point `t`. -/
theorem finds_adj0 (c : Dev nD) (t : Fin cfg0.N) (Y : (cfg0.win 0).block.Idx → Elt F (cfg0.win 0).elt) (h : (rdat m c).Finds 0 t Y) :
    Y = Cert.LayersK.rowBlock (Launch.V m c main_arg0 : Vec F S10000x10000 .f32) ⟨2 * (t.val % 25), by omega⟩ := by
  obtain ⟨d, rfl⟩ := RDat.finds_in_eq_fetched (rdat m c) 0 rfl (fun _ _ _ => rfl)
    (fun t Y X h => (rdat_after_in m c 0 (by decide) t Y X).mp h) t Y h
  obtain ⟨e0, e1, -, -⟩ := adj_index t
  funext y
  show Launch.V m c main_arg0 (((cfg0.win 0).blk t).view.emb y)
    = Launch.V m c main_arg0 (ix2 (Cert.LayersK.row ⟨2 * (t.val % 25), by omega⟩ (y 0)) (y 1))
  congr 1
  funext a; apply Fin.ext
  match a with
  | ⟨0, _⟩ => show win0_0.index t (0 : Fin 2) * 200 + 1 * (y 0).val = 200 * (2 * (t.val % 25)) + (y 0).val; omega
  | ⟨1, _⟩ => show win0_0.index t (1 : Fin 2) * 10000 + 1 * (y 1).val = (y 1).val; omega

/-- Window 1's buffer holds row block `2 · (t mod 25) + 1` of the adjacency array whenever the body runs at point `t`. -/
theorem finds_adj1 (c : Dev nD) (t : Fin cfg0.N) (Y : (cfg0.win 1).block.Idx → Elt F (cfg0.win 1).elt) (h : (rdat m c).Finds 1 t Y) :
    Y = Cert.LayersK.rowBlock (Launch.V m c main_arg0 : Vec F S10000x10000 .f32) ⟨2 * (t.val % 25) + 1, by omega⟩ := by
  obtain ⟨d, rfl⟩ := RDat.finds_in_eq_fetched (rdat m c) 1 rfl (fun _ _ _ => rfl)
    (fun t Y X h => (rdat_after_in m c 1 (by decide) t Y X).mp h) t Y h
  obtain ⟨-, -, e0, e1⟩ := adj_index t
  funext y
  show Launch.V m c main_arg0 (((cfg0.win 1).blk t).view.emb y)
    = Launch.V m c main_arg0 (ix2 (Cert.LayersK.row ⟨2 * (t.val % 25) + 1, by omega⟩ (y 0)) (y 1))
  congr 1
  funext a; apply Fin.ext
  match a with
  | ⟨0, _⟩ => show win0_1.index t (0 : Fin 2) * 200 + 1 * (y 0).val = 200 * (2 * (t.val % 25) + 1) + (y 0).val; omega
  | ⟨1, _⟩ => show win0_1.index t (1 : Fin 2) * 10000 + 1 * (y 1).val = (y 1).val; omega

/-! ## The windows that take their whole array as one block -/

/-- Window 2's buffer holds the feature array in the contraction format, whole, whenever the body runs. -/
theorem finds_whole2 (c : Dev nD) (t : Fin cfg0.N) (Y : (cfg0.win 2).block.Idx → Elt F (cfg0.win 2).elt) (h : (rdat m c).Finds 2 t Y) :
    Y = (Launch.V m c main_v0 : Vec F S10000x128 .bf16) := by
  obtain ⟨d, rfl⟩ := RDat.finds_in_eq_fetched (rdat m c) 2 rfl (fun _ _ _ => rfl)
    (fun t Y X h => (rdat_after_in m c 2 (by decide) t Y X).mp h) t Y h
  funext y
  show Launch.V m c main_v0 (((cfg0.win 2).blk t).view.emb y) = Launch.V m c main_v0 y
  congr 1
  funext a; apply Fin.ext
  match a with
  | ⟨0, _⟩ => show 0 * 10000 + 1 * (y 0).val = (y 0).val; omega
  | ⟨1, _⟩ => show 0 * 128 + 1 * (y 1).val = (y 1).val; omega

/-- Window 3's buffer holds the feature array, whole, whenever the body runs. -/
theorem finds_whole3 (c : Dev nD) (t : Fin cfg0.N) (Y : (cfg0.win 3).block.Idx → Elt F (cfg0.win 3).elt) (h : (rdat m c).Finds 3 t Y) :
    Y = (Launch.V m c main_arg1 : Vec F S10000x128 .f32) := by
  obtain ⟨d, rfl⟩ := RDat.finds_in_eq_fetched (rdat m c) 3 rfl (fun _ _ _ => rfl)
    (fun t Y X h => (rdat_after_in m c 3 (by decide) t Y X).mp h) t Y h
  funext y
  show Launch.V m c main_arg1 (((cfg0.win 3).blk t).view.emb y) = Launch.V m c main_arg1 y
  congr 1
  funext a; apply Fin.ext
  match a with
  | ⟨0, _⟩ => show 0 * 10000 + 1 * (y 0).val = (y 0).val; omega
  | ⟨1, _⟩ => show 0 * 128 + 1 * (y 1).val = (y 1).val; omega

/-- Window 4's buffer holds the first bias row, whole, whenever the body runs. -/
theorem finds_whole4 (c : Dev nD) (t : Fin cfg0.N) (Y : (cfg0.win 4).block.Idx → Elt F (cfg0.win 4).elt) (h : (rdat m c).Finds 4 t Y) :
    Y = (Launch.V m c main_v1 : Vec F S1x64 .f32) := by
  obtain ⟨d, rfl⟩ := RDat.finds_in_eq_fetched (rdat m c) 4 rfl (fun _ _ _ => rfl)
    (fun t Y X h => (rdat_after_in m c 4 (by decide) t Y X).mp h) t Y h
  funext y
  show Launch.V m c main_v1 (((cfg0.win 4).blk t).view.emb y) = Launch.V m c main_v1 y
  congr 1
  funext a; apply Fin.ext
  match a with
  | ⟨0, _⟩ => show 0 * 1 + 1 * (y 0).val = (y 0).val; omega
  | ⟨1, _⟩ => show 0 * 64 + 1 * (y 1).val = (y 1).val; omega

/-- Window 5's buffer holds the first weight matrix, whole, whenever the body runs. -/
theorem finds_whole5 (c : Dev nD) (t : Fin cfg0.N) (Y : (cfg0.win 5).block.Idx → Elt F (cfg0.win 5).elt) (h : (rdat m c).Finds 5 t Y) :
    Y = (Launch.V m c main_arg2 : Vec F S128x64 .f32) := by
  obtain ⟨d, rfl⟩ := RDat.finds_in_eq_fetched (rdat m c) 5 rfl (fun _ _ _ => rfl)
    (fun t Y X h => (rdat_after_in m c 5 (by decide) t Y X).mp h) t Y h
  funext y
  show Launch.V m c main_arg2 (((cfg0.win 5).blk t).view.emb y) = Launch.V m c main_arg2 y
  congr 1
  funext a; apply Fin.ext
  match a with
  | ⟨0, _⟩ => show 0 * 128 + 1 * (y 0).val = (y 0).val; omega
  | ⟨1, _⟩ => show 0 * 64 + 1 * (y 1).val = (y 1).val; omega

/-- Window 6's buffer holds the second bias row, whole, whenever the body runs. -/
theorem finds_whole6 (c : Dev nD) (t : Fin cfg0.N) (Y : (cfg0.win 6).block.Idx → Elt F (cfg0.win 6).elt) (h : (rdat m c).Finds 6 t Y) :
    Y = (Launch.V m c main_v2 : Vec F S1x32 .f32) := by
  obtain ⟨d, rfl⟩ := RDat.finds_in_eq_fetched (rdat m c) 6 rfl (fun _ _ _ => rfl)
    (fun t Y X h => (rdat_after_in m c 6 (by decide) t Y X).mp h) t Y h
  funext y
  show Launch.V m c main_v2 (((cfg0.win 6).blk t).view.emb y) = Launch.V m c main_v2 y
  congr 1
  funext a; apply Fin.ext
  match a with
  | ⟨0, _⟩ => show 0 * 1 + 1 * (y 0).val = (y 0).val; omega
  | ⟨1, _⟩ => show 0 * 32 + 1 * (y 1).val = (y 1).val; omega

/-- Window 7's buffer holds the second weight matrix, whole, whenever the body runs. -/
theorem finds_whole7 (c : Dev nD) (t : Fin cfg0.N) (Y : (cfg0.win 7).block.Idx → Elt F (cfg0.win 7).elt) (h : (rdat m c).Finds 7 t Y) :
    Y = (Launch.V m c main_arg4 : Vec F S64x32 .f32) := by
  obtain ⟨d, rfl⟩ := RDat.finds_in_eq_fetched (rdat m c) 7 rfl (fun _ _ _ => rfl)
    (fun t Y X h => (rdat_after_in m c 7 (by decide) t Y X).mp h) t Y h
  funext y
  show Launch.V m c main_arg4 (((cfg0.win 7).blk t).view.emb y) = Launch.V m c main_arg4 y
  congr 1
  funext a; apply Fin.ext
  match a with
  | ⟨0, _⟩ => show 0 * 64 + 1 * (y 0).val = (y 0).val; omega
  | ⟨1, _⟩ => show 0 * 32 + 1 * (y 1).val = (y 1).val; omega

/-- Window 8's buffer holds the third weight matrix, whole, whenever the body runs. -/
theorem finds_whole8 (c : Dev nD) (t : Fin cfg0.N) (Y : (cfg0.win 8).block.Idx → Elt F (cfg0.win 8).elt) (h : (rdat m c).Finds 8 t Y) :
    Y = (Launch.V m c main_arg6 : Vec F S32x1 .f32) := by
  obtain ⟨d, rfl⟩ := RDat.finds_in_eq_fetched (rdat m c) 8 rfl (fun _ _ _ => rfl)
    (fun t Y X h => (rdat_after_in m c 8 (by decide) t Y X).mp h) t Y h
  funext y
  show Launch.V m c main_arg6 (((cfg0.win 8).blk t).view.emb y) = Launch.V m c main_arg6 y
  congr 1
  funext a; apply Fin.ext
  match a with
  | ⟨0, _⟩ => show 0 * 32 + 1 * (y 0).val = (y 0).val; omega
  | ⟨1, _⟩ => show 0 * 1 + 1 * (y 1).val = (y 1).val; omega

/-- Window 9's buffer holds the third bias, whole, whenever the body runs. -/
theorem finds_whole9 (c : Dev nD) (t : Fin cfg0.N) (Y : (cfg0.win 9).block.Idx → Elt F (cfg0.win 9).elt) (h : (rdat m c).Finds 9 t Y) :
    Y = (Launch.V m c main_v3 : Vec F S1x1 .f32) := by
  obtain ⟨d, rfl⟩ := RDat.finds_in_eq_fetched (rdat m c) 9 rfl (fun _ _ _ => rfl)
    (fun t Y X h => (rdat_after_in m c 9 (by decide) t Y X).mp h) t Y h
  funext y
  show Launch.V m c main_v3 (((cfg0.win 9).blk t).view.emb y) = Launch.V m c main_v3 y
  congr 1
  funext a; apply Fin.ext
  match a with
  | ⟨0, _⟩ => show 0 * 1 + 1 * (y 0).val = (y 0).val; omega
  | ⟨1, _⟩ => show 0 * 1 + 1 * (y 1).val = (y 1).val; omega

end Cert.Kernel.Body

end
-- ==== Proof.ResultWindowK.lean ====
/-
  What the pipelined region leaves in its windows' arrays, read off the proof data.

  The result window is an output over the whole result array: it is never fetched, its one block is the whole array
  at every point, and it is written back once, after the last point.  So what the body finds in its staging buffer at
  a point is what the body left there at the point before, and by induction on the point the rows below
  `400 · (t − 25)` are the result's rows; after the last point all 10000 rows are, and the one write-back replaces
  every element of the array.  An input window's array is never written: it holds its entry contents.
-/
import proofs.«181627_g9191230013956_cont_9to1_m_1205_16_alg».proof.Proof.ProofDataK
import proofs.«181627_g9191230013956_cont_9to1_m_1205_16_alg».proof.Proof.Gen.Kernel.Points
import Idealize.ShloMosaic.Lib.Pipeline.Value

noncomputable section

namespace Cert.Kernel.Body

open Cert.Kernel Cert.Kernel.Gen
open Idealize.ShloMosaic Idealize.ShloMosaic.TcCoe
open Idealize.SL Idealize.SL.Sem
open Idealize.ShloMosaic.Pipeline (RDat Cfg Window)

variable {F : FTy → Type} [FloatOps F]

variable (m : (ℓ : Loc nD τ sig) → Buf (Elt F) ℓ)

/-- The result window is an output: no point fetches it. -/
theorem fetch_result (t : Fin cfg0.N) : (cfg0.win 10).fetch t = false :=
  Window.fetch_out (cfg0.win 10) rfl t

/-- No point before the last writes the result window back. -/
theorem flush_result_of_lt (t : Fin cfg0.N) (h : t.val < 49) : (cfg0.win 10).flush t = false := by
  cases hf : (cfg0.win 10).flush t with
  | false => rfl
  | true => have := (flush0_10 t).mp hf; omega

/-- What the body finds in the result's staging buffer at point `t` has the result's rows below `400 · (t − 25)`. -/
theorem finds_result_aux (c : Dev nD) : ∀ (n : ℕ) (t : Fin cfg0.N), t.val = n → ∀ (Y : S10000x1.Idx → Elt F .f32),
    (rdat m c).Finds 10 t Y → RowsDone (filledRes t.val) Y (res m c)
  | 0, t, ht, Y, _ => fun y hy => absurd hy (by rw [ht]; exact Nat.not_lt_zero _)
  | n + 1, t, ht, Y, h => by
    have hlt : t.val < 50 := Gen.N_0 ▸ t.isLt
    rcases ((rdat m c).finds_of_pos (fetch_result t) (by omega) Y).mp h with hfl | ⟨Y', hY', hstep⟩
    · rw [flush_result_of_lt _ (by show t.val - 1 < 49; omega)] at hfl
      exact absurd hfl Bool.false_ne_true
    · have ih := finds_result_aux c n ⟨t.val - 1, Nat.lt_of_le_of_lt (Nat.sub_le _ _) t.isLt⟩ (by show t.val - 1 = n; omega) Y' hY'
      have hs := (rdat_after_out m c _ Y' Y ▸ hstep) ih
      rwa [show t.val - 1 + 1 = t.val by omega] at hs

theorem finds_result (c : Dev nD) (t : Fin cfg0.N) (Y : S10000x1.Idx → Elt F .f32) (h : (rdat m c).Finds 10 t Y) :
    RowsDone (filledRes t.val) Y (res m c) :=
  finds_result_aux m c t.val t rfl Y h

/-- An input window's array holds its entry contents after the run. -/
theorem input_array (c : Dev nD) (w : Fin cfg0.W) (hw : w ≠ 10) (G) (h : (rdat m c).ArrAt w cfg0.N G) :
    G = Launch.V m c (Pipeline.arrRef spec0 w) := by
  have hin : (cfg0.win w).isOut = false := by
    fin_cases w <;> first | rfl | exact absurd rfl hw
  rw [(rdat m c).ArrAt_in w hin] at h
  exact h

/-- The last point. -/
abbrev lastPoint : Fin cfg0.N := ⟨49, by rw [show cfg0.N = 50 from Gen.N_0]; omega⟩

/-- What the body leaves in the result's staging buffer at the last point is the result. -/
theorem leaves_last (c : Dev nD) (X : S10000x1.Idx → Elt F .f32) (h : (rdat m c).Leaves 10 lastPoint X) : X = res m c := by
  obtain ⟨Y, hY, hstep⟩ := h
  have hs : RowsDone (filledRes 50) X (res m c) := (rdat_after_out m c _ Y X ▸ hstep) (finds_result m c lastPoint Y hY)
  funext y
  exact hs y (y 0).isLt

/-- The block of the result window at the last point is the whole result array: an element of the block sits in the
    array at its own coordinates. -/
theorem result_block_emb (y : ((cfg0.win 10).xblock (cfg0.grid.coords lastPoint)).Idx) :
    ((cfg0.win 10).blk lastPoint).view.emb y = (cfg0.win 10).xinj (cfg0.grid.coords lastPoint) y := by
  have hidx : ∀ a, (cfg0.win 10).index lastPoint a = 0 := fun a => by
    fin_cases a <;> rfl
  exact funext fun a => Fin.ext ((cfg0.win 10).rect_emb_val_of_index_zero lastPoint a (hidx a) y)

/-- After the run the result window's array holds the result. -/
theorem result_array (c : Dev nD) (G : Buf (Elt F) ((cfg0.win 10).arr.view.loc (c.tc : Thread nD τ)))
    (h : (rdat m c).ArrAt 10 cfg0.N G) : (G : S10000x1.Idx → Elt F .f32) = res m c := by
  have h50 : (rdat m c).ArrAt 10 cfg0.N = (rdat m c).ArrAt 10 (lastPoint.val + 1) :=
    congrArg _ (show cfg0.N = 50 from Gen.N_0)
  rw [h50, (rdat m c).ArrAt_succ, if_pos ((flush0_10 _).mpr rfl)] at h
  obtain ⟨G₀, X, -, hX, rfl⟩ := h
  obtain rfl := leaves_last m c X hX
  funext i
  obtain ⟨y, rfl⟩ : ∃ y : ((cfg0.win 10).xblock (cfg0.grid.coords lastPoint)).Idx,
      ((cfg0.win 10).blk lastPoint).view.emb y = i := ⟨i, result_block_emb i⟩
  rw [View.write_emb_of_mem _ _ (Finset.mem_univ y)]
  exact (cast_eq _ _).trans (congrArg (res m c) (result_block_emb y).symm)

end Cert.Kernel.Body

end
-- ==== Proof.ObligationK.lean ====
/-
  The body obligation: at every grid point, from the invariant and the windows' staging buffers at what they may hold,
  the kernel body runs to the invariant at the next point and leaves each buffer in its relation to what it found.

  A point below 25 runs the first stage: the scratch buffers' filled rows grow by the point's 400 rows (two stored blocks
  of 200, each the hidden layer's rows there because the point's adjacency blocks and feature rows are those rows'), and
  the result's buffer is not touched.  A point from 25 on finds the scratch buffers full — they ARE the hidden layer —
  runs the second stage, and the result buffer's filled rows grow by the point's 400 rows.
-/
import proofs.«181627_g9191230013956_cont_9to1_m_1205_16_alg».proof.Proof.StageRunsK
import proofs.«181627_g9191230013956_cont_9to1_m_1205_16_alg».proof.Proof.RowFillK
import proofs.«181627_g9191230013956_cont_9to1_m_1205_16_alg».proof.Proof.InputWindowsK
import proofs.«181627_g9191230013956_cont_9to1_m_1205_16_alg».proof.Proof.ResultWindowK

set_option maxRecDepth 16384

noncomputable section

namespace Cert.Kernel.Body

open Cert.Kernel Cert.Kernel.Gen Cert.LayersK
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## A stored block's rows are the whole-array function's rows -/

/-- Row `p` of block `j` of the first stage's f32 store is row `200 j + p` of the hidden layer. -/
theorem hidden_at (A : Vec F S10000x10000 .f32) (Xbf : Vec F S10000x128 .bf16) (X : Vec F S10000x128 .f32)
    (W1 : Vec F S128x64 .f32) (b1 : Vec F S1x64 .f32) (j : Fin 50) (x : S200x64.Idx) (y : S10000x64.Idx)
    (hy0 : (y 0).val = 200 * j.val + (x 0).val) (hy1 : (y 1).val = (x 1).val) :
    k0_pay6 (rowBlock A j) Xbf (rowBlock X j) W1 b1 x = Cert.LayersK.hidden A Xbf X W1 b1 y := by
  unfold Cert.LayersK.hidden
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay6 (rowBlock A j) Xbf (rowBlock X j) W1 b1) hx

/-- The same for the store in the contraction format. -/
theorem hiddenBf_at (A : Vec F S10000x10000 .f32) (Xbf : Vec F S10000x128 .bf16) (X : Vec F S10000x128 .f32)
    (W1 : Vec F S128x64 .f32) (b1 : Vec F S1x64 .f32) (j : Fin 50) (x : S200x64.Idx) (y : S10000x64.Idx)
    (hy0 : (y 0).val = 200 * j.val + (x 0).val) (hy1 : (y 1).val = (x 1).val) :
    k0_pay7 (rowBlock A j) Xbf (rowBlock X j) W1 b1 x = Cert.LayersK.hiddenBf A Xbf X W1 b1 y := by
  unfold Cert.LayersK.hiddenBf
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay7 (rowBlock A j) Xbf (rowBlock X j) W1 b1) hx

/-- Row `p` of block `j` of the second stage's store is row `200 j + p` of the result column. -/
theorem head_at (A : Vec F S10000x10000 .f32) (Hbf : Vec F S10000x64 .bf16) (H : Vec F S10000x64 .f32)
    (W2 : Vec F S64x32 .f32) (b2 : Vec F S1x32 .f32) (W3 : Vec F S32x1 .f32) (b3 : Vec F S1x1 .f32) (j : Fin 50)
    (x : S200x1.Idx) (y : S10000x1.Idx)
    (hy0 : (y 0).val = 200 * j.val + (x 0).val) (hy1 : (y 1).val = (x 1).val) :
    k0_pay8 (rowBlock A j) Hbf (rowBlock H j) W2 b2 W3 b3 x = Cert.LayersK.head A Hbf H W2 b2 W3 b3 y := by
  unfold Cert.LayersK.head
  have hx0 : (x 0).val < 200 := idx2_lt0 x
  have hb : blk (y 0) = j := Fin.ext (by simp only [blk]; omega)
  have hx : x = ix2 (pos (y 0)) (y 1) := by
    funext a; apply Fin.ext
    match a with
    | ⟨0, _⟩ => show (x 0).val = (y 0).val % 200; omega
    | ⟨1, _⟩ => show (x 1).val = (y 1).val; omega
  rw [hb]; exact congrArg (k0_pay8 (rowBlock A j) Hbf (rowBlock H j) W2 b2 W3 b3) hx

/-- The two half-blocks of a point run the same arithmetic. -/
theorem pay2_eq : @k0_pay2 F _ = k0_pay6 := rfl
theorem pay3_eq : @k0_pay3 F _ = k0_pay7 := rfl
theorem pay4_eq : @k0_pay4 F _ = k0_pay8 := rfl

/-- A whole scoped buffer through its own memref. -/
theorem whole_pt (c : Dev nD) (b : Ref sig .tc) (q : PosShare TreeShare) (f : Buf (Elt F) ((c : Thread nD τ).loc b)) :
    (((Memref.whole b : Memref sig .tc b.space b.ty.shape b.ty.elt).view.loc (c : Thread nD τ)) ↦[(Memref.whole b).view.set]{q} f : sProp 𝕄)
      = (((c : Thread nD τ).loc b) ↦{q} f) := by
  simp only [Memref.view_whole, View.set_whole]

variable (m : (ℓ : Loc nD τ sig) → Buf (Elt F) ℓ)

/-- The two scratch buffers through their own memrefs, and read through them. -/
theorem scratch0_pt (c : Dev nD) (f : Buf (Elt F) ((c : Thread nD τ).loc cc0_scratch0)) :
    (((Memref.whole cc0_scratch0 : Memref sig .tc .vmem S10000x64 .f32).view.loc (c : Thread nD τ))
        ↦[(Memref.whole cc0_scratch0 : Memref sig .tc .vmem S10000x64 .f32).view.set]{fullShare} f : sProp 𝕄)
      = (((c : Thread nD τ).loc cc0_scratch0) ↦{fullShare} f) := whole_pt c cc0_scratch0 fullShare f
theorem scratch1_pt (c : Dev nD) (f : Buf (Elt F) ((c : Thread nD τ).loc cc0_scratch1)) :
    (((Memref.whole cc0_scratch1 : Memref sig .tc .vmem S10000x64 .bf16).view.loc (c : Thread nD τ))
        ↦[(Memref.whole cc0_scratch1 : Memref sig .tc .vmem S10000x64 .bf16).view.set]{fullShare} f : sProp 𝕄)
      = (((c : Thread nD τ).loc cc0_scratch1) ↦{fullShare} f) := whole_pt c cc0_scratch1 fullShare f
theorem read_scratch0 (c : Dev nD) (f : Buf (Elt F) ((c : Thread nD τ).loc cc0_scratch0)) :
    (Memref.whole cc0_scratch0 : Memref sig .tc .vmem S10000x64 .f32).view.read (Elt F) f = f := by
  simp only [Memref.view_whole, View.read_whole]
theorem read_scratch1 (c : Dev nD) (f : Buf (Elt F) ((c : Thread nD τ).loc cc0_scratch1)) :
    (Memref.whole cc0_scratch1 : Memref sig .tc .vmem S10000x64 .bf16).view.read (Elt F) f = f := by
  simp only [Memref.view_whole, View.read_whole]

/-- Holding a scratch buffer whole is holding it through its own memref, and back. -/
theorem scratch0_in (c : Dev nD) (f : Buf (Elt F) ((c : Thread nD τ).loc cc0_scratch0)) :
    ((((c : Thread nD τ).loc cc0_scratch0) ↦{fullShare} f) : sProp 𝕄)
      ⊢ (((Memref.whole cc0_scratch0 : Memref sig .tc .vmem S10000x64 .f32).view.loc (c : Thread nD τ))
          ↦[(Memref.whole cc0_scratch0 : Memref sig .tc .vmem S10000x64 .f32).view.set]{fullShare} f) := by
  rw [scratch0_pt c f]
theorem scratch0_out (c : Dev nD) (f : Buf (Elt F) ((c : Thread nD τ).loc cc0_scratch0)) :
    ((((Memref.whole cc0_scratch0 : Memref sig .tc .vmem S10000x64 .f32).view.loc (c : Thread nD τ))
          ↦[(Memref.whole cc0_scratch0 : Memref sig .tc .vmem S10000x64 .f32).view.set]{fullShare} f) : sProp 𝕄)
      ⊢ (((c : Thread nD τ).loc cc0_scratch0) ↦{fullShare} f) := by
  rw [scratch0_pt c f]
theorem scratch1_in (c : Dev nD) (f : Buf (Elt F) ((c : Thread nD τ).loc cc0_scratch1)) :
    ((((c : Thread nD τ).loc cc0_scratch1) ↦{fullShare} f) : sProp 𝕄)
      ⊢ (((Memref.whole cc0_scratch1 : Memref sig .tc .vmem S10000x64 .bf16).view.loc (c : Thread nD τ))
          ↦[(Memref.whole cc0_scratch1 : Memref sig .tc .vmem S10000x64 .bf16).view.set]{fullShare} f) := by
  rw [scratch1_pt c f]
theorem scratch1_out (c : Dev nD) (f : Buf (Elt F) ((c : Thread nD τ).loc cc0_scratch1)) :
    ((((Memref.whole cc0_scratch1 : Memref sig .tc .vmem S10000x64 .bf16).view.loc (c : Thread nD τ))
          ↦[(Memref.whole cc0_scratch1 : Memref sig .tc .vmem S10000x64 .bf16).view.set]{fullShare} f) : sProp 𝕄)
      ⊢ (((c : Thread nD τ).loc cc0_scratch1) ↦{fullShare} f) := by
  rw [scratch1_pt c f]

set_option maxHeartbeats 1000000 in
/-- A point of the first stage. -/
theorem stepFirst (c : Dev nD) (t : Fin cfg0.N) (ht : t.val < 25)
    (Y : (w : Fin cfg0.W) → (cfg0.win w).block.Idx → Elt F (cfg0.win w).elt)
    (h0 : Y 0 = rowBlock (Launch.V m c main_arg0 : Vec F S10000x10000 .f32) ⟨2 * (t.val % 25), by omega⟩)
    (h1 : Y 1 = rowBlock (Launch.V m c main_arg0 : Vec F S10000x10000 .f32) ⟨2 * (t.val % 25) + 1, by omega⟩)
    (h2 : Y 2 = (Launch.V m c main_v0 : Vec F S10000x128 .bf16)) (h3 : Y 3 = (Launch.V m c main_arg1 : Vec F S10000x128 .f32))
    (h4 : Y 4 = (Launch.V m c main_v1 : Vec F S1x64 .f32)) (h5 : Y 5 = (Launch.V m c main_arg2 : Vec F S128x64 .f32)) :
    iprop((rdat m c).Φ t.castSucc ∗ (rdat m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7)
        ∗ owns (c : Thread nD τ) ((cfg0.win 8).stage (cfg0.slots t 8)) fullShare (Y 8)
        ∗ owns (c : Thread nD τ) ((cfg0.win 9).stage (cfg0.slots t 9)) fullShare (Y 9)
        ∗ owns (c : Thread nD τ) ((cfg0.win 10).stage (cfg0.slots t 10)) fullShare (Y 10))
      ⊢ wp frame (wpE (defs₀ (F := F)) Variants.none c none) Set.univ (bodyAt0 t) fun _ =>
          iprop((rdat m c).Φ t.succ ∗ (rdat m c).owesAt () t.succ
          ∗ (∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)
          ∗ (∃ X, ⌜(rdat m c).after 5 t (Y 5) X⌝ ∗ owns (c : Thread nD τ) ((cfg0.win 5).stage (cfg0.slots t 5)) fullShare X)
          ∗ (∃ X, ⌜(rdat m c).after 6 t (Y 6) X⌝ ∗ owns (c : Thread nD τ) ((cfg0.win 6).stage (cfg0.slots t 6)) fullShare X)
          ∗ (∃ X, ⌜(rdat m c).after 7 t (Y 7) X⌝ ∗ owns (c : Thread nD τ) ((cfg0.win 7).stage (cfg0.slots t 7)) fullShare X)
          ∗ (∃ X, ⌜(rdat m c).after 8 t (Y 8) X⌝ ∗ owns (c : Thread nD τ) ((cfg0.win 8).stage (cfg0.slots t 8)) fullShare X)
          ∗ (∃ X, ⌜(rdat m c).after 9 t (Y 9) X⌝ ∗ owns (c : Thread nD τ) ((cfg0.win 9).stage (cfg0.slots t 9)) fullShare X)
          ∗ (∃ X, ⌜(rdat m c).after 10 t (Y 10) X⌝ ∗ owns (c : Thread nD τ) ((cfg0.win 10).stage (cfg0.slots t 10)) fullShare X)) := by
  have hc1 : k0_cond1 (grid0.coords t) = 1#1 := (first_iff t).mpr ht
  have hc2 : ¬ k0_cond2 (grid0.coords t) = 1#1 := fun h => by have := (second_iff t).mp h; omega
  rw [rdat_Φ, rdat_Φ]; unfold carried
  iintro ⟨⟨%f0, %f1, %hdone, Hs0, Hs1⟩, Ho, H0, H1, H2, H3, H4, H5, H6, H7, H8, H9, H10⟩
  ihave Hs0 := (scratch0_in c f0) $$ Hs0
  ihave Hs1 := (scratch1_in c f1) $$ Hs1
  iapply (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) hc1 hc2 (Y 0) (Y 1) (Y 2) (Y 3) (Y 4) (Y 5) f0 f1 Set.univ _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  iintro ⟨H0, H1, H2, H3, H4, H5, Hs0, Hs1⟩
  have e25 : t.val % 25 = t.val := Nat.mod_eq_of_lt ht
  have jlo_lt : 2 * t.val < 50 := by omega
  have jhi_lt : 2 * t.val + 1 < 50 := by omega
  let jlo : Fin 50 := ⟨2 * t.val, jlo_lt⟩
  let jhi : Fin 50 := ⟨2 * t.val + 1, jhi_lt⟩
  have h0 : Y 0 = rowBlock (Launch.V m c main_arg0 : Vec F S10000x10000 .f32) jlo := by
    rw [h0]; congr 1; exact Fin.ext (by show 2 * (t.val % 25) = 2 * t.val; rw [e25])
  have h1 : Y 1 = rowBlock (Launch.V m c main_arg0 : Vec F S10000x10000 .f32) jhi := by
    rw [h1]; congr 1; exact Fin.ext (by show 2 * (t.val % 25) + 1 = 2 * t.val + 1; rw [e25])
  have elo : k0_off1 (grid0.coords t) 0#32 = ![200 * jlo.val, 0] := by
    rw [off1_lo t ht]; show ![400 * t.val, 0] = ![200 * (2 * t.val), 0]; rw [show 400 * t.val = 200 * (2 * t.val) by omega]
  have ehi : k0_off1 (grid0.coords t) 200#32 = ![200 * jhi.val, 0] := by
    rw [off1_hi t ht]; show ![400 * t.val + 200, 0] = ![200 * (2 * t.val + 1), 0]; rw [show 400 * t.val + 200 = 200 * (2 * t.val + 1) by omega]
  have e : filledHid (t.succ : Fin (cfg0.N + 1)).val = 400 * t.val + 400 := by
    simp only [filledHid, Fin.val_succ]; omega
  have hd : RowsDone (F := F) (400 * t.val) (f0 : S10000x64.Idx → Elt F .f32) (hid m c)
      ∧ RowsDone (F := F) (400 * t.val) (f1 : S10000x64.Idx → Elt F .bf16) (hidBf m c) := by
    have := hdone; simp only [filledHid, Fin.coe_castSucc] at this; rwa [Nat.min_eq_left (by omega)] at this
  -- the invariant before the next point: 400 more rows of each scratch buffer are the hidden layer's
  isplitl [Hs0 Hs1]
  · iexists _, _
    isplitr [Hs0 Hs1]
    swap
    · isplitl [Hs0]
      · iapply (scratch0_out c _); iexact Hs0
      · iapply (scratch1_out c _); iexact Hs1
    ipureintro
    refine ⟨?_, ?_⟩
    · rw [e]
      have hf : RowsDone (F := F) (400 * t.val) ((Memref.whole cc0_scratch0 : Memref sig .tc .vmem S10000x64 .f32).view.read (Elt F) f0) (hid m c) := by
        rw [read_scratch0 c]; exact hd.1
      have := rowsDone_two (F := F) (Memref.whole cc0_scratch0 : Memref sig .tc .vmem S10000x64 .f32).view f0 (hid m c) (400 * t.val) _ _ S200x64.size rfl rfl
        (k0_off2_inb (grid0.coords t) hc1 1) (k0_off2_inb (grid0.coords t) hc1 0)
        (k0_pay2 (Y 1) (Y 2) (View.ld (Y 3) (Rect.unit (k0_off1 (grid0.coords t) 200#32) S200x128.size (k0_off1_inb (grid0.coords t) hc1 1))) (Y 5) (Y 4))
        (k0_pay6 (Y 0) (Y 2) (View.ld (Y 3) (Rect.unit (k0_off1 (grid0.coords t) 0#32) S200x128.size (k0_off1_inb (grid0.coords t) hc1 0))) (Y 5) (Y 4))
        (off2_hi t ht) (off2_lo t ht) hf
        (fun x y hy0 hy1 => by
          rw [pay2_eq, h1, h2, h3, h4, h5, ld_rowBlock (F := F) (Launch.V m c main_arg1 : Vec F S10000x128 .f32) _ jhi _ ehi]
          exact hidden_at _ _ _ _ _ jhi x y (by show (y 0).val = 200 * (2 * t.val + 1) + (x 0).val; omega) hy1)
        (fun x y hy0 hy1 => by
          rw [h0, h2, h3, h4, h5, ld_rowBlock (F := F) (Launch.V m c main_arg1 : Vec F S10000x128 .f32) _ jlo _ elo]
          exact hidden_at _ _ _ _ _ jlo x y (by show (y 0).val = 200 * (2 * t.val) + (x 0).val; omega) hy1)
      rw [read_scratch0 c] at this; exact this
    · rw [e]
      have hf : RowsDone (F := F) (400 * t.val) ((Memref.whole cc0_scratch1 : Memref sig .tc .vmem S10000x64 .bf16).view.read (Elt F) f1) (hidBf m c) := by
        rw [read_scratch1 c]; exact hd.2
      have := rowsDone_two (F := F) (Memref.whole cc0_scratch1 : Memref sig .tc .vmem S10000x64 .bf16).view f1 (hidBf m c) (400 * t.val) _ _ S200x64.size rfl rfl
        (k0_off2_inb (grid0.coords t) hc1 1) (k0_off2_inb (grid0.coords t) hc1 0)
        (k0_pay3 (Y 1) (Y 2) (View.ld (Y 3) (Rect.unit (k0_off1 (grid0.coords t) 200#32) S200x128.size (k0_off1_inb (grid0.coords t) hc1 1))) (Y 5) (Y 4))
        (k0_pay7 (Y 0) (Y 2) (View.ld (Y 3) (Rect.unit (k0_off1 (grid0.coords t) 0#32) S200x128.size (k0_off1_inb (grid0.coords t) hc1 0))) (Y 5) (Y 4))
        (off2_hi t ht) (off2_lo t ht) hf
        (fun x y hy0 hy1 => by
          rw [pay3_eq, h1, h2, h3, h4, h5, ld_rowBlock (F := F) (Launch.V m c main_arg1 : Vec F S10000x128 .f32) _ jhi _ ehi]
          exact hiddenBf_at _ _ _ _ _ jhi x y (by show (y 0).val = 200 * (2 * t.val + 1) + (x 0).val; omega) hy1)
        (fun x y hy0 hy1 => by
          rw [h0, h2, h3, h4, h5, ld_rowBlock (F := F) (Launch.V m c main_arg1 : Vec F S10000x128 .f32) _ jlo _ elo]
          exact hiddenBf_at _ _ _ _ _ jlo x y (by show (y 0).val = 200 * (2 * t.val) + (x 0).val; omega) hy1)
      rw [read_scratch1 c] at this; exact this
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  isplitl [H9]
  · iexists (Y 9); isplitr; · ipureintro; exact rfl
    iexact H9
  iexists (Y 10); isplitr
  · ipureintro
    show grows m c t (Y 10) (Y 10)
    intro _ y hy; exfalso; simp only [filledRes] at hy; omega
  iexact H10

/-- A staging buffer owned at contents `X` is held at some buffer contents that read `X`, and back. -/
theorem owns_open {S : Shape} {e : EltTy} (c : Dev nD) (a : Memref sig .tc .vmem S e) (X : S.Idx → Elt F e) :
    (owns (c : Thread nD τ) a fullShare X : sProp 𝕄)
      ⊢ iprop(∃ f, ⌜a.view.read (Elt F) f = X⌝ ∗ (a.view.loc (c : Thread nD τ) ↦[a.view.set]{fullShare} f)) := by
  unfold owns; exact .rfl
theorem owns_close {S : Shape} {e : EltTy} (c : Dev nD) (a : Memref sig .tc .vmem S e) (f : Buf (Elt F) (a.view.loc (c : Thread nD τ))) :
    ((a.view.loc (c : Thread nD τ) ↦[a.view.set]{fullShare} f) : sProp 𝕄)
      ⊢ owns (c : Thread nD τ) a fullShare (a.view.read (Elt F) f) := by
  unfold owns; iintro H; iexists f; isplitr; · ipureintro; rfl
  iexact H
/-- A scratch buffer held whole is owned through its memref at its contents, and back. -/
theorem scratch0_owns (c : Dev nD) (f : Buf (Elt F) ((c : Thread nD τ).loc cc0_scratch0)) :
    (owns (c : Thread nD τ) (Memref.whole cc0_scratch0 : Memref sig .tc .vmem S10000x64 .f32) fullShare (f : S10000x64.Idx → Elt F .f32) : sProp 𝕄)
      = (((c : Thread nD τ).loc cc0_scratch0) ↦{fullShare} f) := owns_whole (c : Thread nD τ) cc0_scratch0 fullShare f
theorem scratch1_owns (c : Dev nD) (f : Buf (Elt F) ((c : Thread nD τ).loc cc0_scratch1)) :
    (owns (c : Thread nD τ) (Memref.whole cc0_scratch1 : Memref sig .tc .vmem S10000x64 .bf16) fullShare (f : S10000x64.Idx → Elt F .bf16) : sProp 𝕄)
      = (((c : Thread nD τ).loc cc0_scratch1) ↦{fullShare} f) := owns_whole (c : Thread nD τ) cc0_scratch1 fullShare f
theorem scratch0_owns_in (c : Dev nD) (f : Buf (Elt F) ((c : Thread nD τ).loc cc0_scratch0)) :
    ((((c : Thread nD τ).loc cc0_scratch0) ↦{fullShare} f) : sProp 𝕄)
      ⊢ owns (c : Thread nD τ) (Memref.whole cc0_scratch0 : Memref sig .tc .vmem S10000x64 .f32) fullShare (f : S10000x64.Idx → Elt F .f32) := by
  rw [scratch0_owns c f]
theorem scratch0_owns_out (c : Dev nD) (f : Buf (Elt F) ((c : Thread nD τ).loc cc0_scratch0)) :
    (owns (c : Thread nD τ) (Memref.whole cc0_scratch0 : Memref sig .tc .vmem S10000x64 .f32) fullShare (f : S10000x64.Idx → Elt F .f32) : sProp 𝕄)
      ⊢ (((c : Thread nD τ).loc cc0_scratch0) ↦{fullShare} f) := by
  rw [scratch0_owns c f]
theorem scratch1_owns_in (c : Dev nD) (f : Buf (Elt F) ((c : Thread nD τ).loc cc0_scratch1)) :
    ((((c : Thread nD τ).loc cc0_scratch1) ↦{fullShare} f) : sProp 𝕄)
      ⊢ owns (c : Thread nD τ) (Memref.whole cc0_scratch1 : Memref sig .tc .vmem S10000x64 .bf16) fullShare (f : S10000x64.Idx → Elt F .bf16) := by
  rw [scratch1_owns c f]
theorem scratch1_owns_out (c : Dev nD) (f : Buf (Elt F) ((c : Thread nD τ).loc cc0_scratch1)) :
    (owns (c : Thread nD τ) (Memref.whole cc0_scratch1 : Memref sig .tc .vmem S10000x64 .bf16) fullShare (f : S10000x64.Idx → Elt F .bf16) : sProp 𝕄)
      ⊢ (((c : Thread nD τ).loc cc0_scratch1) ↦{fullShare} f) := by
  rw [scratch1_owns c f]

set_option maxHeartbeats 1000000 in
/-- A point of the second stage. -/
theorem stepSecond (c : Dev nD) (t : Fin cfg0.N) (ht : 25 ≤ t.val)
    (Y : (w : Fin cfg0.W) → (cfg0.win w).block.Idx → Elt F (cfg0.win w).elt)
    (h0 : Y 0 = rowBlock (Launch.V m c main_arg0 : Vec F S10000x10000 .f32) ⟨2 * (t.val % 25), by omega⟩)
    (h1 : Y 1 = rowBlock (Launch.V m c main_arg0 : Vec F S10000x10000 .f32) ⟨2 * (t.val % 25) + 1, by omega⟩)
    (h6 : Y 6 = (Launch.V m c main_v2 : Vec F S1x32 .f32)) (h7 : Y 7 = (Launch.V m c main_arg4 : Vec F S64x32 .f32))
    (h8 : Y 8 = (Launch.V m c main_arg6 : Vec F S32x1 .f32)) (h9 : Y 9 = (Launch.V m c main_v3 : Vec F S1x1 .f32))
    (h10 : RowsDone (F := F) (filledRes t.val) (Y 10 : S10000x1.Idx → Elt F .f32) (res m c)) :
    iprop((rdat m c).Φ t.castSucc ∗ (rdat m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7)
        ∗ owns (c : Thread nD τ) ((cfg0.win 8).stage (cfg0.slots t 8)) fullShare (Y 8)
        ∗ owns (c : Thread nD τ) ((cfg0.win 9).stage (cfg0.slots t 9)) fullShare (Y 9)
        ∗ owns (c : Thread nD τ) ((cfg0.win 10).stage (cfg0.slots t 10)) fullShare (Y 10))
      ⊢ wp frame (wpE (defs₀ (F := F)) Variants.none c none) Set.univ (bodyAt0 t) fun _ =>
          iprop((rdat m c).Φ t.succ ∗ (rdat m c).owesAt () t.succ
          ∗ (∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)
          ∗ (∃ X, ⌜(rdat m c).after 5 t (Y 5) X⌝ ∗ owns (c : Thread nD τ) ((cfg0.win 5).stage (cfg0.slots t 5)) fullShare X)
          ∗ (∃ X, ⌜(rdat m c).after 6 t (Y 6) X⌝ ∗ owns (c : Thread nD τ) ((cfg0.win 6).stage (cfg0.slots t 6)) fullShare X)
          ∗ (∃ X, ⌜(rdat m c).after 7 t (Y 7) X⌝ ∗ owns (c : Thread nD τ) ((cfg0.win 7).stage (cfg0.slots t 7)) fullShare X)
          ∗ (∃ X, ⌜(rdat m c).after 8 t (Y 8) X⌝ ∗ owns (c : Thread nD τ) ((cfg0.win 8).stage (cfg0.slots t 8)) fullShare X)
          ∗ (∃ X, ⌜(rdat m c).after 9 t (Y 9) X⌝ ∗ owns (c : Thread nD τ) ((cfg0.win 9).stage (cfg0.slots t 9)) fullShare X)
          ∗ (∃ X, ⌜(rdat m c).after 10 t (Y 10) X⌝ ∗ owns (c : Thread nD τ) ((cfg0.win 10).stage (cfg0.slots t 10)) fullShare X)) := by
  have hc1 : ¬ k0_cond1 (grid0.coords t) = 1#1 := fun h => by have := (first_iff t).mp h; omega
  have hc2 : k0_cond2 (grid0.coords t) = 1#1 := (second_iff t).mpr ht
  have htN : t.val < 50 := lt_of_lt_of_eq t.isLt N_0
  rw [rdat_Φ, rdat_Φ]; unfold carried
  iintro ⟨⟨%f0, %f1, %hdone, Hs0, Hs1⟩, Ho, H0, H1, H2, H3, H4, H5, H6, H7, H8, H9, H10⟩
  -- the scratch buffers are full: they are the hidden layer
  have hfull : (f0 : S10000x64.Idx → Elt F .f32) = hid m c ∧ (f1 : S10000x64.Idx → Elt F .bf16) = hidBf m c := by
    have := hdone; simp only [filledHid, Fin.coe_castSucc] at this; rw [Nat.min_eq_right (by omega)] at this
    exact ⟨funext fun y => this.1 y (idx2_lt0 y), funext fun y => this.2 y (idx2_lt0 y)⟩
  ihave Hm0 := (scratch0_owns_in c f0) $$ Hs0
  ihave Hm1 := (scratch1_owns_in c f1) $$ Hs1
  ihave Hr := (owns_open c _ _) $$ H10
  icases Hr with ⟨%f11, %hf11, Hr⟩
  iapply (runSecond c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) hc1 hc2 (Y 0) (Y 1) (Y 6) (Y 7) (Y 8) (Y 9) (f0 : S10000x64.Idx → Elt F .f32) (f1 : S10000x64.Idx → Elt F .bf16) f11 Set.univ _)
  isplitl [H0]; · iexact H0
  isplitl [H1]; · iexact H1
  isplitl [H6]; · iexact H6
  isplitl [H7]; · iexact H7
  isplitl [H8]; · iexact H8
  isplitl [H9]; · iexact H9
  isplitl [Hm0]; · iexact Hm0
  isplitl [Hm1]; · iexact Hm1
  isplitl [Hr]; · iexact Hr
  iintro ⟨H0, H1, H6, H7, H8, H9, Hs0, Hs1, H10⟩
  have e25 : t.val % 25 = t.val - 25 := by omega
  have jlo_lt : 2 * (t.val - 25) < 50 := by omega
  have jhi_lt : 2 * (t.val - 25) + 1 < 50 := by omega
  let jlo : Fin 50 := ⟨2 * (t.val - 25), jlo_lt⟩
  let jhi : Fin 50 := ⟨2 * (t.val - 25) + 1, jhi_lt⟩
  have h0 : Y 0 = rowBlock (Launch.V m c main_arg0 : Vec F S10000x10000 .f32) jlo := by
    rw [h0]; congr 1; exact Fin.ext (by show 2 * (t.val % 25) = 2 * (t.val - 25); rw [e25])
  have h1 : Y 1 = rowBlock (Launch.V m c main_arg0 : Vec F S10000x10000 .f32) jhi := by
    rw [h1]; congr 1; exact Fin.ext (by show 2 * (t.val % 25) + 1 = 2 * (t.val - 25) + 1; rw [e25])
  have elo : k0_off3 (grid0.coords t) 0#32 = ![200 * jlo.val, 0] := by
    rw [off3_lo t ht]; show ![400 * (t.val - 25), 0] = ![200 * (2 * (t.val - 25)), 0]; rw [show 400 * (t.val - 25) = 200 * (2 * (t.val - 25)) by omega]
  have ehi : k0_off3 (grid0.coords t) 200#32 = ![200 * jhi.val, 0] := by
    rw [off3_hi t ht]; show ![400 * (t.val - 25) + 200, 0] = ![200 * (2 * (t.val - 25) + 1), 0]; rw [show 400 * (t.val - 25) + 200 = 200 * (2 * (t.val - 25) + 1) by omega]
  have e : filledRes (t.val + 1) = 400 * (t.val - 25) + 400 := by simp only [filledRes]; omega
  have e' : filledRes t.val = 400 * (t.val - 25) := rfl
  -- the invariant: the scratch buffers as they were, still full
  isplitl [Hs0 Hs1]
  · iexists f0, f1
    isplitr
    · ipureintro
      have := hdone; simp only [filledHid, Fin.coe_castSucc, Fin.val_succ] at this ⊢
      rw [Nat.min_eq_right (by omega)] at this; rw [Nat.min_eq_right (by omega)]; exact this
    isplitl [Hs0]
    · iapply (scratch0_owns_out c f0); iexact Hs0
    · iapply (scratch1_owns_out c f1); iexact Hs1
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  isplitl [H9]
  · iexists (Y 9); isplitr; · ipureintro; exact rfl
    iexact H9
  -- the result's buffer: 400 more rows are the result's
  iexists _; isplitr [H10]
  swap
  · iapply (owns_close c _ _); iexact H10
  ipureintro
  show grows m c t (Y 10) _
  intro _
  rw [e]
  have hf : RowsDone (F := F) (400 * (t.val - 25)) ((win0_10.stage (cfg0.slots t 10)).view.read (Elt F) f11) (res m c) := by
    rw [hf11]; exact h10
  exact rowsDone_two (F := F) (win0_10.stage (cfg0.slots t 10)).view f11 (res m c) (400 * (t.val - 25)) _ _ S200x1.size rfl rfl
    (k0_off4_inb (grid0.coords t) hc2 1) (k0_off4_inb (grid0.coords t) hc2 0)
    (k0_pay4 (Y 1) (f1 : S10000x64.Idx → Elt F .bf16) (View.ld (f0 : S10000x64.Idx → Elt F .f32) (Rect.unit (k0_off3 (grid0.coords t) 200#32) S200x64.size (k0_off3_inb (grid0.coords t) hc2 1))) (Y 7) (Y 6) (Y 8) (Y 9))
    (k0_pay8 (Y 0) (f1 : S10000x64.Idx → Elt F .bf16) (View.ld (f0 : S10000x64.Idx → Elt F .f32) (Rect.unit (k0_off3 (grid0.coords t) 0#32) S200x64.size (k0_off3_inb (grid0.coords t) hc2 0))) (Y 7) (Y 6) (Y 8) (Y 9))
    (off4_hi t ht) (off4_lo t ht) hf
    (fun x y hy0 hy1 => by
      rw [pay4_eq, h1, hfull.1, hfull.2, h6, h7, h8, h9, ld_rowBlock (F := F) (hid m c) _ jhi _ ehi]
      exact head_at _ _ _ _ _ _ _ jhi x y (by show (y 0).val = 200 * (2 * (t.val - 25) + 1) + (x 0).val; omega) hy1)
    (fun x y hy0 hy1 => by
      rw [h0, hfull.1, hfull.2, h6, h7, h8, h9, ld_rowBlock (F := F) (hid m c) _ jlo _ elo]
      exact head_at _ _ _ _ _ _ _ jlo x y (by show (y 0).val = 200 * (2 * (t.val - 25)) + (x 0).val; omega) hy1)

/-- The body obligation of the region. -/
theorem body_obligation (c : Dev nD) : (rdat m c).BodyObligation (defs₀ (F := F)) Variants.none () Set.univ := by
  intro t Y hY
  rw [bigSep_W0, bigSep_W0]
  by_cases ht : t.val < 25
  · exact stepFirst m c t ht Y (finds_adj0 m c t _ (hY 0)) (finds_adj1 m c t _ (hY 1)) (finds_whole2 m c t _ (hY 2))
      (finds_whole3 m c t _ (hY 3)) (finds_whole4 m c t _ (hY 4)) (finds_whole5 m c t _ (hY 5))
  · exact stepSecond m c t (by omega) Y (finds_adj0 m c t _ (hY 0)) (finds_adj1 m c t _ (hY 1)) (finds_whole6 m c t _ (hY 6))
      (finds_whole7 m c t _ (hY 7)) (finds_whole8 m c t _ (hY 8)) (finds_whole9 m c t _ (hY 9)) (finds_result m c t _ (hY 10))

end Cert.Kernel.Body

end
-- ==== Proof.SharesK.lean ====
/-
  The region's entry and exit conditions for the proof data of ProofData.lean.

  * `hsplit`: the distinct buffers behind the eleven windows' arrays, each whole at the full share at its contents at the
    region's entry, make the proof data's `arrays`.  Ten arrays stand behind one window each and go to it whole; the
    adjacency array stands behind windows 0 and 1, and its full share is the composite of its left half (window 0's
    share) and its right half (window 1's).
  * `hin`: the two scratch buffers at any contents give the invariant before the first point, which asks nothing of
    their rows (no row is below 0).
  * `hout`: the invariant after the last point gives the two scratch buffers back at the contents it names.
-/
import proofs.«181627_g9191230013956_cont_9to1_m_1205_16_alg».proof.Proof.ProofDataK
import proofs.«181627_g9191230013956_cont_9to1_m_1205_16_alg».proof.Proof.Gen.Kernel.Launch

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The ten distinct buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)
          ∗ (((c : Thread nD τ).loc main_arg1) ↦{fullShare} V main_arg1) ∗ (((c : Thread nD τ).loc main_v1) ↦{fullShare} V main_v1)
          ∗ (((c : Thread nD τ).loc main_arg2) ↦{fullShare} V main_arg2) ∗ (((c : Thread nD τ).loc main_v2) ↦{fullShare} V main_v2)
          ∗ (((c : Thread nD τ).loc main_arg4) ↦{fullShare} V main_arg4) ∗ (((c : Thread nD τ).loc main_arg6) ↦{fullShare} V main_arg6)
          ∗ (((c : Thread nD τ).loc main_v3) ↦{fullShare} V main_v3) ∗ (((c : Thread nD τ).loc main_v4) ↦{fullShare} V main_v4)) := by
  unfold Pipeline.arrBufs
  exact bigSep_eq_bigSepL_of_eq [main_arg0, main_v0, main_arg1, main_v1, main_arg2, main_v2, main_arg4, main_arg6, main_v3, main_v4]
    (by decide) (by decide) _

/-- The proof data's arrays at contents `G`, window by window: each window's array is a whole buffer, held at the
    window's share. -/
theorem rdat_arrays_eq (c : Dev nD) (G : (w : Fin cfg0.W) → Buf (Elt F) ((cfg0.win w).arr.view.loc (c : Thread nD τ))) :
    (rdat m c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_arg1) ↦{fullShare} G 3)
          ∗ (((c : Thread nD τ).loc main_v1) ↦{fullShare} G 4) ∗ (((c : Thread nD τ).loc main_arg2) ↦{fullShare} G 5)
          ∗ (((c : Thread nD τ).loc main_v2) ↦{fullShare} G 6) ∗ (((c : Thread nD τ).loc main_arg4) ↦{fullShare} G 7)
          ∗ (((c : Thread nD τ).loc main_arg6) ↦{fullShare} G 8) ∗ (((c : Thread nD τ).loc main_v3) ↦{fullShare} G 9)
          ∗ (((c : Thread nD τ).loc main_v4) ↦{fullShare} G 10)) := by
  have e : (rdat m c).arrays G = bigSep Finset.univ fun w : Fin 11 =>
      ((((c : Thread nD τ).loc (Pipeline.arrRef spec0 w)) ↦{(rdat m c).share w} G w : sProp 𝕄)) := by
    unfold RDat.arrays
    exact bigSep_congr fun w _ => by rw [(arr_whole0 w).set_eq_univ]
  rw [e, bigSep_W0]
  rfl

/-- The arrays' shares dealt to the windows. -/
theorem hsplit (c : Dev nD) : (Pipeline.arrBufs (cfgs 0).spec c (Launch.V m c) : sProp 𝕄) ⊢ (rdats m 0 c).arrays (rdats m 0 c).A := by
  show (Pipeline.arrBufs spec0 c (Launch.V m c) : sProp 𝕄) ⊢ (rdat m c).arrays (rdat m c).A
  rw [arrBufs0_eq, rdat_arrays_eq]
  iintro ⟨H0, H2, H3, H4, H5, H6, H7, H8, H9, H10⟩
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The scratch buffers at any contents give the invariant before the first point. -/
theorem hin (c : Dev nD) :
    (Pipeline.scopedRest (Ix := Unit) (Name := ℕ) (U := UR sig nD τ) (Lvl := ℕ) (Val := Elt F) (cfgs 0).spec c : sProp 𝕄) ⊢ (rdats m 0 c).Φ 0 := by
  show (Pipeline.scopedRest (Ix := Unit) (Name := ℕ) (U := UR sig nD τ) (Lvl := ℕ) (Val := Elt F) spec0 c : sProp 𝕄) ⊢ carried m c 0
  rw [scopedRest0_eq]
  unfold carried
  iintro ⟨⟨%f0, H0⟩, ⟨%f1, H1⟩⟩
  iexists f0
  iexists f1
  isplitr
  · ipureintro
    exact ⟨fun y hy => absurd hy (Nat.not_lt_zero _), fun y hy => absurd hy (Nat.not_lt_zero _)⟩
  · isplitl [H0]
    · iexact H0
    · iexact H1

/-- The invariant after the last point gives the scratch buffers back. -/
theorem hout (c : Dev nD) :
    (rdats m 0 c).Φ (Fin.last (cfgs 0).N) ⊢ (Pipeline.scopedRest (Ix := Unit) (Name := ℕ) (U := UR sig nD τ) (Lvl := ℕ) (Val := Elt F) (cfgs 0).spec c : sProp 𝕄) := by
  show carried m c (Fin.last cfg0.N) ⊢ (Pipeline.scopedRest (Ix := Unit) (Name := ℕ) (U := UR sig nD τ) (Lvl := ℕ) (Val := Elt F) spec0 c : sProp 𝕄)
  rw [scopedRest0_eq]
  unfold carried
  iintro ⟨%f0, %f1, -, H0, H1⟩
  isplitl [H0]
  · iexists f0; iexact H0
  · iexists f1; iexact H1

end Cert.Kernel.Body

end
-- ==== Proof.RunK.lean ====
/-
  The run of the kernel program, for any float instance: every weakly fair execution terminates without a fault, the
  result array ends at the result column of LayersK.lean (the head over the kernel's own hidden layer, as functions of
  the argument arrays after the host operations before the region), and every argument array ends as it began.

  The region is launched with its relational proof data: the body obligation, the adjacency array's share dealt to its
  two windows, the scratch buffers handed to the invariant and taken back.  What the launch concludes of each window's
  array is then read: the result window's one write-back, after the last point, replaces the whole result array by a
  staging buffer whose every row has been filled; an input window's array is never written; an argument no window stages
  is not touched.
-/
import proofs.«181627_g9191230013956_cont_9to1_m_1205_16_alg».proof.Proof.ObligationK
import proofs.«181627_g9191230013956_cont_9to1_m_1205_16_alg».proof.Proof.SharesK
import proofs.«181627_g9191230013956_cont_9to1_m_1205_16_alg».proof.Proof.LibSharedRel

noncomputable section

namespace Cert.Kernel.Body

open Cert.Kernel Cert.Kernel.Gen
open Idealize.ShloMosaic Idealize.ShloMosaic.TcCoe
open Idealize.SL Idealize.SL.Sem
open Idealize.ShloMosaic.Pipeline (RDat Cfg Window cellOf)

variable {F : FTy → Type} [FloatOps F]

variable (m : (ℓ : Loc nD τ sig) → Buf (Elt F) ℓ)

/-- The region's run: each window's array ends at contents the write-backs may leave; the other arguments as they were. -/
theorem run_region (g : Dev nD → PrngReg) :
    θ_run (defs (F := F)) (onTc (τ := τ) (main (F := F))) ⟨m, fun _ => 0, g⟩
      (fun r => ∀ c : Dev nD,
        (∀ w : Fin cfg0.W, (rdat m c).ArrAt w cfg0.N (r.2.mem ((spec0 w).arr.view.loc (c.tc : Thread nD τ))))
        ∧ ∀ b ∈ Pipeline.restRefs sig spec0, r.2.mem ((c.tc : Thread nD τ).loc b) = Launch.V m c b) :=
  Cert.SharedFrame.run_shared_rel cfgs (rdats m) 0 cellOf_inj winFacts₀0 block_pos0 arr_whole0 stage_whole0 defs₀ Variants.none m g
    (main (F := F)) (fun c => body_obligation m c) (fun _ _ => rfl) (Launch.V m) (Launch.hmain m Variants.none)
    (hsplit m) (hin m) (hout m)

/-- The run read at the program's own buffers: the result, and the eight arguments unchanged. -/
theorem run_main (g : Dev nD → PrngReg) :
    θ_run (defs (F := F)) (onTc (τ := τ) (main (F := F))) ⟨m, fun _ => 0, g⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨result_array m c _ ((h c).1 10),
      (input_array m c 0 (by decide) _ ((h c).1 0)).trans (Launch.V_arg0 m c),
      (input_array m c 3 (by decide) _ ((h c).1 3)).trans (Launch.V_arg1 m c),
      (input_array m c 5 (by decide) _ ((h c).1 5)).trans (Launch.V_arg2 m c),
      ((h c).2 main_arg3 (by decide)).trans (Launch.V_arg3 m c),
      (input_array m c 7 (by decide) _ ((h c).1 7)).trans (Launch.V_arg4 m c),
      ((h c).2 main_arg5 (by decide)).trans (Launch.V_arg5 m c),
      (input_array m c 8 (by decide) _ ((h c).1 8)).trans (Launch.V_arg6 m c),
      ((h c).2 main_arg7 (by decide)).trans (Launch.V_arg7 m c)⟩) (run_region m g)

end Cert.Kernel.Body

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«181627_g9191230013956_cont_9to1_m_1205_16_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.GraphLayer.lean ====
/-
  One layer of the graph network on the extended reals, over rank-2 arrays of any extents.

  With `A` the adjacency rows, `H` the features of all nodes, `S` the features of the rows' own nodes, a layer is
  `max ((c · S + A H) W + b, 0)`: the neighbours' features summed, a multiple of the node's own features added, a
  dense map, a bias row, rectified.  One program spells the combination `A H − c · S`, the other `(−c) · S + A H`; on
  the extended reals a difference is the sum with the negative and the negative of a product is the product with the
  negative factor, so the two are equal with no finiteness assumed (no distributivity is used).  The read-out of
  the network is a layer followed by a dense map and a bias row, not rectified.

  Entry `(p, q)` of a layer depends on row `p` of `A` and of `S` only: a block of rows of the layer is the layer of
  the block of rows.
-/
import proofs.«181627_g9191230013956_cont_9to1_m_1205_16_alg».proof.Proof.LibBiasRow

noncomputable section

open scoped BigOperators

namespace Cert.GraphLayer

open Idealize.ShloMosaic Idealize.ShloMosaic.ValueIdx Cert.Dense Cert.BiasRow

/-- `A H − c · S`: the neighbours' sum less a multiple of the own features. -/
def aggSub {M K N : ℕ} (c : EReal) (A : Mat M K) (H : Mat K N) (S : Mat M N) : Mat M N :=
  fun i => mm A H i - c * S i

/-- `c · S + A H`: a multiple of the own features plus the neighbours' sum. -/
def aggAdd {M K N : ℕ} (c : EReal) (A : Mat M K) (H : Mat K N) (S : Mat M N) : Mat M N :=
  fun i => c * S i + mm A H i

theorem aggAdd_apply {M K N : ℕ} (c : EReal) (A : Mat M K) (H : Mat K N) (S : Mat M N) (p : Fin M) (q : Fin N) :
    aggAdd c A H S (ix2 p q) = c * S (ix2 p q) + ∑ k : Fin K, A (ix2 p k) * H (ix2 k q) := rfl

/-- Subtracting `c · S` is adding `(−c) · S`. -/
theorem aggSub_eq_aggAdd_neg {M K N : ℕ} (c : EReal) (A : Mat M K) (H : Mat K N) (S : Mat M N) :
    aggSub c A H S = aggAdd (-c) A H S := by
  funext i
  show mm A H i - c * S i = -c * S i + mm A H i
  rw [sub_eq_add_neg, neg_mul, add_comm]

/-- The layer `max ((c · S + A H) W + b, 0)`. -/
def layer {M K D N : ℕ} (c : EReal) (A : Mat M K) (H : Mat K D) (S : Mat M D) (W : Mat D N) (b : Mat 1 N) : Mat M N :=
  reluBias (mm (aggAdd c A H S) W) b

theorem layer_apply {M K D N : ℕ} (c : EReal) (A : Mat M K) (H : Mat K D) (S : Mat M D) (W : Mat D N) (b : Mat 1 N)
    (p : Fin M) (q : Fin N) :
    layer c A H S W b (ix2 p q)
      = max ((∑ d : Fin D, (c * S (ix2 p d) + ∑ k : Fin K, A (ix2 p k) * H (ix2 k d)) * W (ix2 d q)) + b (ix2 (0 : Fin 1) q)) 0 :=
  rfl

/-- Row `p'` of the layer of `A'`, `S'` is row `p` of the layer of `A`, `S` when those rows of the operands agree. -/
theorem layer_rows {M M' K D N : ℕ} (c : EReal) (A : Mat M K) (A' : Mat M' K) (H : Mat K D) (S : Mat M D) (S' : Mat M' D)
    (W : Mat D N) (b : Mat 1 N) (p : Fin M) (p' : Fin M') (hA : ∀ k, A' (ix2 p' k) = A (ix2 p k))
    (hS : ∀ d, S' (ix2 p' d) = S (ix2 p d)) (q : Fin N) :
    layer c A' H S' W b (ix2 p' q) = layer c A H S W b (ix2 p q) := by
  simp only [layer_apply, hA, hS]

/-- The read-out `max ((c · S + A H) W + b, 0) V + d`: a layer, a dense map and a bias row. -/
def readout {M K D N P : ℕ} (c : EReal) (A : Mat M K) (H : Mat K D) (S : Mat M D) (W : Mat D N) (b : Mat 1 N)
    (V : Mat N P) (d : Mat 1 P) : Mat M P :=
  addRow (mm (layer c A H S W b) V) d

theorem readout_apply {M K D N P : ℕ} (c : EReal) (A : Mat M K) (H : Mat K D) (S : Mat M D) (W : Mat D N) (b : Mat 1 N)
    (V : Mat N P) (d : Mat 1 P) (p : Fin M) (q : Fin P) :
    readout c A H S W b V d (ix2 p q)
      = (∑ n : Fin N, layer c A H S W b (ix2 p n) * V (ix2 n q)) + d (ix2 (0 : Fin 1) q) := rfl

/-- Row `p'` of the read-out of `A'`, `S'` is row `p` of the read-out of `A`, `S` when those rows of the operands agree. -/
theorem readout_rows {M M' K D N P : ℕ} (c : EReal) (A : Mat M K) (A' : Mat M' K) (H : Mat K D) (S : Mat M D) (S' : Mat M' D)
    (W : Mat D N) (b : Mat 1 N) (V : Mat N P) (d : Mat 1 P) (p : Fin M) (p' : Fin M')
    (hA : ∀ k, A' (ix2 p' k) = A (ix2 p k)) (hS : ∀ d, S' (ix2 p' d) = S (ix2 p d)) (q : Fin P) :
    readout c A' H S' W b V d (ix2 p' q) = readout c A H S W b V d (ix2 p q) := by
  simp only [readout_apply, layer_rows c A A' H S S' W b p p' hA hS]

end Cert.GraphLayer

end
-- ==== Proof.Reference.lean ====
/-
  The kernel's result, as one function of the whole argument arrays, is the reference program's result, on the
  extended reals.

  Both programs compute  out = max ((−2 · H + A H) W2 + b2, 0) W3 + b3  with  H = max ((−3 · X + A X) W1 + b1, 0).
  The kernel computes 200 rows at a time and writes  A Z − c · Z_own  where the reference writes  (−c) · Z + A Z;
  its changes of format are the identity on the extended reals, its matrix products into a zero accumulator and the
  reference's dot products are the same sums, and a row of a block of rows is that row of the whole array.  So each
  stored block is the block of rows of a layer (`Cert.GraphLayer.layer`, `readout`) of the whole arrays, and the
  reference's stages are the same layers.  The literals `3`, `−3`, `2`, `−2` enter only through  −3 = −(3)  and
  −2 = −(2).
-/
import proofs.«181627_g9191230013956_cont_9to1_m_1205_16_alg».proof.Proof.Gen.ReferenceIdeal.Read
import proofs.«181627_g9191230013956_cont_9to1_m_1205_16_alg».proof.Proof.Layers
import proofs.«181627_g9191230013956_cont_9to1_m_1205_16_alg».proof.Proof.GraphLayer

noncomputable section

open scoped BigOperators

namespace Cert.Bridge

open Idealize.ShloMosaic Idealize.ShloMosaic.ValueIdx Cert.KernelIdeal Cert.KernelIdeal.Gen Cert.Dense Cert.BiasRow
open Cert.GraphLayer

/-- A change of format is the identity on the extended reals. -/
theorem truncf_ideal {s : Shape} {φ ψ : FTy} (x : FVec Ideal s φ) (h : ψ.bits < φ.bits) :
    truncf (F := Ideal) ψ x h = x := rfl

/-! ## The literals -/

/-- The word of `3`. -/
abbrev w3 : EReal := Ideal.ofBits .f32 0x40400000#32
/-- The word of `2`. -/
abbrev w2 : EReal := Ideal.ofBits .f32 0x40000000#32

/-- The word of `−3` denotes the negative of the word of `3`. -/
theorem neg_three : Ideal.ofBits .f32 0xC0400000#32 = -w3 := by
  simp [Ideal.ofBits, Ideal.ieee]

/-- The word of `−2` denotes the negative of the word of `2`. -/
theorem neg_two : Ideal.ofBits .f32 0xC0000000#32 = -w2 := by
  simp [Ideal.ofBits, Ideal.ieee]

/-! ## The kernel's stored blocks -/

/-- The first stage's block: the layer of the block's adjacency rows and own feature rows. -/
theorem pay5_eq (v6 : Vec Ideal S200x10000 .f32) (v8 : Vec Ideal S10000x128 .bf16) (v14 : Vec Ideal S200x128 .f32)
    (v19 : Vec Ideal S128x64 .f32) (v22 : Vec Ideal S1x64 .f32) :
    k0_pay5 (F := Ideal) v6 v8 v14 v19 v22 = layer (-w3) v6 v8 v14 v19 v22 := by
  unfold k0_pay5
  dsimp only
  rw [shapeCast_self, shapeCast_self, truncf_ideal, truncf_ideal, truncf_ideal]
  refine (vecReluBias _ _ _).trans ?_
  rw [matmul_zero_eq_mm _ rfl rfl rfl rfl rfl rfl, matmul_zero_eq_mm _ rfl rfl rfl rfl rfl rfl]
  exact congrArg (fun Z => reluBias (mm Z v19) v22) (aggSub_eq_aggAdd_neg w3 v6 v8 v14)

/-- The block stored in f32. -/
theorem pay6_eq (v6 : Vec Ideal S200x10000 .f32) (v8 : Vec Ideal S10000x128 .bf16) (v14 : Vec Ideal S200x128 .f32)
    (v19 : Vec Ideal S128x64 .f32) (v22 : Vec Ideal S1x64 .f32) :
    k0_pay6 (F := Ideal) v6 v8 v14 v19 v22 = layer (-w3) v6 v8 v14 v19 v22 := by
  unfold k0_pay6
  dsimp only
  rw [shapeCast_self]
  exact pay5_eq v6 v8 v14 v19 v22

/-- The block stored in bf16: the same extended reals. -/
theorem pay7_eq (v6 : Vec Ideal S200x10000 .f32) (v8 : Vec Ideal S10000x128 .bf16) (v14 : Vec Ideal S200x128 .f32)
    (v19 : Vec Ideal S128x64 .f32) (v22 : Vec Ideal S1x64 .f32) :
    k0_pay7 (F := Ideal) v6 v8 v14 v19 v22 = layer (-w3) v6 v8 v14 v19 v22 := by
  unfold k0_pay7
  dsimp only
  rw [shapeCast_self, truncf_ideal]
  exact pay5_eq v6 v8 v14 v19 v22

/-- The second stage's block: the read-out of the block's adjacency rows and own hidden rows. -/
theorem pay8_eq (v7 : Vec Ideal S200x10000 .f32) (v9 : Vec Ideal S10000x64 .bf16) (v14 : Vec Ideal S200x64 .f32)
    (v19 : Vec Ideal S64x32 .f32) (v22 : Vec Ideal S1x32 .f32) (v29 : Vec Ideal S32x1 .f32) (v32 : Vec Ideal S1x1 .f32) :
    k0_pay8 (F := Ideal) v7 v9 v14 v19 v22 v29 v32 = readout (-w2) v7 v9 v14 v19 v22 v29 v32 := by
  unfold k0_pay8
  dsimp only
  rw [shapeCast_self, shapeCast_self, truncf_ideal, truncf_ideal, truncf_ideal, truncf_ideal, truncf_ideal]
  refine (vecAddRow _ _ _).trans ?_
  rw [matmul_zero_eq_mm _ rfl rfl rfl rfl rfl rfl, vecReluBias, matmul_zero_eq_mm _ rfl rfl rfl rfl rfl rfl,
    matmul_zero_eq_mm _ rfl rfl rfl rfl rfl rfl]
  exact congrArg (fun Z => addRow (mm (reluBias (mm Z v19) v22) v29) v32) (aggSub_eq_aggAdd_neg w2 v7 v9 v14)

/-! ## The reference's stages -/

section Reference

open Cert.ReferenceIdeal Cert.ReferenceIdeal.Read

/-- The first combination: `(−3) · X + A X`. -/
theorem ref_v3 (A : Mat 10000 10000) (X : Mat 10000 128) : val_main_v3 (F := Ideal) A X = aggAdd (-w3) A X X := by
  funext i
  rw [val_main_v3_apply, val_main_v2_apply, val_main_v1_apply, val_main_cst_apply]
  show Ideal.ofBits .f32 0xC0400000#32 * X i + val_main_v0 (F := Ideal) A X i = -w3 * X i + mm A X i
  unfold val_main_v0
  rw [hostDot_eq_mm _ rfl rfl rfl rfl rfl rfl, neg_three]

/-- The reference's hidden layer is the layer of the whole arrays. -/
theorem ref_v8 (A : Mat 10000 10000) (X : Mat 10000 128) (W1 : Mat 128 64) (b1 : Row 64) :
    val_main_v8 (F := Ideal) A X W1 b1 = layer (-w3) A X X W1 (Cert.Dense.row b1) := by
  unfold val_main_v8 val_main_v7 val_main_v6 val_main_v5 val_main_call0_v0 val_main_call0_cst val_main_v4
  refine (hostReluBias _ _ _ _ _).trans ?_
  rw [hostDot_eq_mm _ rfl rfl rfl rfl rfl rfl, ref_v3]
  rfl

/-- The second combination: `(−2) · H + A H` of the reference's hidden layer `H`. -/
theorem ref_v12 (A : Mat 10000 10000) (X : Mat 10000 128) (W1 : Mat 128 64) (b1 : Row 64) :
    val_main_v12 (F := Ideal) A X W1 b1
      = aggAdd (-w2) A (val_main_v8 (F := Ideal) A X W1 b1) (val_main_v8 (F := Ideal) A X W1 b1) := by
  funext i
  rw [val_main_v12_apply, val_main_v11_apply, val_main_v10_apply, val_main_cst_0_apply]
  show Ideal.ofBits .f32 0xC0000000#32 * val_main_v8 (F := Ideal) A X W1 b1 i + val_main_v9 (F := Ideal) A X W1 b1 i
    = -w2 * val_main_v8 (F := Ideal) A X W1 b1 i + mm A (val_main_v8 (F := Ideal) A X W1 b1) i
  unfold val_main_v9
  rw [hostDot_eq_mm _ rfl rfl rfl rfl rfl rfl, neg_two]

/-- The reference's result is the read-out of the whole arrays over its hidden layer. -/
theorem ref_v21 (A : Mat 10000 10000) (X : Mat 10000 128) (W1 : Mat 128 64) (b1 : Row 64) (W2 : Mat 64 32) (b2 : Row 32)
    (W3 : Mat 32 1) (b3 : Row 1) :
    val_main_v21 (F := Ideal) A X W1 b1 W2 b2 W3 b3
      = readout (-w2) A (val_main_v8 (F := Ideal) A X W1 b1) (val_main_v8 (F := Ideal) A X W1 b1) W2 (Cert.Dense.row b2)
          W3 (Cert.Dense.row b3) := by
  unfold val_main_v21 val_main_v20 val_main_v19 val_main_v18
  refine (hostAddRow _ _ _ _).trans ?_
  rw [hostDot_eq_mm _ rfl rfl rfl rfl rfl rfl]
  unfold val_main_v17 val_main_v16 val_main_v15 val_main_v14 val_main_call1_v0 val_main_call1_cst val_main_v13
  rw [hostReluBias, hostDot_eq_mm _ rfl rfl rfl rfl rfl rfl, ref_v12]
  rfl

end Reference

/-! ## From blocks of rows to the whole arrays -/

open Cert.Layers (blk pos row_blk_pos rowBlock)

/-- A row of its block is the row of the whole array. -/
theorem rowBlock_blk_pos {c : ℕ} (Z : Mat 10000 c) (r : Fin 10000) (k : Fin c) :
    rowBlock (F := Ideal) (e := .f32) Z (blk r) (ix2 (pos r) k) = Z (ix2 r k) := by
  show Z (ix2 (Cert.Layers.row (blk r) (pos r)) k) = Z (ix2 r k)
  rw [row_blk_pos]

/-- The kernel's hidden layer, f32 store: the layer of the whole arrays. -/
theorem hidden_eq (A : Mat 10000 10000) (Xbf X : Mat 10000 128) (W1 : Mat 128 64) (b1 : Mat 1 64) :
    Cert.Layers.hidden (F := Ideal) A Xbf X W1 b1 = layer (-w3) A Xbf X W1 b1 := by
  funext i
  obtain ⟨r, q, rfl⟩ : ∃ (r : Fin 10000) (q : Fin 64), i = ix2 r q := ⟨i 0, i 1, eq_ix2 i⟩
  show k0_pay6 (F := Ideal) (rowBlock (F := Ideal) (e := .f32) A (blk r)) Xbf (rowBlock (F := Ideal) (e := .f32) X (blk r)) W1 b1
      (ix2 (pos r) q) = _
  rw [pay6_eq]
  exact layer_rows (-w3) A _ Xbf X _ W1 b1 r (pos r) (rowBlock_blk_pos A r) (rowBlock_blk_pos X r) q

/-- The kernel's hidden layer, bf16 store: the same. -/
theorem hiddenBf_eq (A : Mat 10000 10000) (Xbf X : Mat 10000 128) (W1 : Mat 128 64) (b1 : Mat 1 64) :
    Cert.Layers.hiddenBf (F := Ideal) A Xbf X W1 b1 = layer (-w3) A Xbf X W1 b1 := by
  funext i
  obtain ⟨r, q, rfl⟩ : ∃ (r : Fin 10000) (q : Fin 64), i = ix2 r q := ⟨i 0, i 1, eq_ix2 i⟩
  show k0_pay7 (F := Ideal) (rowBlock (F := Ideal) (e := .f32) A (blk r)) Xbf (rowBlock (F := Ideal) (e := .f32) X (blk r)) W1 b1
      (ix2 (pos r) q) = _
  rw [pay7_eq]
  exact layer_rows (-w3) A _ Xbf X _ W1 b1 r (pos r) (rowBlock_blk_pos A r) (rowBlock_blk_pos X r) q

/-- The kernel's result column over a hidden layer: the read-out of the whole arrays. -/
theorem head_eq (A : Mat 10000 10000) (Hbf H : Mat 10000 64) (W2 : Mat 64 32) (b2 : Mat 1 32) (W3 : Mat 32 1) (b3 : Mat 1 1) :
    Cert.Layers.head (F := Ideal) A Hbf H W2 b2 W3 b3 = readout (-w2) A Hbf H W2 b2 W3 b3 := by
  funext i
  obtain ⟨r, q, rfl⟩ : ∃ (r : Fin 10000) (q : Fin 1), i = ix2 r q := ⟨i 0, i 1, eq_ix2 i⟩
  show k0_pay8 (F := Ideal) (rowBlock (F := Ideal) (e := .f32) A (blk r)) Hbf (rowBlock (F := Ideal) (e := .f32) H (blk r)) W2 b2 W3 b3
      (ix2 (pos r) q) = _
  rw [pay8_eq]
  exact readout_rows (-w2) A _ Hbf H _ W2 b2 W3 b3 r (pos r) (rowBlock_blk_pos A r) (rowBlock_blk_pos H r) q

/-! ## The result -/

/-- The kernel's result, as a function of the whole argument arrays, is the reference's. -/
theorem result_eq_reference
    (A : Vec Ideal S10000x10000 .f32) (X : Vec Ideal S10000x128 .f32) (W1 : Vec Ideal S128x64 .f32) (b1 : Vec Ideal S64 .f32)
    (W2 : Vec Ideal S64x32 .f32) (b2 : Vec Ideal S32 .f32) (W3 : Vec Ideal S32x1 .f32) (b3 : Vec Ideal S1 .f32) :
    Cert.Layers.result (F := Ideal) A (truncf (F := Ideal) .bf16 X bitsLt_bf16_f32) X W1 (shapeCast S1x64 b1 shapeCasts_S64_S1x64)
        W2 (shapeCast S1x32 b2 shapeCasts_S32_S1x32) W3 (shapeCast S1x1 b3 shapeCasts_S1_S1x1)
      = Cert.ReferenceIdeal.Read.val_main_v21 (F := Ideal) A X W1 b1 W2 b2 W3 b3 := by
  unfold Cert.Layers.result
  rw [hidden_eq, hiddenBf_eq, head_eq, truncf_ideal, shapeCast_row, shapeCast_row, shapeCast_row, ref_v21, ref_v8]

end Cert.Bridge

end
-- ==== Proof.lean ====
/-
  The certificate: a fused two-layer graph network kernel against its plain reference.

  Both programs compute, from an adjacency array A, features X and three weight/bias pairs,
      H = relu((A·X − 3·X)·W1 + b1),   out = relu((A·H − 2·H)·W2 + b2)·W3 + b3,
  the reference writing the skip terms as (−3)·X + A·X and (−2)·H + A·H.  The kernel is one pipelined region of 50
  grid points over blocks of 400 rows: the first 25 points fill two scratch copies of H, the last 25 contract A
  against the finished H and fill the result, which is written back once.  Two of its windows read the one array A.

  * The frames of the two kernel programs are the region's run (RunKI.lean, RunK.lean: the same proof at the two float
    instances) with the result dropped; the reference's frame is its generated run with the result dropped.
  * The idealization rewrote nothing, so it preserves the program trivially.
  * At the extended reals the kernel's result array is the whole-array function of Layers.lean (the run), which is the
    reference's composed term (Reference.lean: the matrix unit's products are the host's, a format change is the
    identity, and a − 3·x = (−3)·x + a needs no finiteness), evaluated at arguments the two memories agree on.
-/
import proofs.«181627_g9191230013956_cont_9to1_m_1205_16_alg».proof.Defs
import proofs.«181627_g9191230013956_cont_9to1_m_1205_16_alg».proof.Proof.Gen.Kernel
import proofs.«181627_g9191230013956_cont_9to1_m_1205_16_alg».proof.Proof.Gen.KernelIdeal
import proofs.«181627_g9191230013956_cont_9to1_m_1205_16_alg».proof.Proof.Gen.ReferenceIdeal
import proofs.«181627_g9191230013956_cont_9to1_m_1205_16_alg».proof.Proof.Gen.Pre_finite_inputs
import proofs.«181627_g9191230013956_cont_9to1_m_1205_16_alg».proof.Proof.Gen.ReferenceIdeal.Run
import proofs.«181627_g9191230013956_cont_9to1_m_1205_16_alg».proof.Proof.Gen.ReferenceIdeal.Read
import proofs.«181627_g9191230013956_cont_9to1_m_1205_16_alg».proof.Proof.RunKI
import proofs.«181627_g9191230013956_cont_9to1_m_1205_16_alg».proof.Proof.RunK
import proofs.«181627_g9191230013956_cont_9to1_m_1205_16_alg».proof.Proof.Reference
import Idealize.ShloMosaic.Adequacy
import Idealize.ShloMosaic.Init

noncomputable section

namespace Cert.Proof

open Idealize.ShloMosaic Idealize.SL.Sem

/-- The kernel's result column, at the extended reals, is the reference's term of the same argument arrays. -/
theorem kernel_value (m : (ℓ : Loc Cert.KernelIdeal.nD Cert.KernelIdeal.τ Cert.KernelIdeal.sig) → Buf (Elt Ideal) ℓ)
    (c : Dev Cert.KernelIdeal.nD) :
    Cert.KernelIdeal.Body.res (F := Ideal) m c
      = Cert.ReferenceIdeal.Read.val_main_v21 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  rw [Cert.KernelIdeal.Body.res_eq, Cert.KernelIdeal.Launch.V_arg0, Cert.KernelIdeal.Launch.V_v0, Cert.KernelIdeal.Launch.V_arg1,
    Cert.KernelIdeal.Launch.V_arg2, Cert.KernelIdeal.Launch.V_v1, Cert.KernelIdeal.Launch.V_arg4, Cert.KernelIdeal.Launch.V_v2,
    Cert.KernelIdeal.Launch.V_arg6, Cert.KernelIdeal.Launch.V_v3]
  exact Cert.Bridge.result_eq_reference _ _ _ _ _ _ _ _

theorem frame_kernel : Cert.frame_Kernel := fun m g _ =>
  (θ_run (Cert.Kernel.defs (F := Bits)) _ _).mono (fun _ h c => (h c).2) (Cert.Kernel.Body.run_main (F := Bits) m g)

theorem frame_kernelIdeal : Cert.frame_KernelIdeal := fun m g _ =>
  (θ_run (Cert.KernelIdeal.defs (F := Ideal)) _ _).mono (fun _ h c => (h c).2) (Cert.KernelIdeal.Body.run_main (F := Ideal) m g)

theorem frame_referenceIdeal : Cert.frame_ReferenceIdeal := fun m g _ =>
  (θ_run (Cert.ReferenceIdeal.defs (F := Ideal)) _ _).mono (fun _ h c => (h c).2) (Cert.ReferenceIdeal.Value.run (F := Ideal) m g)

theorem preserves : Cert.preserves_Kernel_KernelIdeal := trivial

/-- Both idealized programs end with the kernel's result column: the kernel by its run, the reference because its
    composed term of agreeing arguments is that column. -/
theorem algebraic : Cert.algebraic_KernelIdeal_ReferenceIdeal := by
  intro m g m' g' _ hagree
  refine ⟨fun c => Cert.KernelIdeal.Body.res (F := Ideal) m c, Cert.KernelIdeal.Body.run_main (F := Ideal) m g, ?_⟩
  refine (θ_run (Cert.ReferenceIdeal.defs (F := Ideal)) _ _).mono (fun _ h c => ⟨(h c).1.trans ?_, (h c).2⟩)
    (Cert.ReferenceIdeal.Value.run (F := Ideal) m' g')
  rw [Cert.ReferenceIdeal.Read.val_main_v21_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (kernel_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
